-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S32 .f32) (main_arg14 : FVec F S32 .f32) (main_arg15 : FVec F S32x128 .f32) (main_arg16 : FVec F S128 .f32) (main_arg17 : FVec F S128 .f32) (main_arg18 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x128 .f32 := Host.absf main_arg15
  let main_cst_24 : FVec F S_ .f32 := constant S_ .f32 0x7F800000#32
  let main_v65 : FVec F S32x128 .f32 := broadcastInDim S32x128 ![] bcast_S_S32x128 main_cst_24
  let main_v66 : IVec S32x128 1 := cmpf .olt main_v64 main_v65
  let main_c_25 : IVec S_ 1 := constantI S_ 1 1#1
  let main_v67 : IVec S_ 1 := (fun x v => Host.reduce IntOp.andi x v reducesTo_S32x128_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x32 .f32) (main_arg12 : FVec F S32 .f32) (main_arg13 : FVec F S32 .f32) (main_arg14 : FVec F S32 .f32) (main_arg15 : FVec F S32x128 .f32) (main_arg16 : FVec F S128 .f32) (main_arg17 : FVec F S128 .f32) (main_arg18 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_v48 main_v49 main_v50

def fn_part1 {F : FTy → Type} [FloatOps F] (main_arg6 : FVec F S32 .f32) (main_arg7 : FVec F S32x128 .f32) (main_arg8 : FVec F S128 .f32) (main_arg9 : FVec F S128 .f32) (main_arg10 : FVec F S128 .f32) (main_arg11 : FVec F S128x32 .f32) (main_arg12 : FVec F S32 .f32) (main_arg13 : FVec F S32 .f32) (main_arg14 : FVec F S32 .f32) (main_arg15 : FVec F S32x128 .f32) (main_arg16 : FVec F S128 .f32) (main_arg17 : FVec F S128 .f32) (main_arg18 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg7
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S1600000 32) (main_arg2 : IVec S1600000 32) (main_arg3 : FVec F S128x32 .f32) (main_arg4 : FVec F S32 .f32) (main_arg5 : FVec F S32 .f32) (main_arg6 : FVec F S32 .f32) (main_arg7 : FVec F S32x128 .f32) (main_arg8 : FVec F S128 .f32) (main_arg9 : FVec F S128 .f32) (main_arg10 : FVec F S128 .f32) (main_arg11 : FVec F S128x32 .f32) (main_arg12 : FVec F S32 .f32) (main_arg13 : FVec F S32 .f32) (main_arg14 : FVec F S32 .f32) (main_arg15 : FVec F S32x128 .f32) (main_arg16 : FVec F S128 .f32) (main_arg17 : FVec F S128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x128 : Shape := ⟨2, ![32, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S10000x128 : Shape := ⟨2, ![10000, 128]⟩
abbrev S10000x32 : Shape := ⟨2, ![10000, 32]⟩
abbrev S1x32 : Shape := ⟨2, ![1, 32]⟩
abbrev S1x128 : Shape := ⟨2, ![1, 128]⟩

abbrev nBuf : Space → Nat
  | .hbm => 183
  | .vmem => 52
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x32, .f32⟩
  | 4 => ⟨S32, .f32⟩
  | 5 => ⟨S32, .f32⟩
  | 6 => ⟨S32, .f32⟩
  | 7 => ⟨S32x128, .f32⟩
  | 8 => ⟨S128, .f32⟩
  | 9 => ⟨S128, .f32⟩
  | 10 => ⟨S128, .f32⟩
  | 11 => ⟨S128x32, .f32⟩
  | 12 => ⟨S32, .f32⟩
  | 13 => ⟨S32, .f32⟩
  | 14 => ⟨S32, .f32⟩
  | 15 => ⟨S32x128, .f32⟩
  | 16 => ⟨S128, .f32⟩
  | 17 => ⟨S128, .f32⟩
  | 18 => ⟨S128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S128x32, .bf16⟩
  | 33 => ⟨S32x128, .bf16⟩
  | 34 => ⟨S100000x32, .f32⟩
  | 35 => ⟨S_, .f32⟩
  | 36 => ⟨S32, .f32⟩
  | 37 => ⟨S_, .f32⟩
  | 38 => ⟨S32, .f32⟩
  | 39 => ⟨S32, .f32⟩
  | 40 => ⟨S_, .i32⟩
  | 41 => ⟨S_, .f32⟩
  | 42 => ⟨S32, .f32⟩
  | 43 => ⟨S1x32, .f32⟩
  | 44 => ⟨S_, .f32⟩
  | 45 => ⟨S1x32, .f32⟩
  | 46 => ⟨S1x32, .f32⟩
  | 47 => ⟨S100000x32, .f32⟩
  | 48 => ⟨S100000x32, .f32⟩
  | 49 => ⟨S100000x32, .f32⟩
  | 50 => ⟨S_, .f32⟩
  | 51 => ⟨S_, .f32⟩
  | 52 => ⟨S_, .f32⟩
  | 53 => ⟨S_, .f32⟩
  | 54 => ⟨S32, .f32⟩
  | 55 => ⟨S32, .f32⟩
  | 56 => ⟨S32, .f32⟩
  | 57 => ⟨S_, .f32⟩
  | 58 => ⟨S_, .i1⟩
  | 59 => ⟨S_, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S32, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S128x32, .bf16⟩
  | 115 => ⟨S32x128, .bf16⟩
  | 116 => ⟨S100000x32, .f32⟩
  | 117 => ⟨S_, .f32⟩
  | 118 => ⟨S32, .f32⟩
  | 119 => ⟨S_, .f32⟩
  | 120 => ⟨S32, .f32⟩
  | 121 => ⟨S32, .f32⟩
  | 122 => ⟨S_, .i32⟩
  | 123 => ⟨S_, .f32⟩
  | 124 => ⟨S32, .f32⟩
  | 125 => ⟨S1x32, .f32⟩
  | 126 => ⟨S_, .f32⟩
  | 127 => ⟨S1x32, .f32⟩
  | _ => ⟨S100000x128, .f32⟩

abbrev hbmTy0_1 (i : Nat) : BufTy := match i % 128 with
  | 0 => ⟨S1x32, .f32⟩
  | 1 => ⟨S100000x32, .f32⟩
  | 2 => ⟨S100000x32, .f32⟩
  | 3 => ⟨S100000x32, .f32⟩
  | 4 => ⟨S_, .f32⟩
  | 5 => ⟨S_, .f32⟩
  | 6 => ⟨S_, .f32⟩
  | 7 => ⟨S_, .f32⟩
  | 8 => ⟨S32, .f32⟩
  | 9 => ⟨S32, .f32⟩
  | 10 => ⟨S32, .f32⟩
  | 11 => ⟨S_, .f32⟩
  | 12 => ⟨S_, .i1⟩
  | 13 => ⟨S_, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S100000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S100000x128, .f32⟩
  | 35 => ⟨S100000x128, .f32⟩
  | 36 => ⟨S100000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x32, .bf16⟩
  | .local _ .vmem, ⟨5, _⟩ => ⟨S32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S32, .f32⟩
  | .local _ .vmem, ⟨11, _⟩ => ⟨S32, .f32⟩
  | .local _ .vmem, ⟨12, _⟩ => ⟨S32, .f32⟩
  | .local _ .vmem, ⟨13, _⟩ => ⟨S32, .f32⟩
  | .local _ .vmem, ⟨14, _⟩ => ⟨S32x128, .bf16⟩
  | .local _ .vmem, ⟨15, _⟩ => ⟨S128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x32, .bf16⟩
  | .local _ .vmem, ⟨31, _⟩ => ⟨S32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S32, .f32⟩
  | .local _ .vmem, ⟨37, _⟩ => ⟨S32, .f32⟩
  | .local _ .vmem, ⟨38, _⟩ => ⟨S32, .f32⟩
  | .local _ .vmem, ⟨39, _⟩ => ⟨S32, .f32⟩
  | .local _ .vmem, ⟨40, _⟩ => ⟨S32x128, .bf16⟩
  | .local _ .vmem, ⟨41, _⟩ => ⟨S128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S10000x128, .f32⟩
  | .local _ .vmem, ⟨51, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v16 : Ref sig .tc := ⟨.hbm, 62, rfl⟩
abbrev main_cst_4 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_5 : Ref sig .tc := ⟨.hbm, 68, rfl⟩
abbrev main_v21 : Ref sig .tc := ⟨.hbm, 69, rfl⟩
abbrev main_cst_6 : Ref sig .tc := ⟨.hbm, 70, rfl⟩
abbrev main_v22 : Ref sig .tc := ⟨.hbm, 71, rfl⟩
abbrev main_v23 : Ref sig .tc := ⟨.hbm, 72, rfl⟩
abbrev main_c_7 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v24 : Ref sig .tc := ⟨.hbm, 95, rfl⟩
abbrev main_cst_8 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_c_9 : Ref sig .tc := ⟨.hbm, 101, rfl⟩
abbrev main_v29 : Ref sig .tc := ⟨.hbm, 102, rfl⟩
abbrev main_v30 : Ref sig .tc := ⟨.hbm, 103, rfl⟩
abbrev main_c_10 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_cst_11 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_cst_12 : Ref sig .tc := ⟨.hbm, 117, rfl⟩
abbrev main_v42 : Ref sig .tc := ⟨.hbm, 118, rfl⟩
abbrev main_cst_13 : Ref sig .tc := ⟨.hbm, 119, rfl⟩
abbrev main_v43 : Ref sig .tc := ⟨.hbm, 120, rfl⟩
abbrev main_v44 : Ref sig .tc := ⟨.hbm, 121, rfl⟩
abbrev main_c_14 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_cst_2 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_cst_3 : Ref sig .tc := ⟨.hbm, 139, rfl⟩
abbrev main_call2_v12 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v45 : Ref sig .tc := ⟨.hbm, 144, rfl⟩
abbrev main_cst_15 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_cst_16 : Ref sig .tc := ⟨.hbm, 150, rfl⟩
abbrev main_v50 : Ref sig .tc := ⟨.hbm, 151, rfl⟩
abbrev main_cst_17 : Ref sig .tc := ⟨.hbm, 152, rfl⟩
abbrev main_v51 : Ref sig .tc := ⟨.hbm, 153, rfl⟩
abbrev main_v52 : Ref sig .tc := ⟨.hbm, 154, rfl⟩
abbrev main_c_18 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_cst_3 : Ref sig .tc := ⟨.hbm, 172, rfl⟩
abbrev main_call3_v12 : Ref sig .tc := ⟨.hbm, 173, rfl⟩
abbrev main_call3_cst_4 : Ref sig .tc := ⟨.hbm, 174, rfl⟩
abbrev main_call3_call0_v0 : Ref sig .tc := ⟨.hbm, 175, rfl⟩
abbrev main_call3_call0_v1 : Ref sig .tc := ⟨.hbm, 176, rfl⟩
abbrev main_v53 : Ref sig .tc := ⟨.hbm, 177, rfl⟩
abbrev main_cst_19 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x32 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  reducesTo_S100000x32_S32_d0 : S100000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S100000x32_0_1 : S1x32.BroadcastsInDim S100000x32 (![0, 1] : Fin 2 → Fin S100000x32.rank)
  shapeCasts_S10000x32_S10000x32 : S10000x32.ShapeCasts S10000x32
  shapeCasts_S32_S32 : S32.ShapeCasts S32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S128 : S128.ShapeCasts S128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x32_S10000x32_1_0_0_1_n_n_wf : DotDims.WF S10000x128 S128x32 S10000x32 [1] [0] [0] [1] [] []
  dot_S10000x32_S32x128_S10000x128_1_0_0_1_n_n_wf : DotDims.WF S10000x32 S32x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .bf16 = 32 ∨ (Rect.block (s := S128x32) S128x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x32.size a ≤ S100000x32.size a
  hwx0_4 : ∀ i : grid0.Coords, EltTy.bits .f32 = 32 ∨ (Rect.block (s := S100000x32) S10000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S32x128.size a
  hwx1_5 : ∀ i : grid1.Coords, EltTy.bits .bf16 = 32 ∨ (Rect.block (s := S32x128) S32x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x32.size a ≤ S128x32.size a
  hwx3_2 : ∀ i : grid3.Coords, EltTy.bits .bf16 = 32 ∨ (Rect.block (s := S128x32) S128x32.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S100000x32.size a
  hwx3_4 : ∀ i : grid3.Coords, EltTy.bits .f32 = 32 ∨ (Rect.block (s := S100000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32.size a ≤ S32.size a
  hwx4_1 : ∀ i : grid4.Coords, EltTy.bits .f32 = 32 ∨ (Rect.block (s := S32) S32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x128.size a ≤ S32x128.size a
  hwx4_5 : ∀ i : grid4.Coords, EltTy.bits .bf16 = 32 ∨ (Rect.block (s := S32x128) S32x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S100000x128.size a
  hwx4_7 : ∀ i : grid4.Coords, EltTy.bits .f32 = 32 ∨ (Rect.block (s := S100000x128) S10000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S10000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S32x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v28) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S128x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v41) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S32x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg16) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v49) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v49) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x128 : Shape := ⟨2, ![32, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S1x128 : Shape := ⟨2, ![1, 128]⟩

abbrev nBuf : Space → Nat
  | .hbm => 259
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x32, .f32⟩
  | 4 => ⟨S32, .f32⟩
  | 5 => ⟨S32, .f32⟩
  | 6 => ⟨S32, .f32⟩
  | 7 => ⟨S32x128, .f32⟩
  | 8 => ⟨S128, .f32⟩
  | 9 => ⟨S128, .f32⟩
  | 10 => ⟨S128, .f32⟩
  | 11 => ⟨S128x32, .f32⟩
  | 12 => ⟨S32, .f32⟩
  | 13 => ⟨S32, .f32⟩
  | 14 => ⟨S32, .f32⟩
  | 15 => ⟨S32x128, .f32⟩
  | 16 => ⟨S128, .f32⟩
  | 17 => ⟨S128, .f32⟩
  | 18 => ⟨S128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S100000x32, .f32⟩
  | 34 => ⟨S1x32, .f32⟩
  | 35 => ⟨S100000x32, .f32⟩
  | 36 => ⟨S100000x32, .f32⟩
  | 37 => ⟨S_, .f32⟩
  | 38 => ⟨S100000x32, .f32⟩
  | 39 => ⟨S100000x32, .f32⟩
  | 40 => ⟨S_, .f32⟩
  | 41 => ⟨S32, .f32⟩
  | 42 => ⟨S_, .f32⟩
  | 43 => ⟨S32, .f32⟩
  | 44 => ⟨S32, .f32⟩
  | 45 => ⟨S_, .i32⟩
  | 46 => ⟨S_, .f32⟩
  | 47 => ⟨S32, .f32⟩
  | 48 => ⟨S1x32, .f32⟩
  | 49 => ⟨S_, .f32⟩
  | 50 => ⟨S1x32, .f32⟩
  | 51 => ⟨S1x32, .f32⟩
  | 52 => ⟨S100000x32, .f32⟩
  | 53 => ⟨S100000x32, .f32⟩
  | 54 => ⟨S100000x32, .f32⟩
  | 55 => ⟨S_, .f32⟩
  | 56 => ⟨S_, .f32⟩
  | 57 => ⟨S_, .f32⟩
  | 58 => ⟨S_, .f32⟩
  | 59 => ⟨S32, .f32⟩
  | 60 => ⟨S32, .f32⟩
  | 61 => ⟨S32, .f32⟩
  | 62 => ⟨S_, .f32⟩
  | 63 => ⟨S_, .i1⟩
  | 64 => ⟨S_, .f32⟩
  | 65 => ⟨S_, .f32⟩
  | 66 => ⟨S32, .f32⟩
  | 67 => ⟨S32, .f32⟩
  | 68 => ⟨S1x32, .f32⟩
  | 69 => ⟨S100000x32, .f32⟩
  | 70 => ⟨S100000x32, .f32⟩
  | 71 => ⟨S_, .f32⟩
  | 72 => ⟨S32, .f32⟩
  | 73 => ⟨S32, .f32⟩
  | 74 => ⟨S32, .f32⟩
  | 75 => ⟨S1x32, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S1x32, .f32⟩
  | 82 => ⟨S100000x32, .f32⟩
  | 83 => ⟨S100000x32, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S100000x128, .f32⟩
  | 101 => ⟨S100000x128, .f32⟩
  | 102 => ⟨S100000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .i1⟩
  | 7 => ⟨S_, .f32⟩
  | 8 => ⟨S100000x128, .f32⟩
  | 9 => ⟨S100000x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000x128, .f32⟩
  | 25 => ⟨S100000x32, .f32⟩
  | 26 => ⟨S1x32, .f32⟩
  | 27 => ⟨S100000x32, .f32⟩
  | 28 => ⟨S100000x32, .f32⟩
  | 29 => ⟨S_, .f32⟩
  | 30 => ⟨S100000x32, .f32⟩
  | 31 => ⟨S100000x32, .f32⟩
  | 32 => ⟨S_, .f32⟩
  | 33 => ⟨S32, .f32⟩
  | 34 => ⟨S_, .f32⟩
  | 35 => ⟨S32, .f32⟩
  | 36 => ⟨S32, .f32⟩
  | 37 => ⟨S_, .i32⟩
  | 38 => ⟨S_, .f32⟩
  | 39 => ⟨S32, .f32⟩
  | 40 => ⟨S1x32, .f32⟩
  | 41 => ⟨S_, .f32⟩
  | 42 => ⟨S1x32, .f32⟩
  | 43 => ⟨S1x32, .f32⟩
  | 44 => ⟨S100000x32, .f32⟩
  | 45 => ⟨S100000x32, .f32⟩
  | 46 => ⟨S100000x32, .f32⟩
  | 47 => ⟨S_, .f32⟩
  | 48 => ⟨S_, .f32⟩
  | 49 => ⟨S_, .f32⟩
  | 50 => ⟨S_, .f32⟩
  | 51 => ⟨S32, .f32⟩
  | 52 => ⟨S32, .f32⟩
  | 53 => ⟨S32, .f32⟩
  | 54 => ⟨S_, .f32⟩
  | 55 => ⟨S_, .i1⟩
  | 56 => ⟨S_, .f32⟩
  | 57 => ⟨S_, .f32⟩
  | 58 => ⟨S32, .f32⟩
  | 59 => ⟨S32, .f32⟩
  | 60 => ⟨S1x32, .f32⟩
  | 61 => ⟨S100000x32, .f32⟩
  | 62 => ⟨S100000x32, .f32⟩
  | 63 => ⟨S_, .f32⟩
  | 64 => ⟨S32, .f32⟩
  | 65 => ⟨S32, .f32⟩
  | 66 => ⟨S32, .f32⟩
  | 67 => ⟨S1x32, .f32⟩
  | 68 => ⟨S100000x32, .f32⟩
  | 69 => ⟨S100000x32, .f32⟩
  | 70 => ⟨S1x32, .f32⟩
  | 71 => ⟨S100000x32, .f32⟩
  | 72 => ⟨S100000x32, .f32⟩
  | 73 => ⟨S1x32, .f32⟩
  | 74 => ⟨S100000x32, .f32⟩
  | 75 => ⟨S100000x32, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S100000x128, .f32⟩
  | 93 => ⟨S100000x128, .f32⟩
  | 94 => ⟨S100000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .i1⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_5 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_6 : Ref sig .tc := ⟨.hbm, 88, rfl⟩
abbrev main_v40 : Ref sig .tc := ⟨.hbm, 89, rfl⟩
abbrev main_cst_7 : Ref sig .tc := ⟨.hbm, 90, rfl⟩
abbrev main_v41 : Ref sig .tc := ⟨.hbm, 91, rfl⟩
abbrev main_v42 : Ref sig .tc := ⟨.hbm, 92, rfl⟩
abbrev main_c_8 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_cst_3 : Ref sig .tc := ⟨.hbm, 110, rfl⟩
abbrev main_call1_v12 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_9 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_10 : Ref sig .tc := ⟨.hbm, 132, rfl⟩
abbrev main_v59 : Ref sig .tc := ⟨.hbm, 133, rfl⟩
abbrev main_v60 : Ref sig .tc := ⟨.hbm, 134, rfl⟩
abbrev main_cst_11 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_c_12 : Ref sig .tc := ⟨.hbm, 139, rfl⟩
abbrev main_v64 : Ref sig .tc := ⟨.hbm, 140, rfl⟩
abbrev main_v65 : Ref sig .tc := ⟨.hbm, 141, rfl⟩
abbrev main_c_13 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_14 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_cst_15 : Ref sig .tc := ⟨.hbm, 157, rfl⟩
abbrev main_v79 : Ref sig .tc := ⟨.hbm, 158, rfl⟩
abbrev main_v80 : Ref sig .tc := ⟨.hbm, 159, rfl⟩
abbrev main_cst_16 : Ref sig .tc := ⟨.hbm, 160, rfl⟩
abbrev main_v81 : Ref sig .tc := ⟨.hbm, 161, rfl⟩
abbrev main_cst_17 : Ref sig .tc := ⟨.hbm, 162, rfl⟩
abbrev main_v82 : Ref sig .tc := ⟨.hbm, 163, rfl⟩
abbrev main_v83 : Ref sig .tc := ⟨.hbm, 164, rfl⟩
abbrev main_c_18 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_cst_1 : Ref sig .tc := ⟨.hbm, 176, rfl⟩
abbrev main_call3_v8 : Ref sig .tc := ⟨.hbm, 177, rfl⟩
abbrev main_call3_cst_2 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_cst_3 : Ref sig .tc := ⟨.hbm, 182, rfl⟩
abbrev main_call3_v12 : Ref sig .tc := ⟨.hbm, 183, rfl⟩
abbrev main_call3_cst_4 : Ref sig .tc := ⟨.hbm, 184, rfl⟩
abbrev main_call3_call0_v0 : Ref sig .tc := ⟨.hbm, 185, rfl⟩
abbrev main_call3_call0_v1 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_cst_19 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_cst_20 : Ref sig .tc := ⟨.hbm, 208, rfl⟩
abbrev main_v104 : Ref sig .tc := ⟨.hbm, 209, rfl⟩
abbrev main_cst_21 : Ref sig .tc := ⟨.hbm, 210, rfl⟩
abbrev main_v105 : Ref sig .tc := ⟨.hbm, 211, rfl⟩
abbrev main_v106 : Ref sig .tc := ⟨.hbm, 212, rfl⟩
abbrev main_c_22 : Ref sig .tc := ⟨.hbm, 213, rfl⟩
abbrev main_call4_cst : Ref sig .tc := ⟨.hbm, 214, rfl⟩
abbrev main_call4_v0 : Ref sig .tc := ⟨.hbm, 215, rfl⟩
abbrev main_call4_v1 : Ref sig .tc := ⟨.hbm, 216, rfl⟩
abbrev main_call4_cst_0 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_call4_v5 : Ref sig .tc := ⟨.hbm, 221, rfl⟩
abbrev main_call4_v6 : Ref sig .tc := ⟨.hbm, 222, rfl⟩
abbrev main_call4_v7 : Ref sig .tc := ⟨.hbm, 223, rfl⟩
abbrev main_call4_cst_1 : Ref sig .tc := ⟨.hbm, 224, rfl⟩
abbrev main_call4_v8 : Ref sig .tc := ⟨.hbm, 225, rfl⟩
abbrev main_call4_cst_2 : Ref sig .tc := ⟨.hbm, 226, rfl⟩
abbrev main_call4_v9 : Ref sig .tc := ⟨.hbm, 227, rfl⟩
abbrev main_call4_v10 : Ref sig .tc := ⟨.hbm, 228, rfl⟩
abbrev main_call4_v11 : Ref sig .tc := ⟨.hbm, 229, rfl⟩
abbrev main_call4_cst_3 : Ref sig .tc := ⟨.hbm, 230, rfl⟩
abbrev main_call4_v12 : Ref sig .tc := ⟨.hbm, 231, rfl⟩
abbrev main_call4_cst_4 : Ref sig .tc := ⟨.hbm, 232, rfl⟩
abbrev main_call4_call0_v0 : Ref sig .tc := ⟨.hbm, 233, rfl⟩
abbrev main_call4_call0_v1 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_cst_23 : Ref sig .tc := ⟨.hbm, 239, rfl⟩
abbrev main_v111 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_v117 : Ref sig .tc := ⟨.hbm, 246, rfl⟩
abbrev main_v118 : Ref sig .tc := ⟨.hbm, 247, rfl⟩
abbrev main_v119 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_cst_24 : Ref sig .tc := ⟨.hbm, 252, rfl⟩
abbrev main_v123 : Ref sig .tc := ⟨.hbm, 253, rfl⟩
abbrev main_v124 : Ref sig .tc := ⟨.hbm, 254, rfl⟩
abbrev main_cst_25 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x128_S100000x128_1_0_0_1_n_n_wf : DotDims.WF S100000x32 S32x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf

class Facts : Prop extends Facts₀ where

variable [Facts]
-- ==== Proof.Spec.lean ====
/-
  The specification: the two-layer graph network as ONE function of the nineteen argument arrays, written with the
  host operations themselves.  One layer is
    agg[i]  = sum over the edges e with dst[e] = i of x[src[e]]        (a gather, then an accumulating scatter)
    h1      = max ((x + agg) · W1 + b1, 0)
    h2      = (((h1 - mean h1) * rsqrt (var h1 + eps)) * g1 + be1) · W2 + b2
    out     = leaky (((h2 - mean h2) * rsqrt (var h2 + eps)) * g2 + be2),   leaky y = if y > 0 then y else 0.01 * y
  with mean and var the biased batch statistics over the 100000 rows.  Every stage is a definition of its own so that
  the two programs can be compared stage by stage, each stage's inputs being named values.
-/
import proofs.«134813_j35914516529300_1_alg».proof.ReferenceIdeal
import proofs.«134813_j35914516529300_1_alg».proof.Proof.Gen.ReferenceIdeal

noncomputable section

namespace Cert.Spec

open Idealize.ShloMosaic Cert.ReferenceIdeal Cert.ReferenceIdeal.Facts₀

variable {F : FTy → Type} [FloatOps F]

/-- The type of a float array of shape `S`. -/
abbrev Arr (F : FTy → Type) (S : Shape) : Type := (⟨S, .f32⟩ : BufTy).Contents (Elt F)
/-- The type of a 32-bit integer array of shape `S`. -/
abbrev IArr (F : FTy → Type) (S : Shape) : Type := (⟨S, .i32⟩ : BufTy).Contents (Elt F)

/-- The aggregated neighbours: row `i` is the sum of the rows `x[src[e]]` over the edges `e` with `dst[e] = i`
    (a negative source index is first wrapped by adding the number of rows). -/
def agg (x : Arr F S100000x128) (src dst : IArr F S1600000) : Arr F S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A vector of 32 entries as a row repeated 100000 times. -/
def rows32 (v : Arr F S32) : Arr F S100000x32 :=
  broadcastInDim S100000x32 ![0, 1] bcast_S1x32_S100000x32_0_1 (broadcastInDim S1x32 ![1] bcast_S32_S1x32_1 v)

/-- A vector of 128 entries as a row repeated 100000 times. -/
def rows128 (v : Arr F S128) : Arr F S100000x128 :=
  broadcastInDim S100000x128 ![0, 1] bcast_S1x128_S100000x128_0_1 (broadcastInDim S1x128 ![1] bcast_S128_S1x128_1 v)

/-- The first linear map and the rectifier: `max ((x + agg) · W1 + b1, 0)`. -/
def lin1 (x ag : Arr F S100000x128) (W1 : Arr F S128x32) (b1 : Arr F S32) : Arr F S100000x32 :=
  maximumf
    (addf (Host.dotGeneral dot_S100000x128_S128x32_S100000x32_1_0_0_1_n_n none (addf x ag) W1) (rows32 b1))
    (broadcastInDim S100000x32 ![] bcast_S_S100000x32 (constant S_ .f32 0x00000000#32))

/-- The column means of a 100000 × 32 array. -/
def mean32 (h : Arr F S100000x32) : Arr F S32 :=
  Host.divf (Host.reduceAdd h (constant S_ .f32 0x00000000#32) reducesTo_S100000x32_S32_d0 h_S_)
    (broadcastInDim S32 ![] bcast_S_S32 (constant S_ .f32 0x47C35000#32))

/-- The array minus its column means (the means taken through a one-row array, as the variance does). -/
def centred32 (h : Arr F S100000x32) : Arr F S100000x32 :=
  subf h (broadcastInDim S100000x32 ![0, 1] bcast_S1x32_S100000x32_0_1
    (Host.divf (broadcastInDim S1x32 ![1] bcast_S32_S1x32_1
        (Host.reduceAdd h (constant S_ .f32 0x00000000#32) reducesTo_S100000x32_S32_d0 h_S_))
      (broadcastInDim S1x32 ![] bcast_S_S1x32 (constant S_ .f32 0x47C35000#32))))

/-- The divisor of the variance: the number of rows minus the correction, the correction being zero. -/
def dof : Arr F S_ :=
  subf (constant S_ .f32 0x47C35000#32) (sitofp .f32 (constantI S_ 32 0#32))

/-- The biased column variances of a 100000 × 32 array. -/
def var32 (h : Arr F S100000x32) : Arr F S32 :=
  select (broadcastInDim S32 ![] bcast_S_S32 (cmpf .ogt (dof (F := F)) (constant S_ .f32 0x00000000#32)))
    (Host.divf (Host.reduceAdd (mulf (centred32 h) (centred32 h)) (constant S_ .f32 0x00000000#32) reducesTo_S100000x32_S32_d0 h_S_)
      (broadcastInDim S32 ![] bcast_S_S32 (dof (F := F))))
    (broadcastInDim S32 ![] bcast_S_S32 (id (constant S_ .f32 0x7FC00000#32)))

/-- `1 / sqrt (v + eps)` on 32 entries. -/
def invstd32 (v : Arr F S32) : Arr F S32 :=
  Host.rsqrt (addf v (broadcastInDim S32 ![] bcast_S_S32 (constant S_ .f32 0x3727C5AC#32)))

/-- The normalisation of the hidden layer followed by the second linear map:
    `(((h1 - mean) * inv) * g + be) · W2 + b2`. -/
def bnlin2 (h1 : Arr F S100000x32) (mean inv g be : Arr F S32) (W2 : Arr F S32x128) (b2 : Arr F S128) : Arr F S100000x128 :=
  addf
    (Host.dotGeneral dot_S100000x32_S32x128_S100000x128_1_0_0_1_n_n none
      (addf (mulf (mulf (subf h1 (rows32 mean)) (rows32 inv)) (rows32 g)) (rows32 be)) W2)
    (rows128 b2)

/-- The column means of a 100000 × 128 array. -/
def mean128 (h : Arr F S100000x128) : Arr F S128 :=
  Host.divf (Host.reduceAdd h (constant S_ .f32 0x00000000#32) reducesTo_S100000x128_S128_d0 h_S_)
    (broadcastInDim S128 ![] bcast_S_S128 (constant S_ .f32 0x47C35000#32))

/-- The array minus its column means (the means taken through a one-row array, as the variance does). -/
def centred128 (h : Arr F S100000x128) : Arr F S100000x128 :=
  subf h (broadcastInDim S100000x128 ![0, 1] bcast_S1x128_S100000x128_0_1
    (Host.divf (broadcastInDim S1x128 ![1] bcast_S128_S1x128_1
        (Host.reduceAdd h (constant S_ .f32 0x00000000#32) reducesTo_S100000x128_S128_d0 h_S_))
      (broadcastInDim S1x128 ![] bcast_S_S1x128 (constant S_ .f32 0x47C35000#32))))

/-- The biased column variances of a 100000 × 128 array. -/
def var128 (h : Arr F S100000x128) : Arr F S128 :=
  select (broadcastInDim S128 ![] bcast_S_S128 (cmpf .ogt (dof (F := F)) (constant S_ .f32 0x00000000#32)))
    (Host.divf (Host.reduceAdd (mulf (centred128 h) (centred128 h)) (constant S_ .f32 0x00000000#32) reducesTo_S100000x128_S128_d0 h_S_)
      (broadcastInDim S128 ![] bcast_S_S128 (dof (F := F))))
    (broadcastInDim S128 ![] bcast_S_S128 (id (constant S_ .f32 0x7FC00000#32)))

/-- `1 / sqrt (v + eps)` on 128 entries. -/
def invstd128 (v : Arr F S128) : Arr F S128 :=
  Host.rsqrt (addf v (broadcastInDim S128 ![] bcast_S_S128 (constant S_ .f32 0x3727C5AC#32)))

/-- The normalised output before the activation: `((h2 - mean) * inv) * g + be`. -/
def bn128 (h2 : Arr F S100000x128) (mean inv g be : Arr F S128) : Arr F S100000x128 :=
  addf (mulf (mulf (subf h2 (rows128 mean)) (rows128 inv)) (rows128 g)) (rows128 be)

/-- The leaky rectifier of the normalised output: `y` where `y > 0`, else `0.01 * y`. -/
def bnleaky (h2 : Arr F S100000x128) (mean inv g be : Arr F S128) : Arr F S100000x128 :=
  select
    (cmpf .ogt (bn128 h2 mean inv g be) (broadcastInDim S100000x128 ![] bcast_S_S100000x128 (constant S_ .f32 0x00000000#32)))
    (bn128 h2 mean inv g be)
    (mulf (broadcastInDim S100000x128 ![] bcast_S_S100000x128 (constant S_ .f32 0x3C23D70A#32)) (bn128 h2 mean inv g be))

/-- The hidden layer of one graph layer. -/
def hidden (x : Arr F S100000x128) (src dst : IArr F S1600000) (W1 : Arr F S128x32) (b1 : Arr F S32) : Arr F S100000x32 :=
  lin1 x (agg x src dst) W1 b1

/-- The second linear map's output of one graph layer. -/
def second (h1 : Arr F S100000x32) (g1 be1 : Arr F S32) (W2 : Arr F S32x128) (b2 : Arr F S128) : Arr F S100000x128 :=
  bnlin2 h1 (mean32 h1) (invstd32 (var32 h1)) g1 be1 W2 b2

/-- The output of one graph layer from its second linear map's output. -/
def third (h2 : Arr F S100000x128) (g2 be2 : Arr F S128) : Arr F S100000x128 :=
  bnleaky h2 (mean128 h2) (invstd128 (var128 h2)) g2 be2

/-- One graph layer. -/
def layer (x : Arr F S100000x128) (src dst : IArr F S1600000) (W1 : Arr F S128x32) (b1 g1 be1 : Arr F S32)
    (W2 : Arr F S32x128) (b2 g2 be2 : Arr F S128) : Arr F S100000x128 :=
  third (second (hidden x src dst W1 b1) g1 be1 W2 b2) g2 be2

/-- The network: two graph layers over the same edges. -/
def net (x : Arr F S100000x128) (src dst : IArr F S1600000)
    (W1 : Arr F S128x32) (b1 g1 be1 : Arr F S32) (W2 : Arr F S32x128) (b2 g2 be2 : Arr F S128)
    (W1' : Arr F S128x32) (b1' g1' be1' : Arr F S32) (W2' : Arr F S32x128) (b2' g2' be2' : Arr F S128) : Arr F S100000x128 :=
  layer (layer x src dst W1 b1 g1 be1 W2 b2 g2 be2) src dst W1' b1' g1' be1' W2' b2' g2' be2'

end Cert.Spec

end
-- ==== Proof.KernelRun.lean ====
/-
  The kernel program's run with its result named.  The program is six launches among stretches of host operations;
  its buffer contents at each boundary are a fold from the launch memory, and at the return every unscoped buffer
  holds the last boundary's contents.  Here that is read at the result buffer as well as at the nineteen arguments:
  every weakly fair execution terminates, nothing faults, the result buffer holds the fold's value and the arguments
  are as launched.
-/
import proofs.«134813_j35914516529300_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates without a fault; the result buffer then holds the
    last boundary's contents and each argument array its launch contents. -/
theorem run : θ_run defs (onTc (τ := τ) (main (F := F))) ⟨m, fun _ => 0, ρ⟩ (fun r => ∀ c : Dev nD,
      r.2.mem ((c.tc : Thread nD τ).loc main_v57) = W20 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v57 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c)⟩)

end Cert.KernelIdeal.RunValue

end
-- ==== Proof.Region0Entry.lean ====
/-
  One entry of the first linear map followed by the rectifier, `max ((x + agg) · W1 + b1, 0)`, read at an index
  (row, column): once from the specification's stage over the whole 100000-row arrays, once from the kernel body's
  arithmetic over one block of 10000 rows.  Both are the same sum over the 128 contracted coordinates.
-/
import proofs.«134813_j35914516529300_1_alg».proof.Proof.Gen.KernelIdeal.Skeleton
import proofs.«134813_j35914516529300_1_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StackMember

set_option maxRecDepth 16384

noncomputable section

namespace Cert.KernelIdeal.Lin1Entry

open Cert.KernelIdeal Cert.KernelIdeal.Gen Idealize.ShloMosaic Idealize.ShloMosaic.ValueIdx
open scoped BigOperators

/-- The entry itself: a row of `x`, the same row of `agg`, a column of `W1` and an entry of `b1`. -/
def entry (xr ar w : Fin 128 → EReal) (b : EReal) : EReal :=
  max (∑ k : Fin 128, (xr k + ar k) * w k + b) 0

/-- The specification's stage at (r, j). -/
theorem lin1_apply (x ag : Cert.Spec.Arr Ideal S100000x128) (W : Cert.Spec.Arr Ideal S128x32) (b : Cert.Spec.Arr Ideal S32)
    (r : Fin 100000) (j : Fin 32) :
    Cert.Spec.lin1 (F := Ideal) x ag W b (ix2 r j)
      = entry (fun k => x (ix2 r k)) (fun k => ag (ix2 r k)) (fun k => W (ix2 k j)) (b (ix1 j)) := by
  unfold Cert.Spec.lin1 Cert.Spec.rows32 entry
  rw [maximumf_apply, addf_apply]
  have hrow : broadcastInDim ReferenceIdeal.S100000x32 ![0, 1] ReferenceIdeal.Facts₀.bcast_S1x32_S100000x32_0_1
      (broadcastInDim ReferenceIdeal.S1x32 ![1] ReferenceIdeal.Facts₀.bcast_S32_S1x32_1 b) (ix2 r j) = b (ix1 j) := by
    refine (broadcastInDim_apply _ _ _ (ix2 r j) (ix2 (0 : Fin 1) j) ?_).trans ?_
    · intro a
      match a with
      | ⟨0, _⟩ => rfl
      | ⟨1, _⟩ => rfl
    · refine broadcastInDim_apply _ _ _ (ix2 (0 : Fin 1) j) (ix1 j) ?_
      intro a
      match a with
      | ⟨0, _⟩ => rfl
  have hzero : broadcastInDim ReferenceIdeal.S100000x32 ![] ReferenceIdeal.Facts₀.bcast_S_S100000x32
      (constant (F := Ideal) ReferenceIdeal.S_ .f32 0x00000000#32) (ix2 r j) = 0 :=
    (broadcastInDim_apply _ _ _ (ix2 r j) ix0 (fun a => a.elim0)).trans Ideal.ofBits_zero_f32
  refine congrArg₂ max (congrArg₂ HAdd.hAdd ?_ hrow) hzero
  exact StackMember.dotGeneral_plain_apply none (addf x ag) W r j

/-- The kernel body's arithmetic over one block of 10000 rows, at (p, q): the add, the cast to the narrow format (the
    identity on extended reals), the matrix product into a zero accumulator (the plain sum), the bias row laid along
    every row, and the maximum with zero.  Stated over any contraction record that is the plain rows × columns one, any
    proofs of the layout side conditions, and a first summand `x0` known to be the loaded block `v0` (it is the block
    itself in one launch's body and its cast to its own shape in the other's). -/
theorem body_apply (D : DotDims S10000x128 S128x32 S10000x32) (hD : D = DotDims.plain 10000 128 32)
    (h1 : S10000x128.ShapeCasts S10000x128) (hb : FTy.bits .bf16 < FTy.bits .f32) (h2 : S128x32.ShapeCasts S128x32)
    (h3 : S32.ShapeCasts S1x32) (h4 : S1x32.Broadcasts S10000x32)
    (v0 v1 : Vec Ideal S10000x128 .f32) (v5 : Vec Ideal S128x32 .bf16) (v8 : Vec Ideal S32 .f32)
    (x0 : Vec Ideal S10000x128 .f32) (hx : x0 = v0) (p : Fin 10000) (q : Fin 32) :
    (maximumf (F := Ideal) (addf (matmul (φ₁ := .bf16) (φ₂ := .bf16) D none (truncf .bf16 (addf x0 (shapeCast S10000x128 v1 h1)) hb) (shapeCast S128x32 v5 h2)
          (constant S10000x32 .f32 0x00000000#32))
        (broadcastTo S10000x32 (shapeCast S1x32 v8 h3) h4))
      (broadcast S10000x32 (Scalar.ofBits .f32 0x00000000#32)) : FVec Ideal S10000x32 .f32) (ix2 p q)
      = entry (fun k => v0 (ix2 p k)) (fun k => v1 (ix2 p k)) (fun k => v5 (ix2 k q)) (v8 (ix1 q)) := by
  subst hD hx
  unfold entry
  rw [maximumf_apply, addf_apply, broadcast_apply]
  have hrow : broadcastTo S10000x32 (shapeCast S1x32 v8 h3) h4 (ix2 p q) = v8 (ix1 q) :=
    (broadcastTo_1b_ab_apply _ h4 p q).trans (shapeCast_a_1a_apply v8 h3 0 q)
  refine congrArg₂ max (congrArg₂ HAdd.hAdd ?_ hrow) Ideal.ofBits_zero_f32
  rw [matmul_zero_eq_dotGeneral, shapeCast_self, shapeCast_self]
  exact StackMember.dotGeneral_plain_apply none _ _ p q

/-- Launch 0's payload at (p, q). -/
theorem k0_pay1_apply (v0 v1 : Vec Ideal S10000x128 .f32) (v5 : Vec Ideal S128x32 .bf16) (v8 : Vec Ideal S32 .f32)
    (p : Fin 10000) (q : Fin 32) :
    k0_pay1 v0 v1 v5 v8 (ix2 p q)
      = entry (fun k => v0 (ix2 p k)) (fun k => v1 (ix2 p k)) (fun k => v5 (ix2 k q)) (v8 (ix1 q)) :=
  body_apply _ rfl _ _ _ _ _ v0 v1 v5 v8 v0 rfl p q

/-- Launch 3's payload at (p, q). -/
theorem k3_pay1_apply (v0 v1 : Vec Ideal S10000x128 .f32) (v5 : Vec Ideal S128x32 .bf16) (v8 : Vec Ideal S32 .f32)
    (p : Fin 10000) (q : Fin 32) :
    k3_pay1 v0 v1 v5 v8 (ix2 p q)
      = entry (fun k => v0 (ix2 p k)) (fun k => v1 (ix2 p k)) (fun k => v5 (ix2 k q)) (v8 (ix1 q)) :=
  body_apply _ rfl _ _ _ _ _ v0 v1 v5 v8 _ (shapeCast_self v0 shapeCasts_S10000x128_S10000x128) p q

end Cert.KernelIdeal.Lin1Entry

end
-- ==== Proof.Region0Cover.lean ====
/-
  Launch 0, from blocks to the array: what each of the ten grid points writes back to the output window is the block of
  10000 rows of the specification's first stage, and the ten blocks cover the 100000 rows.
-/
import proofs.«134813_j35914516529300_1_alg».proof.Proof.Gen.KernelIdeal.Frame
import proofs.«134813_j35914516529300_1_alg».proof.Proof.Spec
import proofs.«134813_j35914516529300_1_alg».proof.Proof.Region0Entry
import Idealize.ShloMosaic.PureOps.Ideal
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.KernelIdeal.Lin1Entry
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the ten grid points: the row windows (x, agg, the output) are at block
    (t, 0), the parameter windows (W1, b1) at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of x's block at point `t` is row `t * 10000 + p` of x. -/
theorem x_blk (c : Dev nD) (t : Fin cfg0.N) (p : Fin 10000) (k : Fin 128) (r : Fin 100000) (hr : r.val = t.val * 10000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- Row `p` of agg's block at point `t` is row `t * 10000 + p` of agg. -/
theorem agg_blk (c : Dev nD) (t : Fin cfg0.N) (p : Fin 10000) (k : Fin 128) (r : Fin 100000) (hr : r.val = t.val * 10000 + p.val) :
    iblk0 V c 1 t (ix2 p k) = V c main_v9 (ix2 r k) := by
  obtain ⟨-, -, e0, e1, -⟩ := idx_facts t
  show V c main_v9 (((cfg0.win 1).blk t).view.emb (ix2 p k)) = V c main_v9 (ix2 r k)
  refine congrArg (V c main_v9) (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega

/-- W1's block at every point is all of W1. -/
theorem w_blk (c : Dev nD) (t : Fin cfg0.N) (k : Fin 128) (q : Fin 32) :
    iblk0 V c 2 t (ix2 k q) = V c main_v10 (ix2 k q) := by
  obtain ⟨-, -, -, -, e0, e1, -⟩ := idx_facts t
  show V c main_v10 (((cfg0.win 2).blk t).view.emb (ix2 k q)) = V c main_v10 (ix2 k q)
  refine congrArg (V c main_v10) (funext fun a => Fin.ext ?_)
  match a with
  | ⟨0, _⟩ => show win0_2.index t (0 : Fin 2) * 128 + 1 * k.val = k.val; omega
  | ⟨1, _⟩ => show win0_2.index t (1 : Fin 2) * 32 + 1 * q.val = q.val; omega

/-- b1's block at every point is all of b1. -/
theorem b_blk (c : Dev nD) (t : Fin cfg0.N) (q : Fin 32) :
    iblk0 V c 3 t (ix1 q) = V c main_arg4 (ix1 q) := by
  obtain ⟨-, -, -, -, -, -, e0, -⟩ := idx_facts t
  show V c main_arg4 (((cfg0.win 3).blk t).view.emb (ix1 q)) = V c main_arg4 (ix1 q)
  refine congrArg (V c main_arg4) (funext fun a => Fin.ext ?_)
  match a with
  | ⟨0, _⟩ => show win0_3.index t (0 : Fin 1) * 32 + 1 * q.val = q.val; omega

/-- Row `p` of the output's block at point `t` is row `t * 10000 + p` of the output array. -/
theorem out_emb (t : Fin cfg0.N) (p : Fin 10000) (q : Fin 32) (r : Fin 100000) (hr : r.val = t.val * 10000 + p.val) :
    ((cfg0.win 4).blk t).view.emb (ix2 p q) = ix2 r q := by
  obtain ⟨-, -, -, -, -, -, -, e0, e1⟩ := idx_facts t
  refine funext fun a => Fin.ext ?_
  match a with
  | ⟨0, _⟩ => show win0_4.index t (0 : Fin 2) * 10000 + 1 * p.val = r.val; omega
  | ⟨1, _⟩ => show win0_4.index t (1 : Fin 2) * 32 + 1 * q.val = q.val; omega

/-- What point `t` writes back is block `t` of the specification's first stage of the arrays at entry. -/
theorem flushed_eq (c : Dev nD) (t : Fin cfg0.N) :
    (dat0 V c).flushed 4 t = ((cfg0.win 4).blk t).view.read (Elt Ideal)
      (Cert.Spec.lin1 (F := Ideal) (V c main_arg0) (V c main_v9) (V c main_v10) (V c main_arg4)) := by
  show (cfg0.win 4).cut (grid0.coords t) ((dat0 V c).after 4 t) = _
  rw [after0_4]
  unfold out0_4
  rw [View.canon_unit_zero zero2]
  simp only [View.ld_unit_zero (S := S10000x128) zero2, View.ld_unit_zero (S := S128x32) zero2, View.ld_unit_zero (S := S32) zero1]
  funext y
  obtain ⟨p, q, rfl⟩ : ∃ (p : Fin 10000) (q : Fin 32), y = ix2 p q := ⟨y 0, y 1, eq_ix2 y⟩
  have hN : cfg0.N = 10 := N_0
  have hlt : t.val * 10000 + p.val < 100000 := by have := t.isLt; have := p.isLt; omega
  show k0_pay1 (iblk0 V c 0 t) (iblk0 V c 1 t) (iblk0 V c 2 t) (iblk0 V c 3 t) (ix2 p q)
    = Cert.Spec.lin1 (F := Ideal) (V c main_arg0) (V c main_v9) (V c main_v10) (V c main_arg4) (((cfg0.win 4).blk t).view.emb (ix2 p q))
  rw [out_emb t p q ⟨t.val * 10000 + p.val, hlt⟩ rfl]
  refine (k0_pay1_apply _ _ _ _ p q).trans (Eq.trans ?_ (lin1_apply _ _ _ _ ⟨t.val * 10000 + p.val, hlt⟩ q).symm)
  refine congr (congr (congr (congrArg entry ?_) ?_) ?_) ?_
  · exact funext fun k => x_blk V c t p k _ rfl
  · exact funext fun k => agg_blk V c t p k _ rfl
  · exact funext fun k => w_blk V c t k q
  · exact b_blk V c t q

/-- An index of the output array is in point `t`'s block iff each coordinate is in the block's range on its axis. -/
theorem mem_blk (t : Fin cfg0.N) (i : S100000x32.Idx) :
    i ∈ ((cfg0.win 4).blk t).view.set ↔ ∀ a : Fin 2, win0_4.index t a * S10000x32.size a ≤ (i a).val ∧ (i a).val < win0_4.index t a * S10000x32.size a + S10000x32.size a := by
  show i ∈ ((View.whole main_v12).slice (win0_4.rect t)).set ↔ _
  rw [View.set_slice_whole, Rect.mem_set_unit]
  exact Iff.rfl

/-- The ten blocks cover the array: row `r` is in the block of point `r / 10000`. -/
theorem cover (i : S100000x32.Idx) :
    ∃ t : Fin cfg0.N, (cfg0.win 4).flush t = true ∧ i ∈ ((cfg0.win 4).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, e0, e1⟩ := idx_facts t
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 32 ≤ (i 1).val ∧ (i 1).val < win0_4.index t (1 : Fin 2) * 32 + 32; omega

end Cert.KernelIdeal.Region0

end
-- ==== Proof.Region0.lean ====
/-
  Launch 0: the first linear map and the rectifier of layer one, row block by row block.
-/
import proofs.«134813_j35914516529300_1_alg».proof.Proof.Gen.KernelIdeal.Frame
import proofs.«134813_j35914516529300_1_alg».proof.Proof.Spec
import proofs.«134813_j35914516529300_1_alg».proof.Proof.Region0Cover
import Idealize.ShloMosaic.PureOps.Ideal

set_option maxRecDepth 16384

noncomputable section

namespace Cert.KernelIdeal.Region0

open Cert.KernelIdeal Cert.KernelIdeal.Gen Idealize.ShloMosaic Idealize.ShloMosaic.TcCoe Idealize.SL.Sem

/-- The array launch 0 leaves in its output window, as one function of the arrays it finds at entry: every grid point
    writes back its block of the specification's first stage, and the blocks cover the array. -/
theorem value (V : (c : Dev nD) → (b : Ref sig .tc) → Buf (Elt Ideal) ((c : Thread nD τ).loc b)) (c : Dev nD) :
    (dat0 (F := Ideal) V c).arrAt 4 cfg0.N = Cert.Spec.lin1 (F := Ideal) (V c main_arg0) (V c main_v9) (V c main_v10) (V c main_arg4) :=
  (dat0 (F := Ideal) V c).arrAt_eq_of_cover 4 _ (fun t _ => flushed_eq V c t) cover

end Cert.KernelIdeal.Region0

end
-- ==== Proof.Region1Shared.lean ====
/-
  The second linear map after the hidden layer's normalisation, read entry by entry.
  Both the array-level stage `Cert.Spec.bnlin2` and a row block's kernel value are, at the exact extended reals,
    out[r, j] = (sum over k < 32 of ((((h[r, k] - mean[k]) * inv[k]) * g[k]) + be[k]) * W[k, j]) + b[j];
  the block's row p is row T * 10000 + p of the array when the block is the T-th of ten.
-/
import proofs.«134813_j35914516529300_1_alg».proof.Proof.Gen.KernelIdeal.Skeleton
import proofs.«134813_j35914516529300_1_alg».proof.Proof.Spec
import Idealize.ShloMosaic.PureOps.Ideal
import Idealize.ShloMosaic.PureOps.Ideal.Laws
import Idealize.ShloMosaic.Lib.ValueLayout

set_option maxRecDepth 16384

noncomputable section

namespace Cert.BnLin2At

open Idealize.ShloMosaic Idealize.ShloMosaic.ValueIdx
open scoped BigOperators

/-! ## Two layout facts and the matrix product, over plain extents -/

/-- A vector of `b` entries made a one-row array and then repeated over `a` rows reads, at `(p, c)`, its entry `c`. -/
theorem rows_apply {α : Type} {a b : Nat}
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  refine (broadcastInDim_apply _ h2 _ (ix2 p c) (ix2 (0 : Fin 1) c) fun ax => ?_).trans
    (broadcastInDim_apply _ h1 v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- The host's product of an m×k by a k×n matrix, read at an entry: the sum over the contracted coordinate. -/
theorem dot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The matrix unit's product into a zero accumulator, read at an entry: the same sum. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (F := Ideal) (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The array-level stage and a row block's kernel value at an entry -/

section Entries

open Cert.ReferenceIdeal Cert.ReferenceIdeal.Facts₀

/-- The stage `bnlin2` at entry `(r, j)`. -/
theorem spec_at (h : Cert.Spec.Arr Ideal S100000x32) (mean inv g be : Cert.Spec.Arr Ideal S32)
    (W : Cert.Spec.Arr Ideal S32x128) (b : Cert.Spec.Arr Ideal S128) (r : Fin 100000) (j : Fin 128) :
    Cert.Spec.bnlin2 (F := Ideal) h mean inv g be W b (ix2 r j)
      = (∑ k : Fin 32, ((((h (ix2 r k) - mean (ix1 k)) * inv (ix1 k)) * g (ix1 k)) + be (ix1 k)) * W (ix2 k j))
        + b (ix1 j) := by
  unfold Cert.Spec.bnlin2 Cert.Spec.rows32 Cert.Spec.rows128
  rw [addf_apply]
  refine congrArg₂ (· + ·)
    ((dot_apply dot_S100000x32_S32x128_S100000x128_1_0_0_1_n_n_wf none _ _ r j).trans
      (Finset.sum_congr rfl fun k _ => ?_))
    (rows_apply _ _ b r j)
  rw [addf_apply, mulf_apply, mulf_apply, subf_apply, rows_apply, rows_apply, rows_apply, rows_apply]

end Entries

section Block

open Cert.KernelIdeal Cert.KernelIdeal.Gen Cert.KernelIdeal.Facts₀

/-- A row block's kernel value at entry `(p, q)` of the block. -/
theorem pay_at (v0 : Vec Ideal S10000x32 .f32) (v2 v7 v12 v16 : Vec Ideal S32 .f32) (v21 : Vec Ideal S32x128 .bf16)
    (v24 : Vec Ideal S128 .f32) (p : Fin 10000) (q : Fin 128) :
    k1_pay1 (F := Ideal) v0 v2 v7 v12 v16 v21 v24 (ix2 p q)
      = (∑ k : Fin 32, ((((v0 (ix2 p k) - v2 (ix1 k)) * v7 (ix1 k)) * v12 (ix1 k)) + v16 (ix1 k)) * v21 (ix2 k q))
        + v24 (ix1 q) := by
  unfold k1_pay1
  simp only [shapeCast_self]
  rw [addf_apply]
  refine congrArg₂ (· + ·)
    ((matmul_zero_apply (φ₁ := .bf16) (φ₂ := .bf16) Cert.KernelIdeal.Facts₀.dot_S10000x32_S32x128_S10000x128_1_0_0_1_n_n_wf none _ _ p q).trans
      (Finset.sum_congr rfl fun k _ => ?_))
    ((broadcastTo_1b_ab_apply _ _ p q).trans (shapeCast_a_1a_apply _ _ _ q))
  rw [truncf_apply, addf_apply, mulf_apply, mulf_apply, subf_apply,
    broadcastTo_1b_ab_apply, broadcastTo_1b_ab_apply, broadcastTo_1b_ab_apply, broadcastTo_1b_ab_apply,
    shapeCast_a_1a_apply, shapeCast_a_1a_apply, shapeCast_a_1a_apply, shapeCast_a_1a_apply]

/-- The second layer's launch runs the same body. -/
theorem pay4_eq (v0 : Vec Ideal S10000x32 .f32) (v2 v7 v12 v16 : Vec Ideal S32 .f32) (v21 : Vec Ideal S32x128 .bf16)
    (v24 : Vec Ideal S128 .f32) :
    k4_pay1 (F := Ideal) v0 v2 v7 v12 v16 v21 v24 = k1_pay1 (F := Ideal) v0 v2 v7 v12 v16 v21 v24 := rfl

end Block

section BlockIsStage

open Cert.KernelIdeal Cert.KernelIdeal.Gen

/-- A row block's kernel value at `(p, q)` is the stage's value at `(r, q)` once the block's row `p` is the hidden
    array's row `r` and the parameter blocks are the parameter arrays. -/
theorem blk_at (H : Cert.Spec.Arr Ideal Cert.ReferenceIdeal.S100000x32)
    (M I Gm B : Cert.Spec.Arr Ideal Cert.ReferenceIdeal.S32)
    (W : Cert.Spec.Arr Ideal Cert.ReferenceIdeal.S32x128) (b2 : Cert.Spec.Arr Ideal Cert.ReferenceIdeal.S128)
    (x0 : Vec Ideal S10000x32 .f32) (x1 x2 x3 x4 : Vec Ideal S32 .f32) (x5 : Vec Ideal S32x128 .bf16)
    (x6 : Vec Ideal S128 .f32) (p : Fin 10000) (q : Fin 128) (r : Fin 100000)
    (h0 : ∀ k : Fin 32, x0 (ix2 p k) = H (ix2 r k))
    (h1 : ∀ k : Fin 32, x1 (ix1 k) = M (ix1 k)) (h2 : ∀ k : Fin 32, x2 (ix1 k) = I (ix1 k))
    (h3 : ∀ k : Fin 32, x3 (ix1 k) = Gm (ix1 k)) (h4 : ∀ k : Fin 32, x4 (ix1 k) = B (ix1 k))
    (h5 : ∀ k : Fin 32, x5 (ix2 k q) = W (ix2 k q)) (h6 : x6 (ix1 q) = b2 (ix1 q)) :
    k1_pay1 (F := Ideal) x0 x1 x2 x3 x4 x5 x6 (ix2 p q)
      = Cert.Spec.bnlin2 (F := Ideal) H M I Gm B W b2 (ix2 r q) := by
  rw [pay_at, spec_at, h6]
  refine congrArg (· + b2 (ix1 q)) (Finset.sum_congr rfl fun k _ => ?_)
  rw [h0, h1, h2, h3, h4, h5]

/-- The same for the second layer's launch, whose body is the same term. -/
theorem blk4_at (H : Cert.Spec.Arr Ideal Cert.ReferenceIdeal.S100000x32)
    (M I Gm B : Cert.Spec.Arr Ideal Cert.ReferenceIdeal.S32)
    (W : Cert.Spec.Arr Ideal Cert.ReferenceIdeal.S32x128) (b2 : Cert.Spec.Arr Ideal Cert.ReferenceIdeal.S128)
    (x0 : Vec Ideal S10000x32 .f32) (x1 x2 x3 x4 : Vec Ideal S32 .f32) (x5 : Vec Ideal S32x128 .bf16)
    (x6 : Vec Ideal S128 .f32) (p : Fin 10000) (q : Fin 128) (r : Fin 100000)
    (h0 : ∀ k : Fin 32, x0 (ix2 p k) = H (ix2 r k))
    (h1 : ∀ k : Fin 32, x1 (ix1 k) = M (ix1 k)) (h2 : ∀ k : Fin 32, x2 (ix1 k) = I (ix1 k))
    (h3 : ∀ k : Fin 32, x3 (ix1 k) = Gm (ix1 k)) (h4 : ∀ k : Fin 32, x4 (ix1 k) = B (ix1 k))
    (h5 : ∀ k : Fin 32, x5 (ix2 k q) = W (ix2 k q)) (h6 : x6 (ix1 q) = b2 (ix1 q)) :
    k4_pay1 (F := Ideal) x0 x1 x2 x3 x4 x5 x6 (ix2 p q)
      = Cert.Spec.bnlin2 (F := Ideal) H M I Gm B W b2 (ix2 r q) := by
  rw [pay4_eq]
  exact blk_at H M I Gm B W b2 x0 x1 x2 x3 x4 x5 x6 p q r h0 h1 h2 h3 h4 h5 h6

end BlockIsStage

end Cert.BnLin2At

end
-- ==== Proof.Region1.lean ====
/-
  Launch 1: the normalisation of the hidden layer and the second linear map of layer one, row block by row block.
  Each of the ten grid points writes rows 10000 t … 10000 t + 9999 of the output; what it writes is the stage
  `Cert.Spec.bnlin2` of the whole arrays restricted to those rows, and the ten blocks cover the array.
-/
import proofs.«134813_j35914516529300_1_alg».proof.Proof.Gen.KernelIdeal.Frame
import proofs.«134813_j35914516529300_1_alg».proof.Proof.Spec
import proofs.«134813_j35914516529300_1_alg».proof.Proof.Region1Shared
import Idealize.ShloMosaic.PureOps.Ideal
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices of the eight windows at grid point `t`: the two row windows move with the point, the parameter
    windows stay at block 0 (decided over the ten points). -/
theorem idx_facts : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 1) = 0 ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-! ## The input blocks, entry by entry -/

/-- Row `p` of the hidden block at point `t` is row `10000 t + p` of the hidden array. -/
theorem iblk_h (c : Dev nD) (t : Fin cfg1.N) (p : Fin 10000) (k : Fin 32) (r : Fin 100000)
    (hr : r.val = t.val * 10000 + p.val) :
    (iblk1 (F := Ideal) V c 0 t : Vec Ideal S10000x32 .f32) (ix2 p k)
      = (V c main_v12 : S100000x32.Idx → EReal) (ix2 r k) := by
  obtain ⟨e0, e1, -⟩ := idx_facts t
  unfold iblk1
  rw [View.read_apply]
  show V c main_v12 _ = V c main_v12 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 32 + 1 * k.val = k.val; rw [e1]; omega

/-- The mean block is the mean array. -/
theorem iblk_mean (c : Dev nD) (t : Fin cfg1.N) (k : Fin 32) :
    (iblk1 (F := Ideal) V c 1 t : Vec Ideal S32 .f32) (ix1 k) = (V c main_v15 : S32.Idx → EReal) (ix1 k) := by
  obtain ⟨-, -, e, -⟩ := idx_facts t
  unfold iblk1
  rw [View.read_apply]
  show V c main_v15 _ = V c main_v15 _
  congr 1
  funext a
  apply Fin.ext
  match a with
  | ⟨0, _⟩ => show win1_1.index t (0 : Fin 1) * 32 + 1 * k.val = k.val; rw [e]; omega

/-- The inverse-deviation block is its array. -/
theorem iblk_inv (c : Dev nD) (t : Fin cfg1.N) (k : Fin 32) :
    (iblk1 (F := Ideal) V c 2 t : Vec Ideal S32 .f32) (ix1 k) = (V c main_v19 : S32.Idx → EReal) (ix1 k) := by
  obtain ⟨-, -, -, e, -⟩ := idx_facts t
  unfold iblk1
  rw [View.read_apply]
  show V c main_v19 _ = V c main_v19 _
  congr 1
  funext a
  apply Fin.ext
  match a with
  | ⟨0, _⟩ => show win1_2.index t (0 : Fin 1) * 32 + 1 * k.val = k.val; rw [e]; omega

/-- The scale block is its array. -/
theorem iblk_g (c : Dev nD) (t : Fin cfg1.N) (k : Fin 32) :
    (iblk1 (F := Ideal) V c 3 t : Vec Ideal S32 .f32) (ix1 k) = (V c main_arg5 : S32.Idx → EReal) (ix1 k) := by
  obtain ⟨-, -, -, -, e, -⟩ := idx_facts t
  unfold iblk1
  rw [View.read_apply]
  show V c main_arg5 _ = V c main_arg5 _
  congr 1
  funext a
  apply Fin.ext
  match a with
  | ⟨0, _⟩ => show win1_3.index t (0 : Fin 1) * 32 + 1 * k.val = k.val; rw [e]; omega

/-- The shift block is its array. -/
theorem iblk_be (c : Dev nD) (t : Fin cfg1.N) (k : Fin 32) :
    (iblk1 (F := Ideal) V c 4 t : Vec Ideal S32 .f32) (ix1 k) = (V c main_arg6 : S32.Idx → EReal) (ix1 k) := by
  obtain ⟨-, -, -, -, -, e, -⟩ := idx_facts t
  unfold iblk1
  rw [View.read_apply]
  show V c main_arg6 _ = V c main_arg6 _
  congr 1
  funext a
  apply Fin.ext
  match a with
  | ⟨0, _⟩ => show win1_4.index t (0 : Fin 1) * 32 + 1 * k.val = k.val; rw [e]; omega

/-- The weight block is the whole weight array. -/
theorem iblk_w (c : Dev nD) (t : Fin cfg1.N) (k : Fin 32) (q : Fin 128) :
    (iblk1 (F := Ideal) V c 5 t : Vec Ideal S32x128 .bf16) (ix2 k q) = (V c main_v11 : S32x128.Idx → EReal) (ix2 k q) := by
  obtain ⟨-, -, -, -, -, -, e0, e1, -⟩ := idx_facts t
  unfold iblk1
  rw [View.read_apply]
  show V c main_v11 _ = V c main_v11 _
  congr 1
  funext a
  apply Fin.ext
  match a with
  | ⟨0, _⟩ => show win1_5.index t (0 : Fin 2) * 32 + 1 * k.val = k.val; rw [e0]; omega
  | ⟨1, _⟩ => show win1_5.index t (1 : Fin 2) * 128 + 1 * q.val = q.val; rw [e1]; omega

/-- The bias block is the bias array. -/
theorem iblk_b (c : Dev nD) (t : Fin cfg1.N) (q : Fin 128) :
    (iblk1 (F := Ideal) V c 6 t : Vec Ideal S128 .f32) (ix1 q) = (V c main_arg8 : S128.Idx → EReal) (ix1 q) := by
  obtain ⟨-, -, -, -, -, -, -, -, e, -⟩ := idx_facts t
  unfold iblk1
  rw [View.read_apply]
  show V c main_arg8 _ = V c main_arg8 _
  congr 1
  funext a
  apply Fin.ext
  match a with
  | ⟨0, _⟩ => show win1_6.index t (0 : Fin 1) * 128 + 1 * q.val = q.val; rw [e]; omega

/-! ## What a point writes back, and the whole array -/

/-- The stage of the arrays the launch finds at entry. -/
abbrev stage (c : Dev nD) : Buf (Elt Ideal) ((c : Thread nD τ).loc main_v20) :=
  Cert.Spec.bnlin2 (F := Ideal) (V c main_v12) (V c main_v15) (V c main_v19) (V c main_arg5) (V c main_arg6)
    (V c main_v11) (V c main_arg8)

/-- What point `t` writes back is block `t` of the stage. -/
theorem flushed_eq (c : Dev nD) (t : Fin cfg1.N) :
    (dat1 (F := Ideal) V c).flushed 7 t = ((cfg1.win 7).blk t).view.read (Elt Ideal) (stage V c) := by
  show (cfg1.win 7).cut (grid1.coords t) ((dat1 (F := Ideal) V c).after 7 t) = _
  rw [after1_7]
  unfold out1_7
  rw [View.canon_unit_zero hz2]
  simp only [View.ld_unit_zero (S := S10000x32) hz2, View.ld_unit_zero (S := S32) hz1,
    View.ld_unit_zero (S := S32x128) hz2, View.ld_unit_zero (S := S128) hz1]
  have hN : grid1.N = 10 := N_1
  have ht : t.val < 10 := by have h : t.val < grid1.N := t.isLt; omega
  obtain ⟨-, -, -, -, -, -, -, -, -, e0, e1⟩ := idx_facts t
  funext y
  obtain ⟨p, q, rfl⟩ : ∃ (p : Fin 10000) (q : Fin 128), y = ix2 p q := ⟨y 0, y 1, eq_ix2 y⟩
  have hp : p.val < 10000 := p.isLt
  show k1_pay1 (F := Ideal) (iblk1 V c 0 t) (iblk1 V c 1 t) (iblk1 V c 2 t) (iblk1 V c 3 t) (iblk1 V c 4 t)
      (iblk1 V c 5 t) (iblk1 V c 6 t) (ix2 p q)
    = stage V c (((cfg1.win 7).blk t).view.emb (ix2 p q))
  have hemb : ((cfg1.win 7).blk t).view.emb (ix2 p q)
      = (ix2 (⟨t.val * 10000 + p.val, by omega⟩ : Fin 100000) q : S100000x128.Idx) := by
    funext a
    apply Fin.ext
    match a with
    | ⟨0, _⟩ => show win1_7.index t (0 : Fin 2) * 10000 + 1 * p.val = t.val * 10000 + p.val; rw [e0]; omega
    | ⟨1, _⟩ => show win1_7.index t (1 : Fin 2) * 128 + 1 * q.val = q.val; rw [e1]; omega
  rw [hemb]
  exact Cert.BnLin2At.blk_at _ _ _ _ _ _ _ _ _ _ _ _ _ _ p q _
    (fun k => iblk_h V c t p k _ rfl) (fun k => iblk_mean V c t k) (fun k => iblk_inv V c t k)
    (fun k => iblk_g V c t k) (fun k => iblk_be V c t k) (fun k => iblk_w V c t k q) (iblk_b V c t q)

/-- An index of the output array is in point `t`'s block iff each coordinate is in the block's range on its axis. -/
theorem mem_blk (t : Fin cfg1.N) (i : S100000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v20).slice (win1_7.rect t)).set ↔ _
  rw [View.set_slice_whole, Rect.mem_set_unit]
  exact Iff.rfl

/-- The ten row blocks cover the output array: row `r` is in block `r / 10000`. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : grid1.N = 10 := N_1
  have hlt : (i 0).val / 10000 < cfg1.N := by show _ < grid1.N; rw [hN]; omega
  obtain ⟨-, -, -, -, -, -, -, -, -, e0, e1⟩ := idx_facts ⟨(i 0).val / 10000, hlt⟩
  refine ⟨⟨(i 0).val / 10000, hlt⟩, flush1_7 _, ?_⟩
  rw [mem_blk]
  intro a
  match a with
  | ⟨0, _⟩ =>
    show win1_7.index ⟨(i 0).val / 10000, hlt⟩ (0 : Fin 2) * 10000 ≤ (i 0).val
      ∧ (i 0).val < win1_7.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win1_7.index ⟨(i 0).val / 10000, hlt⟩ (1 : Fin 2) * 128 ≤ (i 1).val
      ∧ (i 1).val < win1_7.index ⟨(i 0).val / 10000, hlt⟩ (1 : Fin 2) * 128 + 128
    rw [e1]
    omega

/-- The array launch 1 leaves in its output window, as one function of the arrays it finds at entry. -/
theorem value (V : (c : Dev nD) → (b : Ref sig .tc) → Buf (Elt Ideal) ((c : Thread nD τ).loc b)) (c : Dev nD) :
    (dat1 (F := Ideal) V c).arrAt 7 cfg1.N = Cert.Spec.bnlin2 (F := Ideal) (V c main_v12) (V c main_v15) (V c main_v19) (V c main_arg5) (V c main_arg6) (V c main_v11) (V c main_arg8) :=
  (dat1 (F := Ideal) V c).arrAt_eq_of_cover 7 (stage V c) (fun t _ => flushed_eq V c t) cover

end Cert.KernelIdeal.Region1

end
-- ==== Proof.Region2Point.lean ====
/-
  The normalisation followed by the leaky rectifier, entry by entry.  One entry of the result is
    leaky y,   y = (((h - mean) * inv) * g) + be,   leaky y = y where y > 0, else 0.01 * y
  of the entry of `h` at that row and column and of the entries of the four vectors at that column.  Both the
  specification's stage and the kernel body's stored value are this function of their operands, at every index.
-/
import proofs.«134813_j35914516529300_1_alg».proof.Proof.Gen.KernelIdeal.Skeleton
import proofs.«134813_j35914516529300_1_alg».proof.Proof.Spec
import Idealize.ShloMosaic.Lib.Pipeline.Value
import Idealize.ShloMosaic.Lib.ValueLayout

noncomputable section

namespace Cert.KernelIdeal.Region2

open Idealize.ShloMosaic Idealize.ShloMosaic.ValueIdx

variable {F : FTy → Type} [FloatOps F]

/-- The normalised entry `(((h - mean) * inv) * g) + be`. -/
def normAt (h m i g b : F .f32) : F .f32 :=
  FloatOps.addf (FloatOps.mulf (FloatOps.mulf (FloatOps.subf h m) i) g) b

/-- The leaky rectifier of the normalised entry: `y` where `y > 0`, else the constant `0.01` times `y`. -/
def leakyAt (h m i g b : F .f32) : F .f32 :=
  Scalar.select (FloatOps.cmpf .ogt (normAt h m i g b) (FloatOps.ofBits .f32 0x00000000#32)) (normAt h m i g b)
    (FloatOps.mulf (FloatOps.ofBits .f32 0x3C23D70A#32) (normAt h m i g b))

/-! ## The pointwise operations at an index, at any instance -/

section Pointwise
variable {s : Shape} {φ : FTy}

theorem addf_at (a b : FVec F s φ) (i : s.Idx) : addf a b i = FloatOps.addf (a i) (b i) := rfl
theorem subf_at (a b : FVec F s φ) (i : s.Idx) : subf a b i = FloatOps.subf (a i) (b i) := rfl
theorem mulf_at (a b : FVec F s φ) (i : s.Idx) : mulf a b i = FloatOps.mulf (a i) (b i) := rfl

end Pointwise

/-! ## The specification's stage at an index -/

/-- A vector of 128 entries repeated over the rows reads, at row `r` and column `j`, its entry `j`. -/
theorem rows128_apply (v : Cert.Spec.Arr F Cert.ReferenceIdeal.S128) (r : Fin 100000) (j : Fin 128) :
    Cert.Spec.rows128 v (ix2 r j) = v (ix1 j) := by
  unfold Cert.Spec.rows128
  refine (broadcastInDim_apply _ _ _ (ix2 r j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

/-- The normalised output at row `r` and column `j`. -/
theorem bn128_apply (h : Cert.Spec.Arr F Cert.ReferenceIdeal.S100000x128) (mean inv g be : Cert.Spec.Arr F Cert.ReferenceIdeal.S128)
    (r : Fin 100000) (j : Fin 128) :
    Cert.Spec.bn128 h mean inv g be (ix2 r j) = normAt (h (ix2 r j)) (mean (ix1 j)) (inv (ix1 j)) (g (ix1 j)) (be (ix1 j)) := by
  unfold Cert.Spec.bn128 normAt
  show FloatOps.addf (FloatOps.mulf (FloatOps.mulf (FloatOps.subf (h (ix2 r j)) (Cert.Spec.rows128 mean (ix2 r j)))
    (Cert.Spec.rows128 inv (ix2 r j))) (Cert.Spec.rows128 g (ix2 r j))) (Cert.Spec.rows128 be (ix2 r j)) = _
  rw [rows128_apply, rows128_apply, rows128_apply, rows128_apply]

/-- The specification's last stage at row `r` and column `j`. -/
theorem bnleaky_apply (h : Cert.Spec.Arr F Cert.ReferenceIdeal.S100000x128) (mean inv g be : Cert.Spec.Arr F Cert.ReferenceIdeal.S128)
    (r : Fin 100000) (j : Fin 128) :
    Cert.Spec.bnleaky h mean inv g be (ix2 r j) = leakyAt (h (ix2 r j)) (mean (ix1 j)) (inv (ix1 j)) (g (ix1 j)) (be (ix1 j)) := by
  unfold Cert.Spec.bnleaky leakyAt
  show Scalar.select (FloatOps.cmpf .ogt (Cert.Spec.bn128 h mean inv g be (ix2 r j)) (FloatOps.ofBits .f32 0x00000000#32))
    (Cert.Spec.bn128 h mean inv g be (ix2 r j))
    (FloatOps.mulf (FloatOps.ofBits .f32 0x3C23D70A#32) (Cert.Spec.bn128 h mean inv g be (ix2 r j))) = _
  rw [bn128_apply]

/-- The specification's last stage at any index of the array. -/
theorem bnleaky_at (h : Cert.Spec.Arr F Cert.ReferenceIdeal.S100000x128) (mean inv g be : Cert.Spec.Arr F Cert.ReferenceIdeal.S128)
    (i : Cert.ReferenceIdeal.S100000x128.Idx) :
    Cert.Spec.bnleaky h mean inv g be i = leakyAt (h i) (mean (ix1 (i 1))) (inv (ix1 (i 1))) (g (ix1 (i 1))) (be (ix1 (i 1))) := by
  obtain ⟨r, j, rfl⟩ : ∃ (r : Fin 100000) (j : Fin 128), i = ix2 r j := ⟨i 0, i 1, eq_ix2 i⟩
  exact bnleaky_apply h mean inv g be r j

/-- The entry is a function of its five operands. -/
theorem leakyAt_congr {h h' m m' i i' g g' b b' : F .f32} (e0 : h = h') (e1 : m = m') (e2 : i = i') (e3 : g = g') (e4 : b = b') :
    leakyAt h m i g b = leakyAt h' m' i' g' b' := by
  subst e0 e1 e2 e3 e4; rfl

/-! ## The kernel body's stored value at an index -/

open Cert.KernelIdeal Cert.KernelIdeal.Gen

/-- A vector of 128 entries cast to one row and repeated over the 10000 rows of a block reads, at row `p` and column
    `q`, its entry `q`. -/
theorem rowvec_apply (v : Vec F S128 .f32) (hc : S128.ShapeCasts S1x128) (hb : S1x128.Broadcasts S10000x128)
    (p : Fin 10000) (q : Fin 128) :
    broadcastTo S10000x128 (shapeCast S1x128 v hc) hb (ix2 p q) = v (ix1 q) :=
  (broadcastTo_1b_ab_apply _ hb p q).trans (shapeCast_a_1a_apply v hc 0 q)

/-- What launch 2's body stores, at row `p` and column `q` of its block. -/
theorem pay2_apply (v0 : Vec F S10000x128 .f32) (v2 v7 v12 v16 : Vec F S128 .f32) (p : Fin 10000) (q : Fin 128) :
    k2_pay1 v0 v2 v7 v12 v16 (ix2 p q) = leakyAt (v0 (ix2 p q)) (v2 (ix1 q)) (v7 (ix1 q)) (v12 (ix1 q)) (v16 (ix1 q)) := by
  unfold k2_pay1 leakyAt normAt
  simp only [shapeCast_self]
  simp only [select_apply, cmpf_apply, broadcast_apply, addf_at, subf_at, mulf_at]
  rw [rowvec_apply v2, rowvec_apply v7, rowvec_apply v12, rowvec_apply v16]

/-- What launch 2's body stores, at any index of its block. -/
theorem pay2_at (v0 : Vec F S10000x128 .f32) (v2 v7 v12 v16 : Vec F S128 .f32) (j : S10000x128.Idx) :
    k2_pay1 v0 v2 v7 v12 v16 j = leakyAt (v0 j) (v2 (ix1 (j 1))) (v7 (ix1 (j 1))) (v12 (ix1 (j 1))) (v16 (ix1 (j 1))) := by
  obtain ⟨p, q, rfl⟩ : ∃ (p : Fin 10000) (q : Fin 128), j = ix2 p q := ⟨j 0, j 1, eq_ix2 j⟩
  exact pay2_apply v0 v2 v7 v12 v16 p q

/-- What launch 5's body stores, at row `p` and column `q` of its block: the same body, in the second layer. -/
theorem pay5_apply (v0 : Vec F S10000x128 .f32) (v2 v7 v12 v16 : Vec F S128 .f32) (p : Fin 10000) (q : Fin 128) :
    k5_pay1 v0 v2 v7 v12 v16 (ix2 p q) = leakyAt (v0 (ix2 p q)) (v2 (ix1 q)) (v7 (ix1 q)) (v12 (ix1 q)) (v16 (ix1 q)) := by
  unfold k5_pay1 leakyAt normAt
  simp only [shapeCast_self]
  simp only [select_apply, cmpf_apply, broadcast_apply, addf_at, subf_at, mulf_at]
  rw [rowvec_apply v2, rowvec_apply v7, rowvec_apply v12, rowvec_apply v16]

/-- What launch 5's body stores, at any index of its block. -/
theorem pay5_at (v0 : Vec F S10000x128 .f32) (v2 v7 v12 v16 : Vec F S128 .f32) (j : S10000x128.Idx) :
    k5_pay1 v0 v2 v7 v12 v16 j = leakyAt (v0 j) (v2 (ix1 (j 1))) (v7 (ix1 (j 1))) (v12 (ix1 (j 1))) (v16 (ix1 (j 1))) := by
  obtain ⟨p, q, rfl⟩ : ∃ (p : Fin 10000) (q : Fin 128), j = ix2 p q := ⟨j 0, j 1, eq_ix2 j⟩
  exact pay5_apply v0 v2 v7 v12 v16 p q

end Cert.KernelIdeal.Region2

end
-- ==== Proof.Region2.lean ====
/-
  Launch 2: the normalisation and the leaky rectifier of layer one, row block by row block.
  The grid has ten points; point `t` loads rows `10000 t … 10000 t + 9999` of the layer's second linear output and the
  four vectors of 128 entries whole, and stores the rectified normalisation of that block into the same rows of the
  output.  Entry by entry this is the specification's last stage, and the ten row blocks fill the array.
-/
import proofs.«134813_j35914516529300_1_alg».proof.Proof.Gen.KernelIdeal.Frame
import proofs.«134813_j35914516529300_1_alg».proof.Proof.Spec
import proofs.«134813_j35914516529300_1_alg».proof.Proof.Region2Point
import Idealize.ShloMosaic.PureOps.Ideal
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The block indices at grid point `t`, decided over the ten points: the two row windows are at row block `t`, column
    block 0; the four vectors are at block 0. -/
theorem idx_facts2 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the specification's last stage of the arrays the launch finds. -/
theorem flushed2_eq (c : Dev nD) (t : Fin cfg2.N) :
    (dat2 (F := Ideal) V c).flushed 5 t = ((cfg2.win 5).blk t).view.read (Elt Ideal)
      (Cert.Spec.bnleaky (F := Ideal) (V c main_v20) (V c main_v23) (V c main_v27) (V c main_arg9) (V c main_arg10)) := by
  show (cfg2.win 5).cut (grid2.coords t) ((dat2 V c).after 5 t) = _
  rw [after2_5]
  unfold out2_5
  rw [View.canon_unit_zero hz2]
  simp only [View.ld_unit_zero (S := S10000x128) hz2, View.ld_unit_zero (S := S128) hz1]
  obtain ⟨e00, e01, e1, e2, e3, e4, e50, e51⟩ := idx_facts2 t
  funext j
  refine (pay2_at _ _ _ _ _ j).trans ?_
  refine Eq.trans ?_ (bnleaky_at _ _ _ _ _ (((cfg2.win 5).blk t).view.emb j)).symm
  have hj0 : (j 0).val < 10000 := (j 0).isLt
  have hj1 : (j 1).val < 128 := (j 1).isLt
  refine leakyAt_congr ?_ ?_ ?_ ?_ ?_
  · show V c main_v20 (((cfg2.win 0).blk t).view.emb j) = V c main_v20 (((cfg2.win 5).blk t).view.emb j)
    refine congrArg (V c main_v20) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 128 + 1 * (j 1).val = win2_5.index t (1 : Fin 2) * 128 + 1 * (j 1).val; omega
  · show V c main_v23 (((cfg2.win 1).blk t).view.emb (ix1 (j 1))) = V c main_v23 (ix1 ((((cfg2.win 5).blk t).view.emb j) 1))
    refine congrArg (V c main_v23) (funext fun a => Fin.ext ?_)
    match a with
    | ⟨0, _⟩ => show win2_1.index t (0 : Fin 1) * 128 + 1 * (j 1).val = win2_5.index t (1 : Fin 2) * 128 + 1 * (j 1).val; omega
  · show V c main_v27 (((cfg2.win 2).blk t).view.emb (ix1 (j 1))) = V c main_v27 (ix1 ((((cfg2.win 5).blk t).view.emb j) 1))
    refine congrArg (V c main_v27) (funext fun a => Fin.ext ?_)
    match a with
    | ⟨0, _⟩ => show win2_2.index t (0 : Fin 1) * 128 + 1 * (j 1).val = win2_5.index t (1 : Fin 2) * 128 + 1 * (j 1).val; omega
  · show V c main_arg9 (((cfg2.win 3).blk t).view.emb (ix1 (j 1))) = V c main_arg9 (ix1 ((((cfg2.win 5).blk t).view.emb j) 1))
    refine congrArg (V c main_arg9) (funext fun a => Fin.ext ?_)
    match a with
    | ⟨0, _⟩ => show win2_3.index t (0 : Fin 1) * 128 + 1 * (j 1).val = win2_5.index t (1 : Fin 2) * 128 + 1 * (j 1).val; omega
  · show V c main_arg10 (((cfg2.win 4).blk t).view.emb (ix1 (j 1))) = V c main_arg10 (ix1 ((((cfg2.win 5).blk t).view.emb j) 1))
    refine congrArg (V c main_arg10) (funext fun a => Fin.ext ?_)
    match a with
    | ⟨0, _⟩ => show win2_4.index t (0 : Fin 1) * 128 + 1 * (j 1).val = win2_5.index t (1 : Fin 2) * 128 + 1 * (j 1).val; omega

end

/-- An index of the output array is in point `t`'s block iff each coordinate is in the block's range on its axis. -/
theorem mem_blk2 (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v28).slice (win2_5.rect t)).set ↔ _
  rw [View.set_slice_whole, Rect.mem_set_unit]
  exact Iff.rfl

/-- Every index of the output array is in some point's block: row `r` is in the block of point `r / 10000`. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨-, -, -, -, -, -, e50, e51⟩ := idx_facts2 ⟨(i 0).val / 10000, ht⟩
  refine ⟨⟨(i 0).val / 10000, ht⟩, flush2_5 _, ?_⟩
  rw [mem_blk2]
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win2_5.index ⟨(i 0).val / 10000, ht⟩ (1 : Fin 2) * 128 ≤ (i 1).val ∧ (i 1).val < win2_5.index ⟨(i 0).val / 10000, ht⟩ (1 : Fin 2) * 128 + 128
    rw [e51]
    omega

/-- The array launch 2 leaves in its output window, as one function of the arrays it finds at entry. -/
theorem value (V : (c : Dev nD) → (b : Ref sig .tc) → Buf (Elt Ideal) ((c : Thread nD τ).loc b)) (c : Dev nD) :
    (dat2 (F := Ideal) V c).arrAt 5 cfg2.N = Cert.Spec.bnleaky (F := Ideal) (V c main_v20) (V c main_v23) (V c main_v27) (V c main_arg9) (V c main_arg10) :=
  (dat2 (F := Ideal) V c).arrAt_eq_of_cover 5 _ (fun t _ => flushed2_eq V c t) cover2

end Cert.KernelIdeal.Region2

end
-- ==== Proof.Chain1.lean ====
/-
  Layer one of the kernel program, read through its boundaries.  The program's buffer contents at each boundary are a
  fold from the launch memory: a stretch of host operations applies them, a launch replaces its output array by what
  its row blocks wrote and leaves every other buffer alone.  Reading the fold at the buffers each launch stages:
    launch 0 finds x, the aggregated neighbours of x, W1 and b1, and leaves the hidden layer;
    launch 1 finds the hidden layer, its column means and inverse deviations, g1, be1, W2 and b2, and leaves the
      second linear map's output;
    launch 2 finds that output, its column means and inverse deviations, g2 and be2, and leaves the layer's output.
  So after launch 2 the output buffer holds one graph layer of the arguments, and the arguments that layer two reads
  are still as launched.
-/
import proofs.«134813_j35914516529300_1_alg».proof.Proof.KernelRun
import proofs.«134813_j35914516529300_1_alg».proof.Proof.Spec
import proofs.«134813_j35914516529300_1_alg».proof.Proof.Region0
import proofs.«134813_j35914516529300_1_alg».proof.Proof.Region1
import proofs.«134813_j35914516529300_1_alg».proof.Proof.Region2
import Idealize.ShloMosaic.PureOps.Ideal
import Idealize.ShloMosaic.Lib.StableHlo.Run

set_option maxRecDepth 16384

noncomputable section

namespace Cert.KernelIdeal.Chain1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Read a buffer through stretches of host operations. -/
local macro "read_fold" : tactic => `(tactic| (after_results <;> rfl))

/-! ## The arguments later launches read are carried unchanged -/

/-- The argument buffers read after launch 0: by launches 1 and 2, and by layer two. -/
def CarriedA (b : Ref sig .tc) : Prop := b = main_arg1 ∨ b = main_arg2 ∨ b = main_arg5 ∨ b = main_arg6 ∨ b = main_arg8 ∨ b = main_arg9 ∨ b = main_arg10 ∨ b = main_arg11 ∨ b = main_arg12 ∨ b = main_arg13 ∨ b = main_arg14 ∨ b = main_arg15 ∨ b = main_arg16 ∨ b = main_arg17 ∨ b = main_arg18
/-- Those read after launch 1. -/
def CarriedB (b : Ref sig .tc) : Prop := b = main_arg1 ∨ b = main_arg2 ∨ b = main_arg9 ∨ b = main_arg10 ∨ b = main_arg11 ∨ b = main_arg12 ∨ b = main_arg13 ∨ b = main_arg14 ∨ b = main_arg15 ∨ b = main_arg16 ∨ b = main_arg17 ∨ b = main_arg18
/-- Those read by layer two. -/
def CarriedC (b : Ref sig .tc) : Prop := b = main_arg1 ∨ b = main_arg2 ∨ b = main_arg11 ∨ b = main_arg12 ∨ b = main_arg13 ∨ b = main_arg14 ∨ b = main_arg15 ∨ b = main_arg16 ∨ b = main_arg17 ∨ b = main_arg18

set_option maxHeartbeats 4000000 in
/-- Through the first stretch of host operations and launch 0: no operation writes the buffer, and launch 0 does not
    stage it. -/
theorem carried2 (b : Ref sig .tc) (hb : CarriedA b) :
    W2 m ρ c (Proc.devRef .tc b) = W0 m ρ c (Proc.devRef .tc b) := by
  unfold CarriedA at hb
  rcases hb with rfl | rfl | rfl | rfl | rfl | rfl | rfl | rfl | rfl | rfl | rfl | rfl | rfl | rfl | rfl
  all_goals
    exact (W2_of_ne m ρ c _ (by decide)).trans (show StableHlo.after hostOps0 (W0 m ρ c) _ = _ from by read_fold)

set_option maxHeartbeats 4000000 in
/-- Through the three stretches between launch 0 and launch 1. -/
theorem carried5 (b : Ref sig .tc) (hb : CarriedA b) :
    W5 m ρ c (Proc.devRef .tc b) = W2 m ρ c (Proc.devRef .tc b) := by
  unfold CarriedA at hb
  rcases hb with rfl | rfl | rfl | rfl | rfl | rfl | rfl | rfl | rfl | rfl | rfl | rfl | rfl | rfl | rfl
  all_goals
    show StableHlo.after hostOps1_2 (StableHlo.after hostOps1_1 (StableHlo.after hostOps1 (W2 m ρ c))) _ = _
    read_fold

/-- Through launch 1, which does not stage the buffer. -/
theorem carried6 (b : Ref sig .tc) (hb : CarriedB b) :
    W6 m ρ c (Proc.devRef .tc b) = W5 m ρ c (Proc.devRef .tc b) := by
  unfold CarriedB at hb
  rcases hb with rfl | rfl | rfl | rfl | rfl | rfl | rfl | rfl | rfl | rfl | rfl | rfl
  all_goals exact W6_of_ne m ρ c _ (by decide)

set_option maxHeartbeats 4000000 in
/-- Through the three stretches between launch 1 and launch 2. -/
theorem carried9 (b : Ref sig .tc) (hb : CarriedB b) :
    W9 m ρ c (Proc.devRef .tc b) = W6 m ρ c (Proc.devRef .tc b) := by
  unfold CarriedB at hb
  rcases hb with rfl | rfl | rfl | rfl | rfl | rfl | rfl | rfl | rfl | rfl | rfl | rfl
  all_goals
    show StableHlo.after hostOps2_2 (StableHlo.after hostOps2_1 (StableHlo.after hostOps2 (W6 m ρ c))) _ = _
    read_fold

/-- Through launch 2, which does not stage the buffer. -/
theorem carried10 (b : Ref sig .tc) (hb : CarriedC b) :
    W10 m ρ c (Proc.devRef .tc b) = W9 m ρ c (Proc.devRef .tc b) := by
  unfold CarriedC at hb
  rcases hb with rfl | rfl | rfl | rfl | rfl | rfl | rfl | rfl | rfl | rfl
  all_goals exact W10_of_ne m ρ c _ (by decide)

/-- At launch 1's entry the buffer holds its launch contents. -/
theorem at5 (b : Ref sig .tc) (hA : CarriedA b) : W5 m ρ c (Proc.devRef .tc b) = W0 m ρ c (Proc.devRef .tc b) :=
  (carried5 m ρ c b hA).trans (carried2 m ρ c b hA)
/-- At launch 2's entry the buffer holds its launch contents. -/
theorem at9 (b : Ref sig .tc) (hA : CarriedA b) (hB : CarriedB b) :
    W9 m ρ c (Proc.devRef .tc b) = W0 m ρ c (Proc.devRef .tc b) :=
  (carried9 m ρ c b hB).trans ((carried6 m ρ c b hB).trans (at5 m ρ c b hA))
/-- At launch 2's exit the buffer holds its launch contents. -/
theorem at10 (b : Ref sig .tc) (hA : CarriedA b) (hB : CarriedB b) (hC : CarriedC b) :
    W10 m ρ c (Proc.devRef .tc b) = W0 m ρ c (Proc.devRef .tc b) :=
  (carried10 m ρ c b hC).trans (at9 m ρ c b hA hB)

/-! ## Launch 0: the hidden layer -/

theorem in0_x : V1 m ρ c main_arg0 = m ((c : Thread nD τ).loc main_arg0) := by
  show StableHlo.after hostOps0 (W0 m ρ c) (Proc.devRef .tc main_arg0) = _
  read_fold

theorem in0_agg : V1 m ρ c main_v9 = Cert.Spec.agg (F := Ideal) (m ((c : Thread nD τ).loc main_arg0)) (m ((c : Thread nD τ).loc main_arg1)) (m ((c : Thread nD τ).loc main_arg2)) := by
  show StableHlo.after hostOps0 (W0 m ρ c) (Proc.devRef .tc main_v9) = _
  read_fold

/-- The weights of the first linear map reach the launch through a change of float format, which is the identity on
    extended reals. -/
theorem in0_w : V1 m ρ c main_v10 = (m ((c : Thread nD τ).loc main_arg3) : S128x32.Idx → EReal) := by
  show StableHlo.after hostOps0 (W0 m ρ c) (Proc.devRef .tc main_v10) = _
  read_fold

theorem in0_b : V1 m ρ c main_arg4 = m ((c : Thread nD τ).loc main_arg4) := by
  show StableHlo.after hostOps0 (W0 m ρ c) (Proc.devRef .tc main_arg4) = _
  read_fold

/-- Launch 0 leaves the hidden layer of layer one. -/
theorem out0 : W2 m ρ c (Proc.devRef .tc main_v12)
    = Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ((Cert.KernelIdeal.Region0.value (V1 m ρ) c).trans ?_)
  rw [in0_x m ρ c, in0_agg m ρ c, in0_w m ρ c, in0_b m ρ c]
  rfl

/-! ## Launch 1: the second linear map -/

theorem in1_h : V5 m ρ c main_v12 = W2 m ρ c (Proc.devRef .tc main_v12) := by
  show StableHlo.after hostOps1_2 (StableHlo.after hostOps1_1 (StableHlo.after hostOps1 (W2 m ρ c))) (Proc.devRef .tc main_v12) = _
  read_fold

theorem in1_mean : V5 m ρ c main_v15 = Cert.Spec.mean32 (F := Ideal) (W2 m ρ c (Proc.devRef .tc main_v12)) := by
  show StableHlo.after hostOps1_2 (StableHlo.after hostOps1_1 (StableHlo.after hostOps1 (W2 m ρ c))) (Proc.devRef .tc main_v15) = _
  read_fold

set_option maxHeartbeats 2000000 in
theorem in1_inv : V5 m ρ c main_v19
    = Cert.Spec.invstd32 (F := Ideal) (Cert.Spec.var32 (F := Ideal) (W2 m ρ c (Proc.devRef .tc main_v12))) := by
  show StableHlo.after hostOps1_2 (StableHlo.after hostOps1_1 (StableHlo.after hostOps1 (W2 m ρ c))) (Proc.devRef .tc main_v19) = _
  after_results_simp
  rfl

theorem in1_g : V5 m ρ c main_arg5 = m ((c : Thread nD τ).loc main_arg5) := at5 m ρ c main_arg5 (Or.inr (Or.inr (Or.inl rfl)))
theorem in1_be : V5 m ρ c main_arg6 = m ((c : Thread nD τ).loc main_arg6) := at5 m ρ c main_arg6 (Or.inr (Or.inr (Or.inr (Or.inl rfl))))
theorem in1_b : V5 m ρ c main_arg8 = m ((c : Thread nD τ).loc main_arg8) := at5 m ρ c main_arg8 (Or.inr (Or.inr (Or.inr (Or.inr (Or.inl rfl)))))

/-- The weights of the second linear map were changed of float format before launch 0 — the identity on extended
    reals — and are touched by nothing since. -/
theorem in1_w : V5 m ρ c main_v11 = (m ((c : Thread nD τ).loc main_arg7) : S32x128.Idx → EReal) := by
  refine (show StableHlo.after hostOps1_2 (StableHlo.after hostOps1_1 (StableHlo.after hostOps1 (W2 m ρ c))) (Proc.devRef .tc main_v11) = W2 m ρ c (Proc.devRef .tc main_v11) from by read_fold).trans ?_
  refine (W2_of_ne m ρ c main_v11 (by decide)).trans ?_
  show StableHlo.after hostOps0 (W0 m ρ c) (Proc.devRef .tc main_v11) = _
  read_fold

/-- Launch 1 leaves the second linear map's output of layer one. -/
theorem out1 : W6 m ρ c (Proc.devRef .tc main_v20) = (Cert.Spec.second (F := Ideal) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) := by
  refine (W6_arr m ρ c 7).trans ((Cert.KernelIdeal.Region1.value (V5 m ρ) c).trans ?_)
  rw [in1_h m ρ c, in1_mean m ρ c, in1_inv m ρ c, in1_g m ρ c, in1_be m ρ c, in1_w m ρ c, in1_b m ρ c, out0 m ρ c]
  rfl

/-! ## Launch 2: the layer's output -/

theorem in2_h : V9 m ρ c main_v20 = W6 m ρ c (Proc.devRef .tc main_v20) := by
  show StableHlo.after hostOps2_2 (StableHlo.after hostOps2_1 (StableHlo.after hostOps2 (W6 m ρ c))) (Proc.devRef .tc main_v20) = _
  read_fold

theorem in2_mean : V9 m ρ c main_v23 = Cert.Spec.mean128 (F := Ideal) (W6 m ρ c (Proc.devRef .tc main_v20)) := by
  show StableHlo.after hostOps2_2 (StableHlo.after hostOps2_1 (StableHlo.after hostOps2 (W6 m ρ c))) (Proc.devRef .tc main_v23) = _
  read_fold

set_option maxHeartbeats 2000000 in
theorem in2_inv : V9 m ρ c main_v27
    = Cert.Spec.invstd128 (F := Ideal) (Cert.Spec.var128 (F := Ideal) (W6 m ρ c (Proc.devRef .tc main_v20))) := by
  show StableHlo.after hostOps2_2 (StableHlo.after hostOps2_1 (StableHlo.after hostOps2 (W6 m ρ c))) (Proc.devRef .tc main_v27) = _
  after_results_simp
  rfl

theorem in2_g : V9 m ρ c main_arg9 = m ((c : Thread nD τ).loc main_arg9) := at9 m ρ c main_arg9 (Or.inr (Or.inr (Or.inr (Or.inr (Or.inr (Or.inl rfl)))))) (Or.inr (Or.inr (Or.inl rfl)))
theorem in2_be : V9 m ρ c main_arg10 = m ((c : Thread nD τ).loc main_arg10) := at9 m ρ c main_arg10 (Or.inr (Or.inr (Or.inr (Or.inr (Or.inr (Or.inr (Or.inl rfl))))))) (Or.inr (Or.inr (Or.inr (Or.inl rfl))))

/-- Launch 2 leaves one graph layer of the arguments. -/
theorem out : W10 m ρ c (Proc.devRef .tc main_v28)
    = Cert.Spec.layer (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 5).trans ((Cert.KernelIdeal.Region2.value (V9 m ρ) c).trans ?_)
  rw [in2_h m ρ c, in2_mean m ρ c, in2_inv m ρ c, in2_g m ρ c, in2_be m ρ c, out1 m ρ c]
  rfl

/-- The arguments layer two reads are as launched when layer one ends. -/
theorem kept (b : Ref sig .tc) (hC : CarriedC b) (hA : CarriedA b) (hB : CarriedB b) :
    W10 m ρ c (Proc.devRef .tc b) = W0 m ρ c (Proc.devRef .tc b) :=
  at10 m ρ c b hA hB hC

end Cert.KernelIdeal.Chain1

end
-- ==== Proof.Region3Cover.lean ====
/-
  Launch 3, from blocks to the array: what each of the ten grid points writes back to the output window is the block of
  10000 rows of the specification's first stage, and the ten blocks cover the 100000 rows.
-/
import proofs.«134813_j35914516529300_1_alg».proof.Proof.Gen.KernelIdeal.Frame
import proofs.«134813_j35914516529300_1_alg».proof.Proof.Spec
import proofs.«134813_j35914516529300_1_alg».proof.Proof.Region0Entry
import Idealize.ShloMosaic.PureOps.Ideal
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.KernelIdeal.Lin1Entry
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the ten grid points: the row windows (x, agg, the output) are at block
    (t, 0), the parameter windows (W1, b1) at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row `p` of x's block at point `t` is row `t * 10000 + p` of x. -/
theorem x_blk (c : Dev nD) (t : Fin cfg3.N) (p : Fin 10000) (k : Fin 128) (r : Fin 100000) (hr : r.val = t.val * 10000 + p.val) :
    iblk3 V c 0 t (ix2 p k) = V c main_v28 (ix2 r k) := by
  obtain ⟨e0, e1, -⟩ := idx_facts t
  show V c main_v28 (((cfg3.win 0).blk t).view.emb (ix2 p k)) = V c main_v28 (ix2 r k)
  refine congrArg (V c main_v28) (funext fun a => Fin.ext ?_)
  match a with
  | ⟨0, _⟩ => show win3_0.index t (0 : Fin 2) * 10000 + 1 * p.val = r.val; omega
  | ⟨1, _⟩ => show win3_0.index t (1 : Fin 2) * 128 + 1 * k.val = k.val; omega

/-- Row `p` of agg's block at point `t` is row `t * 10000 + p` of agg. -/
theorem agg_blk (c : Dev nD) (t : Fin cfg3.N) (p : Fin 10000) (k : Fin 128) (r : Fin 100000) (hr : r.val = t.val * 10000 + p.val) :
    iblk3 V c 1 t (ix2 p k) = V c main_v38 (ix2 r k) := by
  obtain ⟨-, -, e0, e1, -⟩ := idx_facts t
  show V c main_v38 (((cfg3.win 1).blk t).view.emb (ix2 p k)) = V c main_v38 (ix2 r k)
  refine congrArg (V c main_v38) (funext fun a => Fin.ext ?_)
  match a with
  | ⟨0, _⟩ => show win3_1.index t (0 : Fin 2) * 10000 + 1 * p.val = r.val; omega
  | ⟨1, _⟩ => show win3_1.index t (1 : Fin 2) * 128 + 1 * k.val = k.val; omega

/-- W1's block at every point is all of W1. -/
theorem w_blk (c : Dev nD) (t : Fin cfg3.N) (k : Fin 128) (q : Fin 32) :
    iblk3 V c 2 t (ix2 k q) = V c main_v39 (ix2 k q) := by
  obtain ⟨-, -, -, -, e0, e1, -⟩ := idx_facts t
  show V c main_v39 (((cfg3.win 2).blk t).view.emb (ix2 k q)) = V c main_v39 (ix2 k q)
  refine congrArg (V c main_v39) (funext fun a => Fin.ext ?_)
  match a with
  | ⟨0, _⟩ => show win3_2.index t (0 : Fin 2) * 128 + 1 * k.val = k.val; omega
  | ⟨1, _⟩ => show win3_2.index t (1 : Fin 2) * 32 + 1 * q.val = q.val; omega

/-- b1's block at every point is all of b1. -/
theorem b_blk (c : Dev nD) (t : Fin cfg3.N) (q : Fin 32) :
    iblk3 V c 3 t (ix1 q) = V c main_arg12 (ix1 q) := by
  obtain ⟨-, -, -, -, -, -, e0, -⟩ := idx_facts t
  show V c main_arg12 (((cfg3.win 3).blk t).view.emb (ix1 q)) = V c main_arg12 (ix1 q)
  refine congrArg (V c main_arg12) (funext fun a => Fin.ext ?_)
  match a with
  | ⟨0, _⟩ => show win3_3.index t (0 : Fin 1) * 32 + 1 * q.val = q.val; omega

/-- Row `p` of the output's block at point `t` is row `t * 10000 + p` of the output array. -/
theorem out_emb (t : Fin cfg3.N) (p : Fin 10000) (q : Fin 32) (r : Fin 100000) (hr : r.val = t.val * 10000 + p.val) :
    ((cfg3.win 4).blk t).view.emb (ix2 p q) = ix2 r q := by
  obtain ⟨-, -, -, -, -, -, -, e0, e1⟩ := idx_facts t
  refine funext fun a => Fin.ext ?_
  match a with
  | ⟨0, _⟩ => show win3_4.index t (0 : Fin 2) * 10000 + 1 * p.val = r.val; omega
  | ⟨1, _⟩ => show win3_4.index t (1 : Fin 2) * 32 + 1 * q.val = q.val; omega

/-- What point `t` writes back is block `t` of the specification's first stage of the arrays at entry. -/
theorem flushed_eq (c : Dev nD) (t : Fin cfg3.N) :
    (dat3 V c).flushed 4 t = ((cfg3.win 4).blk t).view.read (Elt Ideal)
      (Cert.Spec.lin1 (F := Ideal) (V c main_v28) (V c main_v38) (V c main_v39) (V c main_arg12)) := by
  show (cfg3.win 4).cut (grid3.coords t) ((dat3 V c).after 4 t) = _
  rw [after3_4]
  unfold out3_4
  rw [View.canon_unit_zero zero2]
  simp only [View.ld_unit_zero (S := S10000x128) zero2, View.ld_unit_zero (S := S128x32) zero2, View.ld_unit_zero (S := S32) zero1]
  funext y
  obtain ⟨p, q, rfl⟩ : ∃ (p : Fin 10000) (q : Fin 32), y = ix2 p q := ⟨y 0, y 1, eq_ix2 y⟩
  have hN : cfg3.N = 10 := N_3
  have hlt : t.val * 10000 + p.val < 100000 := by have := t.isLt; have := p.isLt; omega
  show k3_pay1 (iblk3 V c 0 t) (iblk3 V c 1 t) (iblk3 V c 2 t) (iblk3 V c 3 t) (ix2 p q)
    = Cert.Spec.lin1 (F := Ideal) (V c main_v28) (V c main_v38) (V c main_v39) (V c main_arg12) (((cfg3.win 4).blk t).view.emb (ix2 p q))
  rw [out_emb t p q ⟨t.val * 10000 + p.val, hlt⟩ rfl]
  refine (k3_pay1_apply _ _ _ _ p q).trans (Eq.trans ?_ (lin1_apply _ _ _ _ ⟨t.val * 10000 + p.val, hlt⟩ q).symm)
  refine congr (congr (congr (congrArg entry ?_) ?_) ?_) ?_
  · exact funext fun k => x_blk V c t p k _ rfl
  · exact funext fun k => agg_blk V c t p k _ rfl
  · exact funext fun k => w_blk V c t k q
  · exact b_blk V c t q

/-- An index of the output array is in point `t`'s block iff each coordinate is in the block's range on its axis. -/
theorem mem_blk (t : Fin cfg3.N) (i : S100000x32.Idx) :
    i ∈ ((cfg3.win 4).blk t).view.set ↔ ∀ a : Fin 2, win3_4.index t a * S10000x32.size a ≤ (i a).val ∧ (i a).val < win3_4.index t a * S10000x32.size a + S10000x32.size a := by
  show i ∈ ((View.whole main_v41).slice (win3_4.rect t)).set ↔ _
  rw [View.set_slice_whole, Rect.mem_set_unit]
  exact Iff.rfl

/-- The ten blocks cover the array: row `r` is in the block of point `r / 10000`. -/
theorem cover (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, -, e0, e1⟩ := idx_facts t
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 32 ≤ (i 1).val ∧ (i 1).val < win3_4.index t (1 : Fin 2) * 32 + 32; omega

end Cert.KernelIdeal.Region3

end
-- ==== Proof.Region3.lean ====
/-
  Launch 3: the first linear map and the rectifier of layer two, row block by row block.
-/
import proofs.«134813_j35914516529300_1_alg».proof.Proof.Gen.KernelIdeal.Frame
import proofs.«134813_j35914516529300_1_alg».proof.Proof.Spec
import proofs.«134813_j35914516529300_1_alg».proof.Proof.Region3Cover
import Idealize.ShloMosaic.PureOps.Ideal

set_option maxRecDepth 16384

noncomputable section

namespace Cert.KernelIdeal.Region3

open Cert.KernelIdeal Cert.KernelIdeal.Gen Idealize.ShloMosaic Idealize.ShloMosaic.TcCoe Idealize.SL.Sem

/-- The array launch 3 leaves in its output window, as one function of the arrays it finds at entry: every grid point
    writes back its block of the specification's first stage, and the blocks cover the array. -/
theorem value (V : (c : Dev nD) → (b : Ref sig .tc) → Buf (Elt Ideal) ((c : Thread nD τ).loc b)) (c : Dev nD) :
    (dat3 (F := Ideal) V c).arrAt 4 cfg3.N = Cert.Spec.lin1 (F := Ideal) (V c main_v28) (V c main_v38) (V c main_v39) (V c main_arg12) :=
  (dat3 (F := Ideal) V c).arrAt_eq_of_cover 4 _ (fun t _ => flushed_eq V c t) cover

end Cert.KernelIdeal.Region3

end
-- ==== Proof.Region4.lean ====
/-
  Launch 4: the normalisation of the hidden layer and the second linear map of layer two, row block by row block.
  Each of the ten grid points writes rows 10000 t … 10000 t + 9999 of the output; what it writes is the stage
  `Cert.Spec.bnlin2` of the whole arrays restricted to those rows, and the ten blocks cover the array.
-/
import proofs.«134813_j35914516529300_1_alg».proof.Proof.Gen.KernelIdeal.Frame
import proofs.«134813_j35914516529300_1_alg».proof.Proof.Spec
import proofs.«134813_j35914516529300_1_alg».proof.Proof.Region1Shared
import Idealize.ShloMosaic.PureOps.Ideal
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices of the eight windows at grid point `t`: the two row windows move with the point, the parameter
    windows stay at block 0 (decided over the ten points). -/
theorem idx_facts : ∀ t : Fin cfg4.N,
    win4_0.index t (0 : Fin 2) = t.val ∧ win4_0.index t (1 : Fin 2) = 0
    ∧ win4_1.index t (0 : Fin 1) = 0 ∧ win4_2.index t (0 : Fin 1) = 0
    ∧ win4_3.index t (0 : Fin 1) = 0 ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-! ## The input blocks, entry by entry -/

/-- Row `p` of the hidden block at point `t` is row `10000 t + p` of the hidden array. -/
theorem iblk_h (c : Dev nD) (t : Fin cfg4.N) (p : Fin 10000) (k : Fin 32) (r : Fin 100000)
    (hr : r.val = t.val * 10000 + p.val) :
    (iblk4 (F := Ideal) V c 0 t : Vec Ideal S10000x32 .f32) (ix2 p k)
      = (V c main_v41 : S100000x32.Idx → EReal) (ix2 r k) := by
  obtain ⟨e0, e1, -⟩ := idx_facts t
  unfold iblk4
  rw [View.read_apply]
  show V c main_v41 _ = V c main_v41 _
  congr 1
  funext a
  apply Fin.ext
  match a with
  | ⟨0, _⟩ => show win4_0.index t (0 : Fin 2) * 10000 + 1 * p.val = r.val; rw [e0, hr]; omega
  | ⟨1, _⟩ => show win4_0.index t (1 : Fin 2) * 32 + 1 * k.val = k.val; rw [e1]; omega

/-- The mean block is the mean array. -/
theorem iblk_mean (c : Dev nD) (t : Fin cfg4.N) (k : Fin 32) :
    (iblk4 (F := Ideal) V c 1 t : Vec Ideal S32 .f32) (ix1 k) = (V c main_v44 : S32.Idx → EReal) (ix1 k) := by
  obtain ⟨-, -, e, -⟩ := idx_facts t
  unfold iblk4
  rw [View.read_apply]
  show V c main_v44 _ = V c main_v44 _
  congr 1
  funext a
  apply Fin.ext
  match a with
  | ⟨0, _⟩ => show win4_1.index t (0 : Fin 1) * 32 + 1 * k.val = k.val; rw [e]; omega

/-- The inverse-deviation block is its array. -/
theorem iblk_inv (c : Dev nD) (t : Fin cfg4.N) (k : Fin 32) :
    (iblk4 (F := Ideal) V c 2 t : Vec Ideal S32 .f32) (ix1 k) = (V c main_v48 : S32.Idx → EReal) (ix1 k) := by
  obtain ⟨-, -, -, e, -⟩ := idx_facts t
  unfold iblk4
  rw [View.read_apply]
  show V c main_v48 _ = V c main_v48 _
  congr 1
  funext a
  apply Fin.ext
  match a with
  | ⟨0, _⟩ => show win4_2.index t (0 : Fin 1) * 32 + 1 * k.val = k.val; rw [e]; omega

/-- The scale block is its array. -/
theorem iblk_g (c : Dev nD) (t : Fin cfg4.N) (k : Fin 32) :
    (iblk4 (F := Ideal) V c 3 t : Vec Ideal S32 .f32) (ix1 k) = (V c main_arg13 : S32.Idx → EReal) (ix1 k) := by
  obtain ⟨-, -, -, -, e, -⟩ := idx_facts t
  unfold iblk4
  rw [View.read_apply]
  show V c main_arg13 _ = V c main_arg13 _
  congr 1
  funext a
  apply Fin.ext
  match a with
  | ⟨0, _⟩ => show win4_3.index t (0 : Fin 1) * 32 + 1 * k.val = k.val; rw [e]; omega

/-- The shift block is its array. -/
theorem iblk_be (c : Dev nD) (t : Fin cfg4.N) (k : Fin 32) :
    (iblk4 (F := Ideal) V c 4 t : Vec Ideal S32 .f32) (ix1 k) = (V c main_arg14 : S32.Idx → EReal) (ix1 k) := by
  obtain ⟨-, -, -, -, -, e, -⟩ := idx_facts t
  unfold iblk4
  rw [View.read_apply]
  show V c main_arg14 _ = V c main_arg14 _
  congr 1
  funext a
  apply Fin.ext
  match a with
  | ⟨0, _⟩ => show win4_4.index t (0 : Fin 1) * 32 + 1 * k.val = k.val; rw [e]; omega

/-- The weight block is the whole weight array. -/
theorem iblk_w (c : Dev nD) (t : Fin cfg4.N) (k : Fin 32) (q : Fin 128) :
    (iblk4 (F := Ideal) V c 5 t : Vec Ideal S32x128 .bf16) (ix2 k q) = (V c main_v40 : S32x128.Idx → EReal) (ix2 k q) := by
  obtain ⟨-, -, -, -, -, -, e0, e1, -⟩ := idx_facts t
  unfold iblk4
  rw [View.read_apply]
  show V c main_v40 _ = V c main_v40 _
  congr 1
  funext a
  apply Fin.ext
  match a with
  | ⟨0, _⟩ => show win4_5.index t (0 : Fin 2) * 32 + 1 * k.val = k.val; rw [e0]; omega
  | ⟨1, _⟩ => show win4_5.index t (1 : Fin 2) * 128 + 1 * q.val = q.val; rw [e1]; omega

/-- The bias block is the bias array. -/
theorem iblk_b (c : Dev nD) (t : Fin cfg4.N) (q : Fin 128) :
    (iblk4 (F := Ideal) V c 6 t : Vec Ideal S128 .f32) (ix1 q) = (V c main_arg16 : S128.Idx → EReal) (ix1 q) := by
  obtain ⟨-, -, -, -, -, -, -, -, e, -⟩ := idx_facts t
  unfold iblk4
  rw [View.read_apply]
  show V c main_arg16 _ = V c main_arg16 _
  congr 1
  funext a
  apply Fin.ext
  match a with
  | ⟨0, _⟩ => show win4_6.index t (0 : Fin 1) * 128 + 1 * q.val = q.val; rw [e]; omega

/-! ## What a point writes back, and the whole array -/

/-- The stage of the arrays the launch finds at entry. -/
abbrev stage (c : Dev nD) : Buf (Elt Ideal) ((c : Thread nD τ).loc main_v49) :=
  Cert.Spec.bnlin2 (F := Ideal) (V c main_v41) (V c main_v44) (V c main_v48) (V c main_arg13) (V c main_arg14)
    (V c main_v40) (V c main_arg16)

/-- What point `t` writes back is block `t` of the stage. -/
theorem flushed_eq (c : Dev nD) (t : Fin cfg4.N) :
    (dat4 (F := Ideal) V c).flushed 7 t = ((cfg4.win 7).blk t).view.read (Elt Ideal) (stage V c) := by
  show (cfg4.win 7).cut (grid4.coords t) ((dat4 (F := Ideal) V c).after 7 t) = _
  rw [after4_7]
  unfold out4_7
  rw [View.canon_unit_zero hz2]
  simp only [View.ld_unit_zero (S := S10000x32) hz2, View.ld_unit_zero (S := S32) hz1,
    View.ld_unit_zero (S := S32x128) hz2, View.ld_unit_zero (S := S128) hz1]
  have hN : grid4.N = 10 := N_4
  have ht : t.val < 10 := by have h : t.val < grid4.N := t.isLt; omega
  obtain ⟨-, -, -, -, -, -, -, -, -, e0, e1⟩ := idx_facts t
  funext y
  obtain ⟨p, q, rfl⟩ : ∃ (p : Fin 10000) (q : Fin 128), y = ix2 p q := ⟨y 0, y 1, eq_ix2 y⟩
  have hp : p.val < 10000 := p.isLt
  show k4_pay1 (F := Ideal) (iblk4 V c 0 t) (iblk4 V c 1 t) (iblk4 V c 2 t) (iblk4 V c 3 t) (iblk4 V c 4 t)
      (iblk4 V c 5 t) (iblk4 V c 6 t) (ix2 p q)
    = stage V c (((cfg4.win 7).blk t).view.emb (ix2 p q))
  have hemb : ((cfg4.win 7).blk t).view.emb (ix2 p q)
      = (ix2 (⟨t.val * 10000 + p.val, by omega⟩ : Fin 100000) q : S100000x128.Idx) := by
    funext a
    apply Fin.ext
    match a with
    | ⟨0, _⟩ => show win4_7.index t (0 : Fin 2) * 10000 + 1 * p.val = t.val * 10000 + p.val; rw [e0]; omega
    | ⟨1, _⟩ => show win4_7.index t (1 : Fin 2) * 128 + 1 * q.val = q.val; rw [e1]; omega
  rw [hemb]
  exact Cert.BnLin2At.blk4_at _ _ _ _ _ _ _ _ _ _ _ _ _ _ p q _
    (fun k => iblk_h V c t p k _ rfl) (fun k => iblk_mean V c t k) (fun k => iblk_inv V c t k)
    (fun k => iblk_g V c t k) (fun k => iblk_be V c t k) (fun k => iblk_w V c t k q) (iblk_b V c t q)

/-- An index of the output array is in point `t`'s block iff each coordinate is in the block's range on its axis. -/
theorem mem_blk (t : Fin cfg4.N) (i : S100000x128.Idx) :
    i ∈ ((cfg4.win 7).blk t).view.set ↔ ∀ a : Fin 2, win4_7.index t a * S10000x128.size a ≤ (i a).val
      ∧ (i a).val < win4_7.index t a * S10000x128.size a + S10000x128.size a := by
  show i ∈ ((View.whole main_v49).slice (win4_7.rect t)).set ↔ _
  rw [View.set_slice_whole, Rect.mem_set_unit]
  exact Iff.rfl

/-- The ten row blocks cover the output array: row `r` is in block `r / 10000`. -/
theorem cover (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  have hN : grid4.N = 10 := N_4
  have hlt : (i 0).val / 10000 < cfg4.N := by show _ < grid4.N; rw [hN]; omega
  obtain ⟨-, -, -, -, -, -, -, -, -, e0, e1⟩ := idx_facts ⟨(i 0).val / 10000, hlt⟩
  refine ⟨⟨(i 0).val / 10000, hlt⟩, flush4_7 _, ?_⟩
  rw [mem_blk]
  intro a
  match a with
  | ⟨0, _⟩ =>
    show win4_7.index ⟨(i 0).val / 10000, hlt⟩ (0 : Fin 2) * 10000 ≤ (i 0).val
      ∧ (i 0).val < win4_7.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win4_7.index ⟨(i 0).val / 10000, hlt⟩ (1 : Fin 2) * 128 ≤ (i 1).val
      ∧ (i 1).val < win4_7.index ⟨(i 0).val / 10000, hlt⟩ (1 : Fin 2) * 128 + 128
    rw [e1]
    omega

/-- The array launch 4 leaves in its output window, as one function of the arrays it finds at entry. -/
theorem value (V : (c : Dev nD) → (b : Ref sig .tc) → Buf (Elt Ideal) ((c : Thread nD τ).loc b)) (c : Dev nD) :
    (dat4 (F := Ideal) V c).arrAt 7 cfg4.N = Cert.Spec.bnlin2 (F := Ideal) (V c main_v41) (V c main_v44) (V c main_v48) (V c main_arg13) (V c main_arg14) (V c main_v40) (V c main_arg16) :=
  (dat4 (F := Ideal) V c).arrAt_eq_of_cover 7 (stage V c) (fun t _ => flushed_eq V c t) cover

end Cert.KernelIdeal.Region4

end
-- ==== Proof.Region5.lean ====
/-
  Launch 5: the normalisation and the leaky rectifier of layer two, row block by row block.
  The grid has ten points; point `t` loads rows `10000 t … 10000 t + 9999` of the layer's second linear output and the
  four vectors of 128 entries whole, and stores the rectified normalisation of that block into the same rows of the
  output.  Entry by entry this is the specification's last stage, and the ten row blocks fill the array.
-/
import proofs.«134813_j35914516529300_1_alg».proof.Proof.Gen.KernelIdeal.Frame
import proofs.«134813_j35914516529300_1_alg».proof.Proof.Spec
import proofs.«134813_j35914516529300_1_alg».proof.Proof.Region2Point
import Idealize.ShloMosaic.PureOps.Ideal
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Cert.KernelIdeal.Region2 (pay5_at bnleaky_at leakyAt_congr)
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The block indices at grid point `t`, decided over the ten points: the two row windows are at row block `t`, column
    block 0; the four vectors are at block 0. -/
theorem idx_facts5 : ∀ t : Fin cfg5.N, win5_0.index t (0 : Fin 2) = t.val ∧ win5_0.index t (1 : Fin 2) = 0
    ∧ win5_1.index t (0 : Fin 1) = 0 ∧ win5_2.index t (0 : Fin 1) = 0
    ∧ win5_3.index t (0 : Fin 1) = 0 ∧ win5_4.index t (0 : Fin 1) = 0
    ∧ win5_5.index t (0 : Fin 2) = t.val ∧ win5_5.index t (1 : Fin 2) = 0 :=
  (by decide +kernel : ∀ t : Fin grid5.N, _)

section
variable (V : (c : Dev nD) → (b : Ref sig .tc) → Buf (Elt Ideal) ((c : Thread nD τ).loc b))

/-- What point `t` writes back is block `t` of the specification's last stage of the arrays the launch finds. -/
theorem flushed5_eq (c : Dev nD) (t : Fin cfg5.N) :
    (dat5 (F := Ideal) V c).flushed 5 t = ((cfg5.win 5).blk t).view.read (Elt Ideal)
      (Cert.Spec.bnleaky (F := Ideal) (V c main_v49) (V c main_v52) (V c main_v56) (V c main_arg17) (V c main_arg18)) := by
  show (cfg5.win 5).cut (grid5.coords t) ((dat5 V c).after 5 t) = _
  rw [after5_5]
  unfold out5_5
  rw [View.canon_unit_zero hz2]
  simp only [View.ld_unit_zero (S := S10000x128) hz2, View.ld_unit_zero (S := S128) hz1]
  obtain ⟨e00, e01, e1, e2, e3, e4, e50, e51⟩ := idx_facts5 t
  funext j
  refine (pay5_at _ _ _ _ _ j).trans ?_
  refine Eq.trans ?_ (bnleaky_at _ _ _ _ _ (((cfg5.win 5).blk t).view.emb j)).symm
  have hj0 : (j 0).val < 10000 := (j 0).isLt
  have hj1 : (j 1).val < 128 := (j 1).isLt
  refine leakyAt_congr ?_ ?_ ?_ ?_ ?_
  · show V c main_v49 (((cfg5.win 0).blk t).view.emb j) = V c main_v49 (((cfg5.win 5).blk t).view.emb j)
    refine congrArg (V c main_v49) (funext fun a => Fin.ext ?_)
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 128 + 1 * (j 1).val = win5_5.index t (1 : Fin 2) * 128 + 1 * (j 1).val; omega
  · show V c main_v52 (((cfg5.win 1).blk t).view.emb (ix1 (j 1))) = V c main_v52 (ix1 ((((cfg5.win 5).blk t).view.emb j) 1))
    refine congrArg (V c main_v52) (funext fun a => Fin.ext ?_)
    match a with
    | ⟨0, _⟩ => show win5_1.index t (0 : Fin 1) * 128 + 1 * (j 1).val = win5_5.index t (1 : Fin 2) * 128 + 1 * (j 1).val; omega
  · show V c main_v56 (((cfg5.win 2).blk t).view.emb (ix1 (j 1))) = V c main_v56 (ix1 ((((cfg5.win 5).blk t).view.emb j) 1))
    refine congrArg (V c main_v56) (funext fun a => Fin.ext ?_)
    match a with
    | ⟨0, _⟩ => show win5_2.index t (0 : Fin 1) * 128 + 1 * (j 1).val = win5_5.index t (1 : Fin 2) * 128 + 1 * (j 1).val; omega
  · show V c main_arg17 (((cfg5.win 3).blk t).view.emb (ix1 (j 1))) = V c main_arg17 (ix1 ((((cfg5.win 5).blk t).view.emb j) 1))
    refine congrArg (V c main_arg17) (funext fun a => Fin.ext ?_)
    match a with
    | ⟨0, _⟩ => show win5_3.index t (0 : Fin 1) * 128 + 1 * (j 1).val = win5_5.index t (1 : Fin 2) * 128 + 1 * (j 1).val; omega
  · show V c main_arg18 (((cfg5.win 4).blk t).view.emb (ix1 (j 1))) = V c main_arg18 (ix1 ((((cfg5.win 5).blk t).view.emb j) 1))
    refine congrArg (V c main_arg18) (funext fun a => Fin.ext ?_)
    match a with
    | ⟨0, _⟩ => show win5_4.index t (0 : Fin 1) * 128 + 1 * (j 1).val = win5_5.index t (1 : Fin 2) * 128 + 1 * (j 1).val; omega

end

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v57).slice (win5_5.rect t)).set ↔ _
  rw [View.set_slice_whole, Rect.mem_set_unit]
  exact Iff.rfl

/-- Every index of the output array is in some point's block: row `r` is in the block of point `r / 10000`. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 10 := N_5
  have ht : (i 0).val / 10000 < cfg5.N := by rw [hN]; omega
  obtain ⟨-, -, -, -, -, -, e50, e51⟩ := idx_facts5 ⟨(i 0).val / 10000, ht⟩
  refine ⟨⟨(i 0).val / 10000, ht⟩, flush5_5 _, ?_⟩
  rw [mem_blk5]
  intro a
  match a with
  | ⟨0, _⟩ =>
    show win5_5.index ⟨(i 0).val / 10000, ht⟩ (0 : Fin 2) * 10000 ≤ (i 0).val ∧ (i 0).val < win5_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win5_5.index ⟨(i 0).val / 10000, ht⟩ (1 : Fin 2) * 128 ≤ (i 1).val ∧ (i 1).val < win5_5.index ⟨(i 0).val / 10000, ht⟩ (1 : Fin 2) * 128 + 128
    rw [e51]
    omega

/-- The array launch 5 leaves in its output window, as one function of the arrays it finds at entry. -/
theorem value (V : (c : Dev nD) → (b : Ref sig .tc) → Buf (Elt Ideal) ((c : Thread nD τ).loc b)) (c : Dev nD) :
    (dat5 (F := Ideal) V c).arrAt 5 cfg5.N = Cert.Spec.bnleaky (F := Ideal) (V c main_v49) (V c main_v52) (V c main_v56) (V c main_arg17) (V c main_arg18) :=
  (dat5 (F := Ideal) V c).arrAt_eq_of_cover 5 _ (fun t _ => flushed5_eq V c t) cover5

end Cert.KernelIdeal.Region5

end
-- ==== Proof.Chain2.lean ====
/-
  Layer two of the kernel program's fold.  From the buffer contents at the end of layer one, the host operations
  and the three launches of layer two leave in the result buffer one graph layer applied to layer one's output,
  the edge lists and the second set of weights.
-/
import proofs.«134813_j35914516529300_1_alg».proof.Proof.KernelRun
import proofs.«134813_j35914516529300_1_alg».proof.Proof.Spec
import proofs.«134813_j35914516529300_1_alg».proof.Proof.Region3
import proofs.«134813_j35914516529300_1_alg».proof.Proof.Region4
import proofs.«134813_j35914516529300_1_alg».proof.Proof.Region5
import Idealize.ShloMosaic.PureOps.Ideal
import Idealize.ShloMosaic.Lib.StableHlo.Run

set_option maxRecDepth 16384

noncomputable section

namespace Cert.KernelIdeal.Chain2

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Equal arguments give equal stages -/

theorem lin1_congr {x x' ag ag' : Cert.Spec.Arr Ideal Cert.ReferenceIdeal.S100000x128}
    {W W' : Cert.Spec.Arr Ideal Cert.ReferenceIdeal.S128x32} {b b' : Cert.Spec.Arr Ideal Cert.ReferenceIdeal.S32}
    (h1 : x = x') (h2 : ag = ag') (h3 : W = W') (h4 : b = b') :
    Cert.Spec.lin1 (F := Ideal) x ag W b = Cert.Spec.lin1 (F := Ideal) x' ag' W' b' := by
  subst h1 h2 h3 h4; rfl

theorem bnlin2_congr {h h' : Cert.Spec.Arr Ideal Cert.ReferenceIdeal.S100000x32}
    {mu mu' iv iv' g g' be be' : Cert.Spec.Arr Ideal Cert.ReferenceIdeal.S32}
    {W W' : Cert.Spec.Arr Ideal Cert.ReferenceIdeal.S32x128} {b b' : Cert.Spec.Arr Ideal Cert.ReferenceIdeal.S128}
    (h1 : h = h') (h2 : mu = mu') (h3 : iv = iv') (h4 : g = g') (h5 : be = be') (h6 : W = W') (h7 : b = b') :
    Cert.Spec.bnlin2 (F := Ideal) h mu iv g be W b = Cert.Spec.bnlin2 (F := Ideal) h' mu' iv' g' be' W' b' := by
  subst h1 h2 h3 h4 h5 h6 h7; rfl

theorem bnleaky_congr {h h' : Cert.Spec.Arr Ideal Cert.ReferenceIdeal.S100000x128}
    {mu mu' iv iv' g g' be be' : Cert.Spec.Arr Ideal Cert.ReferenceIdeal.S128}
    (h1 : h = h') (h2 : mu = mu') (h3 : iv = iv') (h4 : g = g') (h5 : be = be') :
    Cert.Spec.bnleaky (F := Ideal) h mu iv g be = Cert.Spec.bnleaky (F := Ideal) h' mu' iv' g' be' := by
  subst h1 h2 h3 h4 h5; rfl

/-! ## The entry of launch 3: the host operations between layer one's last launch and launch 3 -/

theorem W11_v28 (c : Dev nD) : W11 m ρ c (Proc.devRef .tc main_v28) = W10 m ρ c (Proc.devRef .tc main_v28) := by
  show StableHlo.after hostOps3 (W10 m ρ c) (Proc.devRef .tc main_v28) = _
  after_results_simp

theorem W11_arg12 (c : Dev nD) : W11 m ρ c (Proc.devRef .tc main_arg12) = W10 m ρ c (Proc.devRef .tc main_arg12) := by
  show StableHlo.after hostOps3 (W10 m ρ c) (Proc.devRef .tc main_arg12) = _
  after_results_simp

theorem W11_arg13 (c : Dev nD) : W11 m ρ c (Proc.devRef .tc main_arg13) = W10 m ρ c (Proc.devRef .tc main_arg13) := by
  show StableHlo.after hostOps3 (W10 m ρ c) (Proc.devRef .tc main_arg13) = _
  after_results_simp

theorem W11_arg14 (c : Dev nD) : W11 m ρ c (Proc.devRef .tc main_arg14) = W10 m ρ c (Proc.devRef .tc main_arg14) := by
  show StableHlo.after hostOps3 (W10 m ρ c) (Proc.devRef .tc main_arg14) = _
  after_results_simp

theorem W11_arg16 (c : Dev nD) : W11 m ρ c (Proc.devRef .tc main_arg16) = W10 m ρ c (Proc.devRef .tc main_arg16) := by
  show StableHlo.after hostOps3 (W10 m ρ c) (Proc.devRef .tc main_arg16) = _
  after_results_simp

theorem W11_arg17 (c : Dev nD) : W11 m ρ c (Proc.devRef .tc main_arg17) = W10 m ρ c (Proc.devRef .tc main_arg17) := by
  show StableHlo.after hostOps3 (W10 m ρ c) (Proc.devRef .tc main_arg17) = _
  after_results_simp

theorem W11_arg18 (c : Dev nD) : W11 m ρ c (Proc.devRef .tc main_arg18) = W10 m ρ c (Proc.devRef .tc main_arg18) := by
  show StableHlo.after hostOps3 (W10 m ρ c) (Proc.devRef .tc main_arg18) = _
  after_results_simp

/-- The aggregated neighbours of layer one's output. -/
theorem W11_v38 (c : Dev nD) : W11 m ρ c (Proc.devRef .tc main_v38)
    = Cert.Spec.agg (F := Ideal) (W10 m ρ c (Proc.devRef .tc main_v28)) (W10 m ρ c (Proc.devRef .tc main_arg1)) (W10 m ρ c (Proc.devRef .tc main_arg2)) := by
  show StableHlo.after hostOps3 (W10 m ρ c) (Proc.devRef .tc main_v38) = _
  after_results_simp
  rfl

/-- The first weight array cast to the narrow format: the cast is the identity on extended reals. -/
theorem W11_v39 (c : Dev nD) : W11 m ρ c (Proc.devRef .tc main_v39) = W10 m ρ c (Proc.devRef .tc main_arg11) := by
  show StableHlo.after hostOps3 (W10 m ρ c) (Proc.devRef .tc main_v39) = _
  after_results_simp
  rfl

/-- The second weight array cast to the narrow format. -/
theorem W11_v40 (c : Dev nD) : W11 m ρ c (Proc.devRef .tc main_v40) = W10 m ρ c (Proc.devRef .tc main_arg15) := by
  show StableHlo.after hostOps3 (W10 m ρ c) (Proc.devRef .tc main_v40) = _
  after_results_simp
  rfl

/-! ## Launch 3 -/

/-- Launch 3 leaves the hidden layer of layer two. -/
theorem W12_v41 (c : Dev nD) : W12 m ρ c (Proc.devRef .tc main_v41)
    = Cert.Spec.hidden (F := Ideal) (W10 m ρ c (Proc.devRef .tc main_v28)) (W10 m ρ c (Proc.devRef .tc main_arg1)) (W10 m ρ c (Proc.devRef .tc main_arg2))
        (W10 m ρ c (Proc.devRef .tc main_arg11)) (W10 m ρ c (Proc.devRef .tc main_arg12)) :=
  (W12_arr m ρ c 4).trans ((Cert.KernelIdeal.Region3.value (V11 m ρ) c).trans
    (lin1_congr (W11_v28 m ρ c) (W11_v38 m ρ c) (W11_v39 m ρ c) (W11_arg12 m ρ c)))
/-! ## The entry of launch 4: the batch statistics of the hidden layer -/

theorem W15_W12_v41 (c : Dev nD) : W15 m ρ c (Proc.devRef .tc main_v41) = W12 m ρ c (Proc.devRef .tc main_v41) := by
  show StableHlo.after hostOps4_2 (StableHlo.after hostOps4_1 (StableHlo.after hostOps4 (W12 m ρ c))) (Proc.devRef .tc main_v41) = _
  after_results_simp

theorem W15_W12_v40 (c : Dev nD) : W15 m ρ c (Proc.devRef .tc main_v40) = W12 m ρ c (Proc.devRef .tc main_v40) := by
  show StableHlo.after hostOps4_2 (StableHlo.after hostOps4_1 (StableHlo.after hostOps4 (W12 m ρ c))) (Proc.devRef .tc main_v40) = _
  after_results_simp

theorem W15_W12_arg13 (c : Dev nD) : W15 m ρ c (Proc.devRef .tc main_arg13) = W12 m ρ c (Proc.devRef .tc main_arg13) := by
  show StableHlo.after hostOps4_2 (StableHlo.after hostOps4_1 (StableHlo.after hostOps4 (W12 m ρ c))) (Proc.devRef .tc main_arg13) = _
  after_results_simp

theorem W15_W12_arg14 (c : Dev nD) : W15 m ρ c (Proc.devRef .tc main_arg14) = W12 m ρ c (Proc.devRef .tc main_arg14) := by
  show StableHlo.after hostOps4_2 (StableHlo.after hostOps4_1 (StableHlo.after hostOps4 (W12 m ρ c))) (Proc.devRef .tc main_arg14) = _
  after_results_simp

theorem W15_W12_arg16 (c : Dev nD) : W15 m ρ c (Proc.devRef .tc main_arg16) = W12 m ρ c (Proc.devRef .tc main_arg16) := by
  show StableHlo.after hostOps4_2 (StableHlo.after hostOps4_1 (StableHlo.after hostOps4 (W12 m ρ c))) (Proc.devRef .tc main_arg16) = _
  after_results_simp

theorem W15_W12_arg17 (c : Dev nD) : W15 m ρ c (Proc.devRef .tc main_arg17) = W12 m ρ c (Proc.devRef .tc main_arg17) := by
  show StableHlo.after hostOps4_2 (StableHlo.after hostOps4_1 (StableHlo.after hostOps4 (W12 m ρ c))) (Proc.devRef .tc main_arg17) = _
  after_results_simp

theorem W15_W12_arg18 (c : Dev nD) : W15 m ρ c (Proc.devRef .tc main_arg18) = W12 m ρ c (Proc.devRef .tc main_arg18) := by
  show StableHlo.after hostOps4_2 (StableHlo.after hostOps4_1 (StableHlo.after hostOps4 (W12 m ρ c))) (Proc.devRef .tc main_arg18) = _
  after_results_simp

/-- The column means of the hidden layer. -/
theorem W15_v44 (c : Dev nD) : W15 m ρ c (Proc.devRef .tc main_v44) = Cert.Spec.mean32 (F := Ideal) (W12 m ρ c (Proc.devRef .tc main_v41)) := by
  show StableHlo.after hostOps4_2 (StableHlo.after hostOps4_1 (StableHlo.after hostOps4 (W12 m ρ c))) (Proc.devRef .tc main_v44) = _
  after_results_simp
  rfl

/-- The reciprocal standard deviations of the hidden layer's columns. -/
theorem W15_v48 (c : Dev nD) : W15 m ρ c (Proc.devRef .tc main_v48)
    = Cert.Spec.invstd32 (F := Ideal) (Cert.Spec.var32 (F := Ideal) (W12 m ρ c (Proc.devRef .tc main_v41))) := by
  show StableHlo.after hostOps4_2 (StableHlo.after hostOps4_1 (StableHlo.after hostOps4 (W12 m ρ c))) (Proc.devRef .tc main_v48) = _
  after_results_simp
  rfl

theorem W12_W11_v40 (c : Dev nD) : W12 m ρ c (Proc.devRef .tc main_v40) = W11 m ρ c (Proc.devRef .tc main_v40) :=
  W12_of_ne m ρ c main_v40 (by decide)

theorem W12_W11_arg13 (c : Dev nD) : W12 m ρ c (Proc.devRef .tc main_arg13) = W11 m ρ c (Proc.devRef .tc main_arg13) :=
  W12_of_ne m ρ c main_arg13 (by decide)

theorem W12_W11_arg14 (c : Dev nD) : W12 m ρ c (Proc.devRef .tc main_arg14) = W11 m ρ c (Proc.devRef .tc main_arg14) :=
  W12_of_ne m ρ c main_arg14 (by decide)

theorem W12_W11_arg16 (c : Dev nD) : W12 m ρ c (Proc.devRef .tc main_arg16) = W11 m ρ c (Proc.devRef .tc main_arg16) :=
  W12_of_ne m ρ c main_arg16 (by decide)

theorem W12_W11_arg17 (c : Dev nD) : W12 m ρ c (Proc.devRef .tc main_arg17) = W11 m ρ c (Proc.devRef .tc main_arg17) :=
  W12_of_ne m ρ c main_arg17 (by decide)

theorem W12_W11_arg18 (c : Dev nD) : W12 m ρ c (Proc.devRef .tc main_arg18) = W11 m ρ c (Proc.devRef .tc main_arg18) :=
  W12_of_ne m ρ c main_arg18 (by decide)

/-! ## Launch 4 -/

/-- Launch 4 leaves the second linear map's output of layer two. -/
theorem W16_v49 (c : Dev nD) : W16 m ρ c (Proc.devRef .tc main_v49)
    = Cert.Spec.second (F := Ideal) (W12 m ρ c (Proc.devRef .tc main_v41)) (W10 m ρ c (Proc.devRef .tc main_arg13)) (W10 m ρ c (Proc.devRef .tc main_arg14))
        (W10 m ρ c (Proc.devRef .tc main_arg15)) (W10 m ρ c (Proc.devRef .tc main_arg16)) :=
  (W16_arr m ρ c 7).trans ((Cert.KernelIdeal.Region4.value (V15 m ρ) c).trans
    (bnlin2_congr (W15_W12_v41 m ρ c) (W15_v44 m ρ c) (W15_v48 m ρ c)
      ((W15_W12_arg13 m ρ c).trans ((W12_W11_arg13 m ρ c).trans (W11_arg13 m ρ c)))
      ((W15_W12_arg14 m ρ c).trans ((W12_W11_arg14 m ρ c).trans (W11_arg14 m ρ c)))
      ((W15_W12_v40 m ρ c).trans ((W12_W11_v40 m ρ c).trans (W11_v40 m ρ c)))
      ((W15_W12_arg16 m ρ c).trans ((W12_W11_arg16 m ρ c).trans (W11_arg16 m ρ c)))))
/-! ## The entry of launch 5: the batch statistics of the second linear map's output -/

theorem W19_W16_v49 (c : Dev nD) : W19 m ρ c (Proc.devRef .tc main_v49) = W16 m ρ c (Proc.devRef .tc main_v49) := by
  show StableHlo.after hostOps5_2 (StableHlo.after hostOps5_1 (StableHlo.after hostOps5 (W16 m ρ c))) (Proc.devRef .tc main_v49) = _
  after_results_simp

theorem W19_W16_arg17 (c : Dev nD) : W19 m ρ c (Proc.devRef .tc main_arg17) = W16 m ρ c (Proc.devRef .tc main_arg17) := by
  show StableHlo.after hostOps5_2 (StableHlo.after hostOps5_1 (StableHlo.after hostOps5 (W16 m ρ c))) (Proc.devRef .tc main_arg17) = _
  after_results_simp

theorem W19_W16_arg18 (c : Dev nD) : W19 m ρ c (Proc.devRef .tc main_arg18) = W16 m ρ c (Proc.devRef .tc main_arg18) := by
  show StableHlo.after hostOps5_2 (StableHlo.after hostOps5_1 (StableHlo.after hostOps5 (W16 m ρ c))) (Proc.devRef .tc main_arg18) = _
  after_results_simp

/-- The column means of the second linear map's output. -/
theorem W19_v52 (c : Dev nD) : W19 m ρ c (Proc.devRef .tc main_v52) = Cert.Spec.mean128 (F := Ideal) (W16 m ρ c (Proc.devRef .tc main_v49)) := by
  show StableHlo.after hostOps5_2 (StableHlo.after hostOps5_1 (StableHlo.after hostOps5 (W16 m ρ c))) (Proc.devRef .tc main_v52) = _
  after_results_simp
  rfl

/-- The reciprocal standard deviations of its columns. -/
theorem W19_v56 (c : Dev nD) : W19 m ρ c (Proc.devRef .tc main_v56)
    = Cert.Spec.invstd128 (F := Ideal) (Cert.Spec.var128 (F := Ideal) (W16 m ρ c (Proc.devRef .tc main_v49))) := by
  show StableHlo.after hostOps5_2 (StableHlo.after hostOps5_1 (StableHlo.after hostOps5 (W16 m ρ c))) (Proc.devRef .tc main_v56) = _
  after_results_simp
  rfl

theorem W16_W15_arg17 (c : Dev nD) : W16 m ρ c (Proc.devRef .tc main_arg17) = W15 m ρ c (Proc.devRef .tc main_arg17) :=
  W16_of_ne m ρ c main_arg17 (by decide)

theorem W16_W15_arg18 (c : Dev nD) : W16 m ρ c (Proc.devRef .tc main_arg18) = W15 m ρ c (Proc.devRef .tc main_arg18) :=
  W16_of_ne m ρ c main_arg18 (by decide)

/-! ## Launch 5 -/

/-- Launch 5 leaves layer two's output. -/
theorem W20_v57 (c : Dev nD) : W20 m ρ c (Proc.devRef .tc main_v57)
    = Cert.Spec.third (F := Ideal) (W16 m ρ c (Proc.devRef .tc main_v49)) (W10 m ρ c (Proc.devRef .tc main_arg17)) (W10 m ρ c (Proc.devRef .tc main_arg18)) :=
  (W20_arr m ρ c 5).trans ((Cert.KernelIdeal.Region5.value (V19 m ρ) c).trans
    (bnleaky_congr (W19_W16_v49 m ρ c) (W19_v52 m ρ c) (W19_v56 m ρ c)
      ((W19_W16_arg17 m ρ c).trans ((W16_W15_arg17 m ρ c).trans ((W15_W12_arg17 m ρ c).trans ((W12_W11_arg17 m ρ c).trans (W11_arg17 m ρ c)))))
      ((W19_W16_arg18 m ρ c).trans ((W16_W15_arg18 m ρ c).trans ((W15_W12_arg18 m ρ c).trans ((W12_W11_arg18 m ρ c).trans (W11_arg18 m ρ c)))))))

/-! ## Layer two -/

/-- The result buffer holds one graph layer applied to what layer one left. -/
theorem out (c : Dev nD) :
    W20 m ρ c (Proc.devRef .tc main_v57)
      = Cert.Spec.layer (F := Ideal) (W10 m ρ c (Proc.devRef .tc main_v28)) (W10 m ρ c (Proc.devRef .tc main_arg1)) (W10 m ρ c (Proc.devRef .tc main_arg2))
          (W10 m ρ c (Proc.devRef .tc main_arg11)) (W10 m ρ c (Proc.devRef .tc main_arg12)) (W10 m ρ c (Proc.devRef .tc main_arg13)) (W10 m ρ c (Proc.devRef .tc main_arg14))
          (W10 m ρ c (Proc.devRef .tc main_arg15)) (W10 m ρ c (Proc.devRef .tc main_arg16)) (W10 m ρ c (Proc.devRef .tc main_arg17)) (W10 m ρ c (Proc.devRef .tc main_arg18)) :=
  (W20_v57 m ρ c).trans
    ((congrArg (fun h2 => Cert.Spec.third (F := Ideal) h2 (W10 m ρ c (Proc.devRef .tc main_arg17)) (W10 m ρ c (Proc.devRef .tc main_arg18))) (W16_v49 m ρ c)).trans
      (congrArg (fun h1 => Cert.Spec.third (F := Ideal)
          (Cert.Spec.second (F := Ideal) h1 (W10 m ρ c (Proc.devRef .tc main_arg13)) (W10 m ρ c (Proc.devRef .tc main_arg14)) (W10 m ρ c (Proc.devRef .tc main_arg15)) (W10 m ρ c (Proc.devRef .tc main_arg16)))
          (W10 m ρ c (Proc.devRef .tc main_arg17)) (W10 m ρ c (Proc.devRef .tc main_arg18))) (W12_v41 m ρ c)))

end Cert.KernelIdeal.Chain2

end
-- ==== Proof.Chain.lean ====
/-
  The kernel program's result as a function of its arguments.  Layer one leaves one graph layer of the arguments in
  its output buffer and the remaining arguments untouched; layer two applies the same three launches and host
  stretches to that buffer and those arguments.  Two layers composed are the network.
-/
import proofs.«134813_j35914516529300_1_alg».proof.Proof.Chain1
import proofs.«134813_j35914516529300_1_alg».proof.Proof.Chain2

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- At the last boundary the result buffer holds the network of the launch contents of the nineteen arguments. -/
theorem result : W20 m ρ c (Proc.devRef .tc main_v57)
    = Cert.Spec.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [Chain2.out m ρ c, Chain1.out m ρ c,
    Chain1.kept m ρ c main_arg1 (Or.inl rfl) (Or.inl rfl) (Or.inl rfl),
    Chain1.kept m ρ c main_arg2 (Or.inr (Or.inl rfl)) (Or.inr (Or.inl rfl)) (Or.inr (Or.inl rfl)),
    Chain1.kept m ρ c main_arg11 (Or.inr (Or.inr (Or.inl rfl))) (Or.inr (Or.inr (Or.inr (Or.inr (Or.inr (Or.inr (Or.inr (Or.inl rfl)))))))) (Or.inr (Or.inr (Or.inr (Or.inr (Or.inl rfl))))),
    Chain1.kept m ρ c main_arg12 (Or.inr (Or.inr (Or.inr (Or.inl rfl)))) (Or.inr (Or.inr (Or.inr (Or.inr (Or.inr (Or.inr (Or.inr (Or.inr (Or.inl rfl))))))))) (Or.inr (Or.inr (Or.inr (Or.inr (Or.inr (Or.inl rfl)))))),
    Chain1.kept m ρ c main_arg13 (Or.inr (Or.inr (Or.inr (Or.inr (Or.inl rfl))))) (Or.inr (Or.inr (Or.inr (Or.inr (Or.inr (Or.inr (Or.inr (Or.inr (Or.inr (Or.inl rfl)))))))))) (Or.inr (Or.inr (Or.inr (Or.inr (Or.inr (Or.inr (Or.inl rfl))))))),
    Chain1.kept m ρ c main_arg14 (Or.inr (Or.inr (Or.inr (Or.inr (Or.inr (Or.inl rfl)))))) (Or.inr (Or.inr (Or.inr (Or.inr (Or.inr (Or.inr (Or.inr (Or.inr (Or.inr (Or.inr (Or.inl rfl))))))))))) (Or.inr (Or.inr (Or.inr (Or.inr (Or.inr (Or.inr (Or.inr (Or.inl rfl)))))))),
    Chain1.kept m ρ c main_arg15 (Or.inr (Or.inr (Or.inr (Or.inr (Or.inr (Or.inr (Or.inl rfl))))))) (Or.inr (Or.inr (Or.inr (Or.inr (Or.inr (Or.inr (Or.inr (Or.inr (Or.inr (Or.inr (Or.inr (Or.inl rfl)))))))))))) (Or.inr (Or.inr (Or.inr (Or.inr (Or.inr (Or.inr (Or.inr (Or.inr (Or.inl rfl))))))))),
    Chain1.kept m ρ c main_arg16 (Or.inr (Or.inr (Or.inr (Or.inr (Or.inr (Or.inr (Or.inr (Or.inl rfl)))))))) (Or.inr (Or.inr (Or.inr (Or.inr (Or.inr (Or.inr (Or.inr (Or.inr (Or.inr (Or.inr (Or.inr (Or.inr (Or.inl rfl))))))))))))) (Or.inr (Or.inr (Or.inr (Or.inr (Or.inr (Or.inr (Or.inr (Or.inr (Or.inr (Or.inl rfl)))))))))),
    Chain1.kept m ρ c main_arg17 (Or.inr (Or.inr (Or.inr (Or.inr (Or.inr (Or.inr (Or.inr (Or.inr (Or.inl rfl))))))))) (Or.inr (Or.inr (Or.inr (Or.inr (Or.inr (Or.inr (Or.inr (Or.inr (Or.inr (Or.inr (Or.inr (Or.inr (Or.inr (Or.inl rfl)))))))))))))) (Or.inr (Or.inr (Or.inr (Or.inr (Or.inr (Or.inr (Or.inr (Or.inr (Or.inr (Or.inr (Or.inl rfl))))))))))),
    Chain1.kept m ρ c main_arg18 (Or.inr (Or.inr (Or.inr (Or.inr (Or.inr (Or.inr (Or.inr (Or.inr (Or.inr rfl))))))))) (Or.inr (Or.inr (Or.inr (Or.inr (Or.inr (Or.inr (Or.inr (Or.inr (Or.inr (Or.inr (Or.inr (Or.inr (Or.inr (Or.inr rfl)))))))))))))) (Or.inr (Or.inr (Or.inr (Or.inr (Or.inr (Or.inr (Or.inr (Or.inr (Or.inr (Or.inr (Or.inr rfl)))))))))))]
  rfl

end Cert.KernelIdeal.Chain

end
-- ==== Proof.RefOps.lean ====
/-
  The reference program's @main as a list of its host operations, each call of an outlined function
  (the variance `_var` / `_var_0`, which calls `_where` / `_where_1`; the elementwise choice `_where_2`)
  unfolded at its call site over that call's own buffers, and the run of that list: every weakly fair
  execution terminates with each buffer at the fold of the operations over the launch contents.
  The list is also given cut into six consecutive stretches, one per stage of the network
  (per layer: the hidden layer; the second linear map's output; the layer's output), so that each
  stage can be read back on its own.
-/
import proofs.«134813_j35914516529300_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 1 of 6, 21 operations: the aggregation (index wrap, gather, accumulating scatter), the first linear map and the rectifier of layer one: the buffers up to `main_v16`. -/
abbrev s1 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v7 (broadcastInDim S100000x128 ![] bcast_S_S100000x128 : (⟨S_, .f32⟩ : BufTy).Contents (Elt F) → (⟨S100000x128, .f32⟩ : BufTy).Contents (Elt F)),
    StableHlo.unary main_arg2 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v9 main_v10 (addf : (⟨S100000x128, .f32⟩ : BufTy).Contents (Elt F) → (⟨S100000x128, .f32⟩ : BufTy).Contents (Elt F) → (⟨S100000x128, .f32⟩ : BufTy).Contents (Elt F)),
    StableHlo.binary main_v10 main_arg3 main_v11 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg4 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S100000x32 ![0, 1] bcast_S1x32_S100000x32_0_1 : (⟨S1x32, .f32⟩ : BufTy).Contents (Elt F) → (⟨S100000x32, .f32⟩ : BufTy).Contents (Elt F)),
    StableHlo.binary main_v11 main_v13 main_v14 (addf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x00000000#32),
    StableHlo.unary main_cst_1 main_v15 (broadcastInDim S100000x32 ![] bcast_S_S100000x32 : (⟨S_, .f32⟩ : BufTy).Contents (Elt F) → (⟨S100000x32, .f32⟩ : BufTy).Contents (Elt F)),
    StableHlo.binary main_v14 main_v15 main_v16 (maximumf : (⟨S100000x32, .f32⟩ : BufTy).Contents (Elt F) → (⟨S100000x32, .f32⟩ : BufTy).Contents (Elt F) → (⟨S100000x32, .f32⟩ : BufTy).Contents (Elt F)) ]

/-- Stretch 2 of 6, 48 operations: the column means, the variance (the outlined function over record `main_call0`), the normalisation and the second linear map of layer one: up to `main_v39`. -/
abbrev s2 : List (HloOp τ sig (Elt F)) :=
  [ StableHlo.nullary main_cst_2 (constant S_ .f32 0x00000000#32),
    StableHlo.binary main_v16 main_cst_2 main_v17 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_3 (constant S_ .f32 0x47C35000#32),
    StableHlo.unary main_cst_3 main_v18 (broadcastInDim S32 ![] bcast_S_S32 : (⟨S_, .f32⟩ : BufTy).Contents (Elt F) → (⟨S32, .f32⟩ : BufTy).Contents (Elt F)),
    StableHlo.binary main_v17 main_v18 main_v19 (Host.divf : (⟨S32, .f32⟩ : BufTy).Contents (Elt F) → (⟨S32, .f32⟩ : BufTy).Contents (Elt F) → (⟨S32, .f32⟩ : BufTy).Contents (Elt F)),
    StableHlo.nullary main_c_4 (constantI S_ 32 0#32),
    StableHlo.TRef.nullary main_call0.cst (constant S_ .f32 0x00000000#32),
    StableHlo.TRef.binary (.of main_v16 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v16 : StableHlo.TRef sig ⟨S100000x32, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v19 main_v21 (broadcastInDim S1x32 ![1] bcast_S32_S1x32_1 : (⟨S32, .f32⟩ : BufTy).Contents (Elt F) → (⟨S1x32, .f32⟩ : BufTy).Contents (Elt F)),
    StableHlo.unary main_v21 main_v22 (broadcastInDim S100000x32 ![0, 1] bcast_S1x32_S100000x32_0_1 : (⟨S1x32, .f32⟩ : BufTy).Contents (Elt F) → (⟨S100000x32, .f32⟩ : BufTy).Contents (Elt F)),
    StableHlo.binary main_v16 main_v22 main_v23 (subf : (⟨S100000x32, .f32⟩ : BufTy).Contents (Elt F) → (⟨S100000x32, .f32⟩ : BufTy).Contents (Elt F) → (⟨S100000x32, .f32⟩ : BufTy).Contents (Elt F)),
    StableHlo.nullary main_cst_5 (constant S_ .f32 0x3727C5AC#32),
    StableHlo.unary main_cst_5 main_v24 (broadcastInDim S32 ![] bcast_S_S32 : (⟨S_, .f32⟩ : BufTy).Contents (Elt F) → (⟨S32, .f32⟩ : BufTy).Contents (Elt F)),
    StableHlo.binary main_v20 main_v24 main_v25 (addf : (⟨S32, .f32⟩ : BufTy).Contents (Elt F) → (⟨S32, .f32⟩ : BufTy).Contents (Elt F) → (⟨S32, .f32⟩ : BufTy).Contents (Elt F)),
    StableHlo.unary main_v25 main_v26 (Host.rsqrt : (⟨S32, .f32⟩ : BufTy).Contents (Elt F) → (⟨S32, .f32⟩ : BufTy).Contents (Elt F)),
    StableHlo.unary main_v26 main_v27 (broadcastInDim S1x32 ![1] bcast_S32_S1x32_1 : (⟨S32, .f32⟩ : BufTy).Contents (Elt F) → (⟨S1x32, .f32⟩ : BufTy).Contents (Elt F)),
    StableHlo.unary main_v27 main_v28 (broadcastInDim S100000x32 ![0, 1] bcast_S1x32_S100000x32_0_1 : (⟨S1x32, .f32⟩ : BufTy).Contents (Elt F) → (⟨S100000x32, .f32⟩ : BufTy).Contents (Elt F)),
    StableHlo.binary main_v23 main_v28 main_v29 (mulf : (⟨S100000x32, .f32⟩ : BufTy).Contents (Elt F) → (⟨S100000x32, .f32⟩ : BufTy).Contents (Elt F) → (⟨S100000x32, .f32⟩ : BufTy).Contents (Elt F)),
    StableHlo.unary main_arg5 main_v30 (broadcastInDim S1x32 ![1] bcast_S32_S1x32_1 : (⟨S32, .f32⟩ : BufTy).Contents (Elt F) → (⟨S1x32, .f32⟩ : BufTy).Contents (Elt F)),
    StableHlo.unary main_v30 main_v31 (broadcastInDim S100000x32 ![0, 1] bcast_S1x32_S100000x32_0_1 : (⟨S1x32, .f32⟩ : BufTy).Contents (Elt F) → (⟨S100000x32, .f32⟩ : BufTy).Contents (Elt F)),
    StableHlo.binary main_v29 main_v31 main_v32 (mulf : (⟨S100000x32, .f32⟩ : BufTy).Contents (Elt F) → (⟨S100000x32, .f32⟩ : BufTy).Contents (Elt F) → (⟨S100000x32, .f32⟩ : BufTy).Contents (Elt F)),
    StableHlo.unary main_arg6 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S100000x32 ![0, 1] bcast_S1x32_S100000x32_0_1 : (⟨S1x32, .f32⟩ : BufTy).Contents (Elt F) → (⟨S100000x32, .f32⟩ : BufTy).Contents (Elt F)),
    StableHlo.binary main_v32 main_v34 main_v35 (addf : (⟨S100000x32, .f32⟩ : BufTy).Contents (Elt F) → (⟨S100000x32, .f32⟩ : BufTy).Contents (Elt F) → (⟨S100000x32, .f32⟩ : BufTy).Contents (Elt F)),
    StableHlo.binary main_v35 main_arg7 main_v36 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)) ]

/-- Stretch 3 of 6, 51 operations: the column means, the variance (record `main_call1`), the normalisation and the leaky rectifier (record `main_call2`) of layer one: up to `main_v63`. -/
abbrev s3 : List (HloOp τ sig (Elt F)) :=
  [ StableHlo.nullary main_cst_6 (constant S_ .f32 0x00000000#32),
    StableHlo.binary main_v39 main_cst_6 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_7 (constant S_ .f32 0x47C35000#32),
    StableHlo.unary main_cst_7 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call1.cst (constant S_ .f32 0x00000000#32),
    StableHlo.TRef.binary (.of main_v39 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v39 : StableHlo.TRef sig ⟨S100000x128, .f32⟩) main_call1.v4 main_call1.v5 subf,
    StableHlo.TRef.binary main_call1.v5 main_call1.v5 main_call1.v6 mulf,
    StableHlo.TRef.unary (.of main_c_8 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v45 main_v46 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg9 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg10 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.unary main_cst_10 main_v59 (broadcastInDim S100000x128 ![] bcast_S_S100000x128 : (⟨S_, .f32⟩ : BufTy).Contents (Elt F) → (⟨S100000x128, .f32⟩ : BufTy).Contents (Elt F)),
    StableHlo.binary main_v58 main_v59 main_v60 (cmpf .ogt : (⟨S100000x128, .f32⟩ : BufTy).Contents (Elt F) → (⟨S100000x128, .f32⟩ : BufTy).Contents (Elt F) → (⟨S100000x128, .i1⟩ : BufTy).Contents (Elt F)),
    StableHlo.nullary main_cst_11 (constant S_ .f32 0x3C23D70A#32),
    StableHlo.unary main_cst_11 main_v61 (broadcastInDim S100000x128 ![] bcast_S_S100000x128 : (⟨S_, .f32⟩ : BufTy).Contents (Elt F) → (⟨S100000x128, .f32⟩ : BufTy).Contents (Elt F)),
    StableHlo.binary main_v61 main_v58 main_v62 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v60 : StableHlo.TRef sig ⟨S100000x128, .i1⟩) (.of main_v58 : StableHlo.TRef sig ⟨S100000x128, .f32⟩) (.of main_v62 : StableHlo.TRef sig ⟨S100000x128, .f32⟩) main_call2.v0 select ]

/-- Stretch 4 of 6, 21 operations: the aggregation, the first linear map and the rectifier of layer two: up to `main_v80`. -/
abbrev s4 : List (HloOp τ sig (Elt F)) :=
  [ StableHlo.nullary main_c_12 (constantI S_ 32 0#32),
    StableHlo.unary main_c_12 main_v64 (broadcastInDim S1600000 ![] bcast_S_S1600000 : (⟨S_, .i32⟩ : BufTy).Contents (Elt F) → (⟨S1600000, .i32⟩ : BufTy).Contents (Elt F)),
    StableHlo.binary main_arg1 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v66 (broadcastInDim S1600000 ![] bcast_S_S1600000 : (⟨S_, .i32⟩ : BufTy).Contents (Elt F) → (⟨S1600000, .i32⟩ : BufTy).Contents (Elt F)),
    StableHlo.binary main_arg1 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_arg1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v71 (broadcastInDim S100000x128 ![] bcast_S_S100000x128 : (⟨S_, .f32⟩ : BufTy).Contents (Elt F) → (⟨S100000x128, .f32⟩ : BufTy).Contents (Elt F)),
    StableHlo.unary main_arg2 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v63 main_v73 main_v74 (addf : (⟨S100000x128, .f32⟩ : BufTy).Contents (Elt F) → (⟨S100000x128, .f32⟩ : BufTy).Contents (Elt F) → (⟨S100000x128, .f32⟩ : BufTy).Contents (Elt F)),
    StableHlo.binary main_v74 main_arg11 main_v75 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg12 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v77 main_v78 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x00000000#32),
    StableHlo.unary main_cst_15 main_v79 (broadcastInDim S100000x32 ![] bcast_S_S100000x32 : (⟨S_, .f32⟩ : BufTy).Contents (Elt F) → (⟨S100000x32, .f32⟩ : BufTy).Contents (Elt F)),
    StableHlo.binary main_v78 main_v79 main_v80 (maximumf : (⟨S100000x32, .f32⟩ : BufTy).Contents (Elt F) → (⟨S100000x32, .f32⟩ : BufTy).Contents (Elt F) → (⟨S100000x32, .f32⟩ : BufTy).Contents (Elt F)) ]

/-- Stretch 5 of 6, 48 operations: the column means, the variance (record `main_call3`), the normalisation and the second linear map of layer two: up to `main_v103`. -/
abbrev s5 : List (HloOp τ sig (Elt F)) :=
  [ StableHlo.nullary main_cst_16 (constant S_ .f32 0x00000000#32),
    StableHlo.binary main_v80 main_cst_16 main_v81 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_17 (constant S_ .f32 0x47C35000#32),
    StableHlo.unary main_cst_17 main_v82 (broadcastInDim S32 ![] bcast_S_S32 : (⟨S_, .f32⟩ : BufTy).Contents (Elt F) → (⟨S32, .f32⟩ : BufTy).Contents (Elt F)),
    StableHlo.binary main_v81 main_v82 main_v83 (Host.divf : (⟨S32, .f32⟩ : BufTy).Contents (Elt F) → (⟨S32, .f32⟩ : BufTy).Contents (Elt F) → (⟨S32, .f32⟩ : BufTy).Contents (Elt F)),
    StableHlo.nullary main_c_18 (constantI S_ 32 0#32),
    StableHlo.TRef.nullary main_call3.cst (constant S_ .f32 0x00000000#32),
    StableHlo.TRef.binary (.of main_v80 : StableHlo.TRef sig ⟨S100000x32, .f32⟩) main_call3.cst main_call3.v0 (fun x v => Host.reduceAdd x v reducesTo_S100000x32_S32_d0 h_S_),
    StableHlo.TRef.unary main_call3.v0 main_call3.v1 (broadcastInDim S1x32 ![1] bcast_S32_S1x32_1),
    StableHlo.TRef.nullary main_call3.cst_0 (constant S_ .f32 0x47C35000#32),
    StableHlo.TRef.unary main_call3.cst_0 main_call3.v2 (broadcastInDim S1x32 ![] bcast_S_S1x32),
    StableHlo.TRef.binary main_call3.v1 main_call3.v2 main_call3.v3 Host.divf,
    StableHlo.TRef.unary main_call3.v3 main_call3.v4 (broadcastInDim S100000x32 ![0, 1] bcast_S1x32_S100000x32_0_1),
    StableHlo.TRef.binary (.of main_v80 : StableHlo.TRef sig ⟨S100000x32, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x32_S32_d0 h_S_),
    StableHlo.TRef.unary main_call3.v8 main_call3.v10 (broadcastInDim S32 ![] bcast_S_S32),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S32 ![] bcast_S_S32),
    StableHlo.TRef.ternary main_call3.v12 main_call3.v11 main_call3.call0.v1 main_call3.call0.v2 (fun p a b => select (broadcastInDim S32 ![] bcast_S_S32 p) a b),
    StableHlo.unary main_v83 main_v85 (broadcastInDim S1x32 ![1] bcast_S32_S1x32_1 : (⟨S32, .f32⟩ : BufTy).Contents (Elt F) → (⟨S1x32, .f32⟩ : BufTy).Contents (Elt F)),
    StableHlo.unary main_v85 main_v86 (broadcastInDim S100000x32 ![0, 1] bcast_S1x32_S100000x32_0_1 : (⟨S1x32, .f32⟩ : BufTy).Contents (Elt F) → (⟨S100000x32, .f32⟩ : BufTy).Contents (Elt F)),
    StableHlo.binary main_v80 main_v86 main_v87 (subf : (⟨S100000x32, .f32⟩ : BufTy).Contents (Elt F) → (⟨S100000x32, .f32⟩ : BufTy).Contents (Elt F) → (⟨S100000x32, .f32⟩ : BufTy).Contents (Elt F)),
    StableHlo.nullary main_cst_19 (constant S_ .f32 0x3727C5AC#32),
    StableHlo.unary main_cst_19 main_v88 (broadcastInDim S32 ![] bcast_S_S32 : (⟨S_, .f32⟩ : BufTy).Contents (Elt F) → (⟨S32, .f32⟩ : BufTy).Contents (Elt F)),
    StableHlo.binary main_v84 main_v88 main_v89 (addf : (⟨S32, .f32⟩ : BufTy).Contents (Elt F) → (⟨S32, .f32⟩ : BufTy).Contents (Elt F) → (⟨S32, .f32⟩ : BufTy).Contents (Elt F)),
    StableHlo.unary main_v89 main_v90 (Host.rsqrt : (⟨S32, .f32⟩ : BufTy).Contents (Elt F) → (⟨S32, .f32⟩ : BufTy).Contents (Elt F)),
    StableHlo.unary main_v90 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S100000x32 ![0, 1] bcast_S1x32_S100000x32_0_1 : (⟨S1x32, .f32⟩ : BufTy).Contents (Elt F) → (⟨S100000x32, .f32⟩ : BufTy).Contents (Elt F)),
    StableHlo.binary main_v87 main_v92 main_v93 (mulf : (⟨S100000x32, .f32⟩ : BufTy).Contents (Elt F) → (⟨S100000x32, .f32⟩ : BufTy).Contents (Elt F) → (⟨S100000x32, .f32⟩ : BufTy).Contents (Elt F)),
    StableHlo.unary main_arg13 main_v94 (broadcastInDim S1x32 ![1] bcast_S32_S1x32_1 : (⟨S32, .f32⟩ : BufTy).Contents (Elt F) → (⟨S1x32, .f32⟩ : BufTy).Contents (Elt F)),
    StableHlo.unary main_v94 main_v95 (broadcastInDim S100000x32 ![0, 1] bcast_S1x32_S100000x32_0_1 : (⟨S1x32, .f32⟩ : BufTy).Contents (Elt F) → (⟨S100000x32, .f32⟩ : BufTy).Contents (Elt F)),
    StableHlo.binary main_v93 main_v95 main_v96 (mulf : (⟨S100000x32, .f32⟩ : BufTy).Contents (Elt F) → (⟨S100000x32, .f32⟩ : BufTy).Contents (Elt F) → (⟨S100000x32, .f32⟩ : BufTy).Contents (Elt F)),
    StableHlo.unary main_arg14 main_v97 (broadcastInDim S1x32 ![1] bcast_S32_S1x32_1 : (⟨S32, .f32⟩ : BufTy).Contents (Elt F) → (⟨S1x32, .f32⟩ : BufTy).Contents (Elt F)),
    StableHlo.unary main_v97 main_v98 (broadcastInDim S100000x32 ![0, 1] bcast_S1x32_S100000x32_0_1 : (⟨S1x32, .f32⟩ : BufTy).Contents (Elt F) → (⟨S100000x32, .f32⟩ : BufTy).Contents (Elt F)),
    StableHlo.binary main_v96 main_v98 main_v99 (addf : (⟨S100000x32, .f32⟩ : BufTy).Contents (Elt F) → (⟨S100000x32, .f32⟩ : BufTy).Contents (Elt F) → (⟨S100000x32, .f32⟩ : BufTy).Contents (Elt F)),
    StableHlo.binary main_v99 main_arg15 main_v100 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg16 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)) ]

/-- Stretch 6 of 6, 51 operations: the column means, the variance (record `main_call4`), the normalisation and the leaky rectifier (record `main_call5`) of layer two: up to `main_v127`. -/
abbrev s6 : List (HloOp τ sig (Elt F)) :=
  [ StableHlo.nullary main_cst_20 (constant S_ .f32 0x00000000#32),
    StableHlo.binary main_v103 main_cst_20 main_v104 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v105 (broadcastInDim S128 ![] bcast_S_S128 : (⟨S_, .f32⟩ : BufTy).Contents (Elt F) → (⟨S128, .f32⟩ : BufTy).Contents (Elt F)),
    StableHlo.binary main_v104 main_v105 main_v106 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call4.cst (constant S_ .f32 0x00000000#32),
    StableHlo.TRef.binary (.of main_v103 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v103 : StableHlo.TRef sig ⟨S100000x128, .f32⟩) main_call4.v4 main_call4.v5 subf,
    StableHlo.TRef.binary main_call4.v5 main_call4.v5 main_call4.v6 mulf,
    StableHlo.TRef.unary (.of main_c_22 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v106 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v109 main_v110 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v111 (broadcastInDim S128 ![] bcast_S_S128 : (⟨S_, .f32⟩ : BufTy).Contents (Elt F) → (⟨S128, .f32⟩ : BufTy).Contents (Elt F)),
    StableHlo.binary main_v107 main_v111 main_v112 (addf : (⟨S128, .f32⟩ : BufTy).Contents (Elt F) → (⟨S128, .f32⟩ : BufTy).Contents (Elt F) → (⟨S128, .f32⟩ : BufTy).Contents (Elt F)),
    StableHlo.unary main_v112 main_v113 (Host.rsqrt : (⟨S128, .f32⟩ : BufTy).Contents (Elt F) → (⟨S128, .f32⟩ : BufTy).Contents (Elt F)),
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v115 main_v116 (mulf : (⟨S100000x128, .f32⟩ : BufTy).Contents (Elt F) → (⟨S100000x128, .f32⟩ : BufTy).Contents (Elt F) → (⟨S100000x128, .f32⟩ : BufTy).Contents (Elt F)),
    StableHlo.unary main_arg17 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v118 main_v119 (mulf : (⟨S100000x128, .f32⟩ : BufTy).Contents (Elt F) → (⟨S100000x128, .f32⟩ : BufTy).Contents (Elt F) → (⟨S100000x128, .f32⟩ : BufTy).Contents (Elt F)),
    StableHlo.unary main_arg18 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.unary main_cst_24 main_v123 (broadcastInDim S100000x128 ![] bcast_S_S100000x128 : (⟨S_, .f32⟩ : BufTy).Contents (Elt F) → (⟨S100000x128, .f32⟩ : BufTy).Contents (Elt F)),
    StableHlo.binary main_v122 main_v123 main_v124 (cmpf .ogt : (⟨S100000x128, .f32⟩ : BufTy).Contents (Elt F) → (⟨S100000x128, .f32⟩ : BufTy).Contents (Elt F) → (⟨S100000x128, .i1⟩ : BufTy).Contents (Elt F)),
    StableHlo.nullary main_cst_25 (constant S_ .f32 0x3C23D70A#32),
    StableHlo.unary main_cst_25 main_v125 (broadcastInDim S100000x128 ![] bcast_S_S100000x128 : (⟨S_, .f32⟩ : BufTy).Contents (Elt F) → (⟨S100000x128, .f32⟩ : BufTy).Contents (Elt F)),
    StableHlo.binary main_v125 main_v122 main_v126 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v124 : StableHlo.TRef sig ⟨S100000x128, .i1⟩) (.of main_v122 : StableHlo.TRef sig ⟨S100000x128, .f32⟩) (.of main_v126 : StableHlo.TRef sig ⟨S100000x128, .f32⟩) main_call5.v0 select ]

/-- @main's 240 operations in order, every call unfolded: a call of the variance function is its nineteen
    operations over the call's record followed by the three of the choice it calls (the not-a-number word converted
    to its own type, broadcast, the select); a call of the elementwise choice is its one select. -/
abbrev ops : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v7 (broadcastInDim S100000x128 ![] bcast_S_S100000x128 : (⟨S_, .f32⟩ : BufTy).Contents (Elt F) → (⟨S100000x128, .f32⟩ : BufTy).Contents (Elt F)),
    StableHlo.unary main_arg2 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v9 main_v10 (addf : (⟨S100000x128, .f32⟩ : BufTy).Contents (Elt F) → (⟨S100000x128, .f32⟩ : BufTy).Contents (Elt F) → (⟨S100000x128, .f32⟩ : BufTy).Contents (Elt F)),
    StableHlo.binary main_v10 main_arg3 main_v11 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg4 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S100000x32 ![0, 1] bcast_S1x32_S100000x32_0_1 : (⟨S1x32, .f32⟩ : BufTy).Contents (Elt F) → (⟨S100000x32, .f32⟩ : BufTy).Contents (Elt F)),
    StableHlo.binary main_v11 main_v13 main_v14 (addf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x00000000#32),
    StableHlo.unary main_cst_1 main_v15 (broadcastInDim S100000x32 ![] bcast_S_S100000x32 : (⟨S_, .f32⟩ : BufTy).Contents (Elt F) → (⟨S100000x32, .f32⟩ : BufTy).Contents (Elt F)),
    StableHlo.binary main_v14 main_v15 main_v16 (maximumf : (⟨S100000x32, .f32⟩ : BufTy).Contents (Elt F) → (⟨S100000x32, .f32⟩ : BufTy).Contents (Elt F) → (⟨S100000x32, .f32⟩ : BufTy).Contents (Elt F)),
    StableHlo.nullary main_cst_2 (constant S_ .f32 0x00000000#32),
    StableHlo.binary main_v16 main_cst_2 main_v17 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_3 (constant S_ .f32 0x47C35000#32),
    StableHlo.unary main_cst_3 main_v18 (broadcastInDim S32 ![] bcast_S_S32 : (⟨S_, .f32⟩ : BufTy).Contents (Elt F) → (⟨S32, .f32⟩ : BufTy).Contents (Elt F)),
    StableHlo.binary main_v17 main_v18 main_v19 (Host.divf : (⟨S32, .f32⟩ : BufTy).Contents (Elt F) → (⟨S32, .f32⟩ : BufTy).Contents (Elt F) → (⟨S32, .f32⟩ : BufTy).Contents (Elt F)),
    StableHlo.nullary main_c_4 (constantI S_ 32 0#32),
    StableHlo.TRef.nullary main_call0.cst (constant S_ .f32 0x00000000#32),
    StableHlo.TRef.binary (.of main_v16 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v16 : StableHlo.TRef sig ⟨S100000x32, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v19 main_v21 (broadcastInDim S1x32 ![1] bcast_S32_S1x32_1 : (⟨S32, .f32⟩ : BufTy).Contents (Elt F) → (⟨S1x32, .f32⟩ : BufTy).Contents (Elt F)),
    StableHlo.unary main_v21 main_v22 (broadcastInDim S100000x32 ![0, 1] bcast_S1x32_S100000x32_0_1 : (⟨S1x32, .f32⟩ : BufTy).Contents (Elt F) → (⟨S100000x32, .f32⟩ : BufTy).Contents (Elt F)),
    StableHlo.binary main_v16 main_v22 main_v23 (subf : (⟨S100000x32, .f32⟩ : BufTy).Contents (Elt F) → (⟨S100000x32, .f32⟩ : BufTy).Contents (Elt F) → (⟨S100000x32, .f32⟩ : BufTy).Contents (Elt F)),
    StableHlo.nullary main_cst_5 (constant S_ .f32 0x3727C5AC#32),
    StableHlo.unary main_cst_5 main_v24 (broadcastInDim S32 ![] bcast_S_S32 : (⟨S_, .f32⟩ : BufTy).Contents (Elt F) → (⟨S32, .f32⟩ : BufTy).Contents (Elt F)),
    StableHlo.binary main_v20 main_v24 main_v25 (addf : (⟨S32, .f32⟩ : BufTy).Contents (Elt F) → (⟨S32, .f32⟩ : BufTy).Contents (Elt F) → (⟨S32, .f32⟩ : BufTy).Contents (Elt F)),
    StableHlo.unary main_v25 main_v26 (Host.rsqrt : (⟨S32, .f32⟩ : BufTy).Contents (Elt F) → (⟨S32, .f32⟩ : BufTy).Contents (Elt F)),
    StableHlo.unary main_v26 main_v27 (broadcastInDim S1x32 ![1] bcast_S32_S1x32_1 : (⟨S32, .f32⟩ : BufTy).Contents (Elt F) → (⟨S1x32, .f32⟩ : BufTy).Contents (Elt F)),
    StableHlo.unary main_v27 main_v28 (broadcastInDim S100000x32 ![0, 1] bcast_S1x32_S100000x32_0_1 : (⟨S1x32, .f32⟩ : BufTy).Contents (Elt F) → (⟨S100000x32, .f32⟩ : BufTy).Contents (Elt F)),
    StableHlo.binary main_v23 main_v28 main_v29 (mulf : (⟨S100000x32, .f32⟩ : BufTy).Contents (Elt F) → (⟨S100000x32, .f32⟩ : BufTy).Contents (Elt F) → (⟨S100000x32, .f32⟩ : BufTy).Contents (Elt F)),
    StableHlo.unary main_arg5 main_v30 (broadcastInDim S1x32 ![1] bcast_S32_S1x32_1 : (⟨S32, .f32⟩ : BufTy).Contents (Elt F) → (⟨S1x32, .f32⟩ : BufTy).Contents (Elt F)),
    StableHlo.unary main_v30 main_v31 (broadcastInDim S100000x32 ![0, 1] bcast_S1x32_S100000x32_0_1 : (⟨S1x32, .f32⟩ : BufTy).Contents (Elt F) → (⟨S100000x32, .f32⟩ : BufTy).Contents (Elt F)),
    StableHlo.binary main_v29 main_v31 main_v32 (mulf : (⟨S100000x32, .f32⟩ : BufTy).Contents (Elt F) → (⟨S100000x32, .f32⟩ : BufTy).Contents (Elt F) → (⟨S100000x32, .f32⟩ : BufTy).Contents (Elt F)),
    StableHlo.unary main_arg6 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S100000x32 ![0, 1] bcast_S1x32_S100000x32_0_1 : (⟨S1x32, .f32⟩ : BufTy).Contents (Elt F) → (⟨S100000x32, .f32⟩ : BufTy).Contents (Elt F)),
    StableHlo.binary main_v32 main_v34 main_v35 (addf : (⟨S100000x32, .f32⟩ : BufTy).Contents (Elt F) → (⟨S100000x32, .f32⟩ : BufTy).Contents (Elt F) → (⟨S100000x32, .f32⟩ : BufTy).Contents (Elt F)),
    StableHlo.binary main_v35 main_arg7 main_v36 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.binary main_v39 main_cst_6 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_7 (constant S_ .f32 0x47C35000#32),
    StableHlo.unary main_cst_7 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call1.cst (constant S_ .f32 0x00000000#32),
    StableHlo.TRef.binary (.of main_v39 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v39 : StableHlo.TRef sig ⟨S100000x128, .f32⟩) main_call1.v4 main_call1.v5 subf,
    StableHlo.TRef.binary main_call1.v5 main_call1.v5 main_call1.v6 mulf,
    StableHlo.TRef.unary (.of main_c_8 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v45 main_v46 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg9 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg10 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.unary main_cst_10 main_v59 (broadcastInDim S100000x128 ![] bcast_S_S100000x128 : (⟨S_, .f32⟩ : BufTy).Contents (Elt F) → (⟨S100000x128, .f32⟩ : BufTy).Contents (Elt F)),
    StableHlo.binary main_v58 main_v59 main_v60 (cmpf .ogt : (⟨S100000x128, .f32⟩ : BufTy).Contents (Elt F) → (⟨S100000x128, .f32⟩ : BufTy).Contents (Elt F) → (⟨S100000x128, .i1⟩ : BufTy).Contents (Elt F)),
    StableHlo.nullary main_cst_11 (constant S_ .f32 0x3C23D70A#32),
    StableHlo.unary main_cst_11 main_v61 (broadcastInDim S100000x128 ![] bcast_S_S100000x128 : (⟨S_, .f32⟩ : BufTy).Contents (Elt F) → (⟨S100000x128, .f32⟩ : BufTy).Contents (Elt F)),
    StableHlo.binary main_v61 main_v58 main_v62 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v60 : StableHlo.TRef sig ⟨S100000x128, .i1⟩) (.of main_v58 : StableHlo.TRef sig ⟨S100000x128, .f32⟩) (.of main_v62 : StableHlo.TRef sig ⟨S100000x128, .f32⟩) main_call2.v0 select,
    StableHlo.nullary main_c_12 (constantI S_ 32 0#32),
    StableHlo.unary main_c_12 main_v64 (broadcastInDim S1600000 ![] bcast_S_S1600000 : (⟨S_, .i32⟩ : BufTy).Contents (Elt F) → (⟨S1600000, .i32⟩ : BufTy).Contents (Elt F)),
    StableHlo.binary main_arg1 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v66 (broadcastInDim S1600000 ![] bcast_S_S1600000 : (⟨S_, .i32⟩ : BufTy).Contents (Elt F) → (⟨S1600000, .i32⟩ : BufTy).Contents (Elt F)),
    StableHlo.binary main_arg1 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_arg1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v71 (broadcastInDim S100000x128 ![] bcast_S_S100000x128 : (⟨S_, .f32⟩ : BufTy).Contents (Elt F) → (⟨S100000x128, .f32⟩ : BufTy).Contents (Elt F)),
    StableHlo.unary main_arg2 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v63 main_v73 main_v74 (addf : (⟨S100000x128, .f32⟩ : BufTy).Contents (Elt F) → (⟨S100000x128, .f32⟩ : BufTy).Contents (Elt F) → (⟨S100000x128, .f32⟩ : BufTy).Contents (Elt F)),
    StableHlo.binary main_v74 main_arg11 main_v75 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg12 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v77 main_v78 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x00000000#32),
    StableHlo.unary main_cst_15 main_v79 (broadcastInDim S100000x32 ![] bcast_S_S100000x32 : (⟨S_, .f32⟩ : BufTy).Contents (Elt F) → (⟨S100000x32, .f32⟩ : BufTy).Contents (Elt F)),
    StableHlo.binary main_v78 main_v79 main_v80 (maximumf : (⟨S100000x32, .f32⟩ : BufTy).Contents (Elt F) → (⟨S100000x32, .f32⟩ : BufTy).Contents (Elt F) → (⟨S100000x32, .f32⟩ : BufTy).Contents (Elt F)),
    StableHlo.nullary main_cst_16 (constant S_ .f32 0x00000000#32),
    StableHlo.binary main_v80 main_cst_16 main_v81 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_17 (constant S_ .f32 0x47C35000#32),
    StableHlo.unary main_cst_17 main_v82 (broadcastInDim S32 ![] bcast_S_S32 : (⟨S_, .f32⟩ : BufTy).Contents (Elt F) → (⟨S32, .f32⟩ : BufTy).Contents (Elt F)),
    StableHlo.binary main_v81 main_v82 main_v83 (Host.divf : (⟨S32, .f32⟩ : BufTy).Contents (Elt F) → (⟨S32, .f32⟩ : BufTy).Contents (Elt F) → (⟨S32, .f32⟩ : BufTy).Contents (Elt F)),
    StableHlo.nullary main_c_18 (constantI S_ 32 0#32),
    StableHlo.TRef.nullary main_call3.cst (constant S_ .f32 0x00000000#32),
    StableHlo.TRef.binary (.of main_v80 : StableHlo.TRef sig ⟨S100000x32, .f32⟩) main_call3.cst main_call3.v0 (fun x v => Host.reduceAdd x v reducesTo_S100000x32_S32_d0 h_S_),
    StableHlo.TRef.unary main_call3.v0 main_call3.v1 (broadcastInDim S1x32 ![1] bcast_S32_S1x32_1),
    StableHlo.TRef.nullary main_call3.cst_0 (constant S_ .f32 0x47C35000#32),
    StableHlo.TRef.unary main_call3.cst_0 main_call3.v2 (broadcastInDim S1x32 ![] bcast_S_S1x32),
    StableHlo.TRef.binary main_call3.v1 main_call3.v2 main_call3.v3 Host.divf,
    StableHlo.TRef.unary main_call3.v3 main_call3.v4 (broadcastInDim S100000x32 ![0, 1] bcast_S1x32_S100000x32_0_1),
    StableHlo.TRef.binary (.of main_v80 : StableHlo.TRef sig ⟨S100000x32, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x32_S32_d0 h_S_),
    StableHlo.TRef.unary main_call3.v8 main_call3.v10 (broadcastInDim S32 ![] bcast_S_S32),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S32 ![] bcast_S_S32),
    StableHlo.TRef.ternary main_call3.v12 main_call3.v11 main_call3.call0.v1 main_call3.call0.v2 (fun p a b => select (broadcastInDim S32 ![] bcast_S_S32 p) a b),
    StableHlo.unary main_v83 main_v85 (broadcastInDim S1x32 ![1] bcast_S32_S1x32_1 : (⟨S32, .f32⟩ : BufTy).Contents (Elt F) → (⟨S1x32, .f32⟩ : BufTy).Contents (Elt F)),
    StableHlo.unary main_v85 main_v86 (broadcastInDim S100000x32 ![0, 1] bcast_S1x32_S100000x32_0_1 : (⟨S1x32, .f32⟩ : BufTy).Contents (Elt F) → (⟨S100000x32, .f32⟩ : BufTy).Contents (Elt F)),
    StableHlo.binary main_v80 main_v86 main_v87 (subf : (⟨S100000x32, .f32⟩ : BufTy).Contents (Elt F) → (⟨S100000x32, .f32⟩ : BufTy).Contents (Elt F) → (⟨S100000x32, .f32⟩ : BufTy).Contents (Elt F)),
    StableHlo.nullary main_cst_19 (constant S_ .f32 0x3727C5AC#32),
    StableHlo.unary main_cst_19 main_v88 (broadcastInDim S32 ![] bcast_S_S32 : (⟨S_, .f32⟩ : BufTy).Contents (Elt F) → (⟨S32, .f32⟩ : BufTy).Contents (Elt F)),
    StableHlo.binary main_v84 main_v88 main_v89 (addf : (⟨S32, .f32⟩ : BufTy).Contents (Elt F) → (⟨S32, .f32⟩ : BufTy).Contents (Elt F) → (⟨S32, .f32⟩ : BufTy).Contents (Elt F)),
    StableHlo.unary main_v89 main_v90 (Host.rsqrt : (⟨S32, .f32⟩ : BufTy).Contents (Elt F) → (⟨S32, .f32⟩ : BufTy).Contents (Elt F)),
    StableHlo.unary main_v90 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S100000x32 ![0, 1] bcast_S1x32_S100000x32_0_1 : (⟨S1x32, .f32⟩ : BufTy).Contents (Elt F) → (⟨S100000x32, .f32⟩ : BufTy).Contents (Elt F)),
    StableHlo.binary main_v87 main_v92 main_v93 (mulf : (⟨S100000x32, .f32⟩ : BufTy).Contents (Elt F) → (⟨S100000x32, .f32⟩ : BufTy).Contents (Elt F) → (⟨S100000x32, .f32⟩ : BufTy).Contents (Elt F)),
    StableHlo.unary main_arg13 main_v94 (broadcastInDim S1x32 ![1] bcast_S32_S1x32_1 : (⟨S32, .f32⟩ : BufTy).Contents (Elt F) → (⟨S1x32, .f32⟩ : BufTy).Contents (Elt F)),
    StableHlo.unary main_v94 main_v95 (broadcastInDim S100000x32 ![0, 1] bcast_S1x32_S100000x32_0_1 : (⟨S1x32, .f32⟩ : BufTy).Contents (Elt F) → (⟨S100000x32, .f32⟩ : BufTy).Contents (Elt F)),
    StableHlo.binary main_v93 main_v95 main_v96 (mulf : (⟨S100000x32, .f32⟩ : BufTy).Contents (Elt F) → (⟨S100000x32, .f32⟩ : BufTy).Contents (Elt F) → (⟨S100000x32, .f32⟩ : BufTy).Contents (Elt F)),
    StableHlo.unary main_arg14 main_v97 (broadcastInDim S1x32 ![1] bcast_S32_S1x32_1 : (⟨S32, .f32⟩ : BufTy).Contents (Elt F) → (⟨S1x32, .f32⟩ : BufTy).Contents (Elt F)),
    StableHlo.unary main_v97 main_v98 (broadcastInDim S100000x32 ![0, 1] bcast_S1x32_S100000x32_0_1 : (⟨S1x32, .f32⟩ : BufTy).Contents (Elt F) → (⟨S100000x32, .f32⟩ : BufTy).Contents (Elt F)),
    StableHlo.binary main_v96 main_v98 main_v99 (addf : (⟨S100000x32, .f32⟩ : BufTy).Contents (Elt F) → (⟨S100000x32, .f32⟩ : BufTy).Contents (Elt F) → (⟨S100000x32, .f32⟩ : BufTy).Contents (Elt F)),
    StableHlo.binary main_v99 main_arg15 main_v100 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg16 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x00000000#32),
    StableHlo.binary main_v103 main_cst_20 main_v104 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v105 (broadcastInDim S128 ![] bcast_S_S128 : (⟨S_, .f32⟩ : BufTy).Contents (Elt F) → (⟨S128, .f32⟩ : BufTy).Contents (Elt F)),
    StableHlo.binary main_v104 main_v105 main_v106 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call4.cst (constant S_ .f32 0x00000000#32),
    StableHlo.TRef.binary (.of main_v103 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v103 : StableHlo.TRef sig ⟨S100000x128, .f32⟩) main_call4.v4 main_call4.v5 subf,
    StableHlo.TRef.binary main_call4.v5 main_call4.v5 main_call4.v6 mulf,
    StableHlo.TRef.unary (.of main_c_22 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v106 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v109 main_v110 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v111 (broadcastInDim S128 ![] bcast_S_S128 : (⟨S_, .f32⟩ : BufTy).Contents (Elt F) → (⟨S128, .f32⟩ : BufTy).Contents (Elt F)),
    StableHlo.binary main_v107 main_v111 main_v112 (addf : (⟨S128, .f32⟩ : BufTy).Contents (Elt F) → (⟨S128, .f32⟩ : BufTy).Contents (Elt F) → (⟨S128, .f32⟩ : BufTy).Contents (Elt F)),
    StableHlo.unary main_v112 main_v113 (Host.rsqrt : (⟨S128, .f32⟩ : BufTy).Contents (Elt F) → (⟨S128, .f32⟩ : BufTy).Contents (Elt F)),
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v115 main_v116 (mulf : (⟨S100000x128, .f32⟩ : BufTy).Contents (Elt F) → (⟨S100000x128, .f32⟩ : BufTy).Contents (Elt F) → (⟨S100000x128, .f32⟩ : BufTy).Contents (Elt F)),
    StableHlo.unary main_arg17 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v118 main_v119 (mulf : (⟨S100000x128, .f32⟩ : BufTy).Contents (Elt F) → (⟨S100000x128, .f32⟩ : BufTy).Contents (Elt F) → (⟨S100000x128, .f32⟩ : BufTy).Contents (Elt F)),
    StableHlo.unary main_arg18 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.unary main_cst_24 main_v123 (broadcastInDim S100000x128 ![] bcast_S_S100000x128 : (⟨S_, .f32⟩ : BufTy).Contents (Elt F) → (⟨S100000x128, .f32⟩ : BufTy).Contents (Elt F)),
    StableHlo.binary main_v122 main_v123 main_v124 (cmpf .ogt : (⟨S100000x128, .f32⟩ : BufTy).Contents (Elt F) → (⟨S100000x128, .f32⟩ : BufTy).Contents (Elt F) → (⟨S100000x128, .i1⟩ : BufTy).Contents (Elt F)),
    StableHlo.nullary main_cst_25 (constant S_ .f32 0x3C23D70A#32),
    StableHlo.unary main_cst_25 main_v125 (broadcastInDim S100000x128 ![] bcast_S_S100000x128 : (⟨S_, .f32⟩ : BufTy).Contents (Elt F) → (⟨S100000x128, .f32⟩ : BufTy).Contents (Elt F)),
    StableHlo.binary main_v125 main_v122 main_v126 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v124 : StableHlo.TRef sig ⟨S100000x128, .i1⟩) (.of main_v122 : StableHlo.TRef sig ⟨S100000x128, .f32⟩) (.of main_v126 : StableHlo.TRef sig ⟨S100000x128, .f32⟩) main_call5.v0 select ]

/-- The whole list is the six stretches in order. -/
theorem ops_eq : (ops : List (HloOp τ sig (Elt F))) = s1 ++ (s2 ++ (s3 ++ (s4 ++ (s5 ++ s6)))) := rfl

-- 240 binds re-associated: the rewrite under the chain recurses once per statement
set_option maxRecDepth 16384 in
set_option maxHeartbeats 8000000 in
/-- @main is that straight line: the three windows and the outlined functions unfolded at their calls, both sides are
    one chain of steps once sequencing is re-associated. -/
theorem main_eq (c : Dev nD) : main (F := F) c = seq ops := by
  simp only [main, main_part0, main_part1, main_part2, fn_var.body, fn_var_0.body, fn_where.body, fn_where_1.body,
    fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..⟩

set_option maxRecDepth 16384 in
set_option maxHeartbeats 8000000 in
/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefRun.lean ====
/-
  The reference program's run read back as the specification: on every device every weakly fair execution of @main
  terminates with the result buffer at `Spec.net` of the nineteen arguments' launch contents and the arguments
  unchanged. The operation list is read stretch by stretch: each of the six stretches leaves in its last buffer one
  stage function of the specification (per layer: `hidden`, `second`, `third`) applied to buffers no operation of the
  stretch writes, and writes none of the buffers a later stretch reads; the six reads compose to `net`.
-/
import proofs.«134813_j35914516529300_1_alg».proof.Proof.RefOps
import proofs.«134813_j35914516529300_1_alg».proof.Proof.Spec

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists one after the other is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes, and so what it keeps -/

/-- The buffers stretch 1 writes: one per operation. -/
abbrev W1 : List (Ref sig .tc) :=
  [main_c, main_v0, main_v1, main_c_0, main_v2, main_v3, main_v4, main_v5,
   main_v6, main_cst, main_v7, main_v8, main_v9, main_v10, main_v11, main_v12,
   main_v13, main_v14, main_cst_1, main_v15, main_v16]
set_option maxRecDepth 8192 in
theorem s1_writes : (s1 : List (HloOp τ sig (Elt F))).Forall fun op =>
    op.writes ⊆ (W1.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 1 does not write keeps its contents through it. -/
theorem s1_keep (V : Valuation τ sig (Elt F)) (r : Ref sig .tc) (h : r ∉ W1) :
    after s1 V (Proc.devRef .tc r) = V (Proc.devRef .tc r) :=
  after_of_writes_sub s1 V s1_writes h

/-- The buffers stretch 2 writes: one per operation. -/
abbrev W2 : List (Ref sig .tc) :=
  [main_cst_2, main_v17, main_cst_3, main_v18, main_v19, main_c_4, main_call0_cst, main_call0_v0,
   main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12,
   main_call0_cst_4, main_call0_call0_v0, main_call0_call0_v1, main_v20, main_v21, main_v22, main_v23, main_cst_5,
   main_v24, main_v25, main_v26, main_v27, main_v28, main_v29, main_v30, main_v31,
   main_v32, main_v33, main_v34, main_v35, main_v36, main_v37, main_v38, main_v39]
set_option maxRecDepth 8192 in
theorem s2_writes : (s2 : List (HloOp τ sig (Elt F))).Forall fun op =>
    op.writes ⊆ (W2.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 2 does not write keeps its contents through it. -/
theorem s2_keep (V : Valuation τ sig (Elt F)) (r : Ref sig .tc) (h : r ∉ W2) :
    after s2 V (Proc.devRef .tc r) = V (Proc.devRef .tc r) :=
  after_of_writes_sub s2 V s2_writes h

/-- The buffers stretch 3 writes: one per operation. -/
abbrev W3 : List (Ref sig .tc) :=
  [main_cst_6, main_v40, main_cst_7, main_v41, main_v42, main_c_8, main_call1_cst, main_call1_v0,
   main_call1_v1, main_call1_cst_0, main_call1_v2, main_call1_v3, main_call1_v4, main_call1_v5, main_call1_v6, main_call1_v7,
   main_call1_cst_1, main_call1_v8, main_call1_cst_2, main_call1_v9, main_call1_v10, main_call1_v11, main_call1_cst_3, main_call1_v12,
   main_call1_cst_4, main_call1_call0_v0, main_call1_call0_v1, main_v43, main_v44, main_v45, main_v46, main_cst_9,
   main_v47, main_v48, main_v49, main_v50, main_v51, main_v52, main_v53, main_v54,
   main_v55, main_v56, main_v57, main_v58, main_cst_10, main_v59, main_v60, main_cst_11,
   main_v61, main_v62, main_v63]
set_option maxRecDepth 8192 in
theorem s3_writes : (s3 : List (HloOp τ sig (Elt F))).Forall fun op =>
    op.writes ⊆ (W3.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 3 does not write keeps its contents through it. -/
theorem s3_keep (V : Valuation τ sig (Elt F)) (r : Ref sig .tc) (h : r ∉ W3) :
    after s3 V (Proc.devRef .tc r) = V (Proc.devRef .tc r) :=
  after_of_writes_sub s3 V s3_writes h

/-- The buffers stretch 4 writes: one per operation. -/
abbrev W4 : List (Ref sig .tc) :=
  [main_c_12, main_v64, main_v65, main_c_13, main_v66, main_v67, main_v68, main_v69,
   main_v70, main_cst_14, main_v71, main_v72, main_v73, main_v74, main_v75, main_v76,
   main_v77, main_v78, main_cst_15, main_v79, main_v80]
set_option maxRecDepth 8192 in
theorem s4_writes : (s4 : List (HloOp τ sig (Elt F))).Forall fun op =>
    op.writes ⊆ (W4.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 4 does not write keeps its contents through it. -/
theorem s4_keep (V : Valuation τ sig (Elt F)) (r : Ref sig .tc) (h : r ∉ W4) :
    after s4 V (Proc.devRef .tc r) = V (Proc.devRef .tc r) :=
  after_of_writes_sub s4 V s4_writes h

/-- The buffers stretch 5 writes: one per operation. -/
abbrev W5 : List (Ref sig .tc) :=
  [main_cst_16, main_v81, main_cst_17, main_v82, main_v83, main_c_18, main_call3_cst, main_call3_v0,
   main_call3_v1, main_call3_cst_0, main_call3_v2, main_call3_v3, main_call3_v4, main_call3_v5, main_call3_v6, main_call3_v7,
   main_call3_cst_1, main_call3_v8, main_call3_cst_2, main_call3_v9, main_call3_v10, main_call3_v11, main_call3_cst_3, main_call3_v12,
   main_call3_cst_4, main_call3_call0_v0, main_call3_call0_v1, main_v84, main_v85, main_v86, main_v87, main_cst_19,
   main_v88, main_v89, main_v90, main_v91, main_v92, main_v93, main_v94, main_v95,
   main_v96, main_v97, main_v98, main_v99, main_v100, main_v101, main_v102, main_v103]
set_option maxRecDepth 8192 in
theorem s5_writes : (s5 : List (HloOp τ sig (Elt F))).Forall fun op =>
    op.writes ⊆ (W5.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 5 does not write keeps its contents through it. -/
theorem s5_keep (V : Valuation τ sig (Elt F)) (r : Ref sig .tc) (h : r ∉ W5) :
    after s5 V (Proc.devRef .tc r) = V (Proc.devRef .tc r) :=
  after_of_writes_sub s5 V s5_writes h

/-- The buffers stretch 6 writes: one per operation. -/
abbrev W6 : List (Ref sig .tc) :=
  [main_cst_20, main_v104, main_cst_21, main_v105, main_v106, main_c_22, main_call4_cst, main_call4_v0,
   main_call4_v1, main_call4_cst_0, main_call4_v2, main_call4_v3, main_call4_v4, main_call4_v5, main_call4_v6, main_call4_v7,
   main_call4_cst_1, main_call4_v8, main_call4_cst_2, main_call4_v9, main_call4_v10, main_call4_v11, main_call4_cst_3, main_call4_v12,
   main_call4_cst_4, main_call4_call0_v0, main_call4_call0_v1, main_v107, main_v108, main_v109, main_v110, main_cst_23,
   main_v111, main_v112, main_v113, main_v114, main_v115, main_v116, main_v117, main_v118,
   main_v119, main_v120, main_v121, main_v122, main_cst_24, main_v123, main_v124, main_cst_25,
   main_v125, main_v126, main_v127]
set_option maxRecDepth 8192 in
theorem s6_writes : (s6 : List (HloOp τ sig (Elt F))).Forall fun op =>
    op.writes ⊆ (W6.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 6 does not write keeps its contents through it. -/
theorem s6_keep (V : Valuation τ sig (Elt F)) (r : Ref sig .tc) (h : r ∉ W6) :
    after s6 V (Proc.devRef .tc r) = V (Proc.devRef .tc r) :=
  after_of_writes_sub s6 V s6_writes h

/-! ## What each stretch leaves in its last buffer

Each operation's result at its own buffer is its function of the operands' contents, and at any other buffer what was
there; the composed term is the stage function unfolded, the typed references' conversions being the identity at these
literal references. -/

set_option maxRecDepth 16384 in
set_option maxHeartbeats 4000000 in
/-- Stretch 1 leaves the hidden layer of layer one, of the arguments. -/
theorem s1_out (V : Valuation τ sig (Elt F)) :
    after s1 V (main_v16 : DevRef τ sig)
      = Spec.hidden (F := F) (V (main_arg0 : DevRef τ sig)) (V (main_arg1 : DevRef τ sig)) (V (main_arg2 : DevRef τ sig)) (V (main_arg3 : DevRef τ sig)) (V (main_arg4 : DevRef τ sig)) := by
  simp only [s1]
  after_results_simp
  rfl

set_option maxRecDepth 16384 in
set_option maxHeartbeats 4000000 in
/-- Stretch 2 leaves the second linear map's output of layer one, of the hidden layer's buffer and the arguments. -/
theorem s2_out (V : Valuation τ sig (Elt F)) :
    after s2 V (main_v39 : DevRef τ sig)
      = Spec.second (F := F) (V (main_v16 : DevRef τ sig)) (V (main_arg5 : DevRef τ sig)) (V (main_arg6 : DevRef τ sig)) (V (main_arg7 : DevRef τ sig)) (V (main_arg8 : DevRef τ sig)) := by
  simp only [s2]
  after_results_simp
  rfl

set_option maxRecDepth 16384 in
set_option maxHeartbeats 4000000 in
/-- Stretch 3 leaves layer one's output, of the second linear map's buffer and the arguments. -/
theorem s3_out (V : Valuation τ sig (Elt F)) :
    after s3 V (main_v63 : DevRef τ sig)
      = Spec.third (F := F) (V (main_v39 : DevRef τ sig)) (V (main_arg9 : DevRef τ sig)) (V (main_arg10 : DevRef τ sig)) := by
  simp only [s3]
  after_results_simp
  rfl

set_option maxRecDepth 16384 in
set_option maxHeartbeats 4000000 in
/-- Stretch 4 leaves the hidden layer of layer two, of layer one's output buffer and the arguments. -/
theorem s4_out (V : Valuation τ sig (Elt F)) :
    after s4 V (main_v80 : DevRef τ sig)
      = Spec.hidden (F := F) (V (main_v63 : DevRef τ sig)) (V (main_arg1 : DevRef τ sig)) (V (main_arg2 : DevRef τ sig)) (V (main_arg11 : DevRef τ sig)) (V (main_arg12 : DevRef τ sig)) := by
  simp only [s4]
  after_results_simp
  rfl

set_option maxRecDepth 16384 in
set_option maxHeartbeats 4000000 in
/-- Stretch 5 leaves the second linear map's output of layer two, of the hidden layer's buffer and the arguments. -/
theorem s5_out (V : Valuation τ sig (Elt F)) :
    after s5 V (main_v103 : DevRef τ sig)
      = Spec.second (F := F) (V (main_v80 : DevRef τ sig)) (V (main_arg13 : DevRef τ sig)) (V (main_arg14 : DevRef τ sig)) (V (main_arg15 : DevRef τ sig)) (V (main_arg16 : DevRef τ sig)) := by
  simp only [s5]
  after_results_simp
  rfl

set_option maxRecDepth 16384 in
set_option maxHeartbeats 4000000 in
/-- Stretch 6 leaves the network's output, of the second linear map's buffer and the arguments. -/
theorem s6_out (V : Valuation τ sig (Elt F)) :
    after s6 V (main_v127 : DevRef τ sig)
      = Spec.third (F := F) (V (main_v103 : DevRef τ sig)) (V (main_arg17 : DevRef τ sig)) (V (main_arg18 : DevRef τ sig)) := by
  simp only [s6]
  after_results_simp
  rfl

/-! ## The six reads composed -/

/-- The result buffer after the whole list is the network of the nineteen arguments' contents: stretch by stretch
    from the last, each stretch's read and the buffers it keeps. -/
theorem out_eq (V : Valuation τ sig (Elt F)) :
    after ops V (main_v127 : DevRef τ sig)
      = Spec.net (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [ops_eq, after_app, after_app, after_app, after_app, after_app]
  rw [s6_out]
  rw [s5_out]
  rw [s5_keep _ main_arg17 (by decide)]
  rw [s5_keep _ main_arg18 (by decide)]
  rw [s4_out]
  rw [s4_keep _ main_arg17 (by decide)]
  rw [s4_keep _ main_arg18 (by decide)]
  rw [s4_keep _ main_arg13 (by decide)]
  rw [s4_keep _ main_arg14 (by decide)]
  rw [s4_keep _ main_arg15 (by decide)]
  rw [s4_keep _ main_arg16 (by decide)]
  rw [s3_out]
  rw [s3_keep _ main_arg17 (by decide)]
  rw [s3_keep _ main_arg18 (by decide)]
  rw [s3_keep _ main_arg13 (by decide)]
  rw [s3_keep _ main_arg14 (by decide)]
  rw [s3_keep _ main_arg15 (by decide)]
  rw [s3_keep _ main_arg16 (by decide)]
  rw [s3_keep _ main_arg1 (by decide)]
  rw [s3_keep _ main_arg2 (by decide)]
  rw [s3_keep _ main_arg11 (by decide)]
  rw [s3_keep _ main_arg12 (by decide)]
  rw [s2_out]
  rw [s2_keep _ main_arg17 (by decide)]
  rw [s2_keep _ main_arg18 (by decide)]
  rw [s2_keep _ main_arg13 (by decide)]
  rw [s2_keep _ main_arg14 (by decide)]
  rw [s2_keep _ main_arg15 (by decide)]
  rw [s2_keep _ main_arg16 (by decide)]
  rw [s2_keep _ main_arg1 (by decide)]
  rw [s2_keep _ main_arg2 (by decide)]
  rw [s2_keep _ main_arg11 (by decide)]
  rw [s2_keep _ main_arg12 (by decide)]
  rw [s2_keep _ main_arg9 (by decide)]
  rw [s2_keep _ main_arg10 (by decide)]
  rw [s1_out]
  rw [s1_keep _ main_arg17 (by decide)]
  rw [s1_keep _ main_arg18 (by decide)]
  rw [s1_keep _ main_arg13 (by decide)]
  rw [s1_keep _ main_arg14 (by decide)]
  rw [s1_keep _ main_arg15 (by decide)]
  rw [s1_keep _ main_arg16 (by decide)]
  rw [s1_keep _ main_arg1 (by decide)]
  rw [s1_keep _ main_arg2 (by decide)]
  rw [s1_keep _ main_arg11 (by decide)]
  rw [s1_keep _ main_arg12 (by decide)]
  rw [s1_keep _ main_arg9 (by decide)]
  rw [s1_keep _ main_arg10 (by decide)]
  rw [s1_keep _ main_arg5 (by decide)]
  rw [s1_keep _ main_arg6 (by decide)]
  rw [s1_keep _ main_arg7 (by decide)]
  rw [s1_keep _ main_arg8 (by decide)]
  rfl

/-- A buffer none of the six stretches writes keeps its contents through the whole list. -/
theorem ops_keep (V : Valuation τ sig (Elt F)) (r : Ref sig .tc)
    (h1 : r ∉ W1) (h2 : r ∉ W2) (h3 : r ∉ W3) (h4 : r ∉ W4) (h5 : r ∉ W5) (h6 : r ∉ W6) :
    after ops V (Proc.devRef .tc r) = V (Proc.devRef .tc r) := by
  rw [ops_eq, after_app, after_app, after_app, after_app, after_app,
    s6_keep _ r h6, s5_keep _ r h5, s4_keep _ r h4, s3_keep _ r h3, s2_keep _ r h2, s1_keep _ r h1]

/-! ## The run -/

/-- On every device, for any float values, from any memory with zero counters: every weakly fair execution of @main
    terminates with the result buffer at the network of the arguments' launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v127)
          = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v127).trans (out_eq _),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide)),
      (h c main_arg18).trans (ops_keep _ main_arg18 (by decide) (by decide) (by decide) (by decide) (by decide) (by decide))⟩)
    (run_main m ρ)

end Cert.RefRun

end
-- ==== Proof.lean ====
/-
  A two-layer graph network over 100000 nodes and 1600000 edges.  Each layer sums, for every node, the feature rows of
  its in-neighbours (a gather followed by an accumulating scatter), adds the node's own row, applies a linear map to
  32 features with a rectifier, normalises each of the 32 columns by its batch mean and biased batch variance, applies
  a linear map back to 128 features, normalises those columns likewise and ends with a leaky rectifier.

  The kernel program computes a layer by three launches, each over ten blocks of 10000 rows, with the neighbour sums
  and the batch statistics computed by host operations between the launches; the reference program is the same layer
  written with host operations only.  Read at exact extended reals the two agree operation by operation: a change of
  float format is the identity, a matrix product into a zero accumulator is the host's product, a vector reshaped to
  one row and repeated down 10000 rows reads the same entry as the host's broadcast down 100000 rows, and ten row
  blocks tile the array.  No algebraic law beyond these is used, so the finiteness of the inputs is never opened.

  The pieces: `Spec` names the stages of a layer; `Region0` … `Region5` say what each launch leaves in its output
  array as a stage of the arrays it finds; `Chain1`, `Chain2`, `Chain` read the kernel program's boundaries to
  the network of its arguments; `KernelRun` is the kernel program's run with its result named; `RefRun` is the
  reference program's run.  The frames of the two kernel programs are the generated ones; the reference's frame is
  its run with the result dropped; the idealization rewrote nothing, so there is nothing to preserve.
-/
import proofs.«134813_j35914516529300_1_alg».proof.Defs
import proofs.«134813_j35914516529300_1_alg».proof.Proof.Gen.Kernel
import proofs.«134813_j35914516529300_1_alg».proof.Proof.Gen.Kernel.Skeleton
import proofs.«134813_j35914516529300_1_alg».proof.Proof.Gen.Kernel.Launch
import proofs.«134813_j35914516529300_1_alg».proof.Proof.Gen.Kernel.Points
import proofs.«134813_j35914516529300_1_alg».proof.Proof.Gen.Kernel.Frame
import proofs.«134813_j35914516529300_1_alg».proof.Proof.Gen.KernelIdeal
import proofs.«134813_j35914516529300_1_alg».proof.Proof.Gen.KernelIdeal.Skeleton
import proofs.«134813_j35914516529300_1_alg».proof.Proof.Gen.KernelIdeal.Launch
import proofs.«134813_j35914516529300_1_alg».proof.Proof.Gen.KernelIdeal.Points
import proofs.«134813_j35914516529300_1_alg».proof.Proof.Gen.KernelIdeal.Frame
import proofs.«134813_j35914516529300_1_alg».proof.Proof.Gen.ReferenceIdeal
import proofs.«134813_j35914516529300_1_alg».proof.Proof.Gen.Pre_finite_inputs
import proofs.«134813_j35914516529300_1_alg».proof.Proof.Spec
import proofs.«134813_j35914516529300_1_alg».proof.Proof.KernelRun
import proofs.«134813_j35914516529300_1_alg».proof.Proof.Chain
import proofs.«134813_j35914516529300_1_alg».proof.Proof.RefRun
import Idealize.ShloMosaic.PureOps.Ideal
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference program runs and leaves its arguments unchanged: its run, the result forgotten. -/
theorem frame_referenceIdeal : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- From memories that agree on the arguments both programs end with the network of those arguments in their result
    buffer: the kernel program by its boundaries read back, the reference program by its run. -/
theorem algebraic : Cert.algebraic_KernelIdeal_ReferenceIdeal := by
  intro m ρ m' ρ' _ hagree
  refine ⟨fun c => Cert.Spec.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨(h c).1.trans ?_, (h c).2⟩)
      (Cert.RefRun.run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
